-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S4x256x1024 : Shape := ⟨3, ![4, 256, 1024]⟩
abbrev S4x128x1024 : Shape := ⟨3, ![4, 128, 1024]⟩
abbrev S4x256x1 : Shape := ⟨3, ![4, 256, 1]⟩
abbrev S4x256x128 : Shape := ⟨3, ![4, 256, 128]⟩
abbrev S4x256 : Shape := ⟨2, ![4, 256]⟩
abbrev S1x1x1024 : Shape := ⟨3, ![1, 1, 1024]⟩

abbrev nBuf : Space → Nat
  | .hbm => 25
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S4x2048x1024, .bf16⟩
  | .hbm, ⟨22, _⟩ => ⟨S4x2048x1024, .bf16⟩
  | .hbm, ⟨23, _⟩ => ⟨S4x2048x1024, .bf16⟩
  | .hbm, ⟨24, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S4x256x1024, .bf16⟩
  | .local _ .vmem, ⟨15, _⟩ => ⟨S4x256x1024, .bf16⟩
  | .local _ .vmem, ⟨16, _⟩ => ⟨S4x128x1024, .bf16⟩
  | .local _ .vmem, ⟨17, _⟩ => ⟨S4x128x1024, .bf16⟩
  | .local _ .vmem, ⟨18, _⟩ => ⟨S4x128x1024, .bf16⟩
  | .local _ .vmem, ⟨19, _⟩ => ⟨S4x128x1024, .bf16⟩
  | .local _ .vmem, ⟨20, _⟩ => ⟨S1024x1024, .bf16⟩
  | .local _ .vmem, ⟨21, _⟩ => ⟨S1x1024, .f32⟩
  | .local _ .vmem, ⟨22, _⟩ => ⟨S4x256x1024, .f32⟩
  | .local _ .vmem, ⟨23, _⟩ => ⟨S4x256x1024, .f32⟩
  | .local _ .vmem, ⟨24, _⟩ => ⟨S4x256x1, .f32⟩
  | .local _ .vmem, ⟨25, _⟩ => ⟨S4x256x1, .f32⟩
  | .local _ .vmem, ⟨26, _⟩ => ⟨S4x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x128x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S4x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  inb_S4x128x1024_S4x128x1024_0_0_0 : ∀ a, (![0, 0, 0] : Fin 3 → Nat) a + S4x128x1024.size a ≤ S4x128x1024.size a
  h_S4x128x1024 : 0 < S4x128x1024.numel
  shapeCasts_S4x128x1024_S4x128x1024 : S4x128x1024.ShapeCasts S4x128x1024
  reduces_S4x256x128_S4x256 : S4x256x128.Reduces [2] S4x256
  shapeCasts_S4x256_S4x256x1 : S4x256.ShapeCasts S4x256x1
  broadcasts_S4x256x1_S4x256x128 : S4x256x1.Broadcasts S4x256x128
  broadcasts_S4x256x1_S4x256x1024 : S4x256x1.Broadcasts S4x256x1024
  shapeCasts_S4x256x1024_S1024x1024 : S4x256x1024.ShapeCasts S1024x1024
  shapeCasts_S1024x1024_S4x256x1024 : S1024x1024.ShapeCasts S4x256x1024
  shapeCasts_S1x1024_S1x1x1024 : S1x1024.ShapeCasts S1x1x1024
  broadcasts_S1x1x1024_S4x256x1024 : S1x1x1024.Broadcasts S4x256x1024
  dot_S1024x1024_S1024x1024_S1024x1024_1_1_0_0_n_n_wf : DotDims.WF S1024x1024 S1024x1024 S1024x1024 [1] [1] [0] [0] [] []
  dot_S4x256x1024_S4x128x1024_S4x256x128_2_2_1_1_0_0_wf : DotDims.WF S4x256x1024 S4x128x1024 S4x256x128 [2] [2] [1] [1] [0] [0]
  dot_S4x256x128_S4x128x1024_S4x256x1024_2_1_1_2_0_0_wf : DotDims.WF S4x256x128 S4x128x1024 S4x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x1024.size a
  hwx0_7 : ∀ i : grid0.Coords, EltTy.bits .bf16 = 32 ∨ (Rect.block (s := S8192x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S8192x1024.size a
  hwx0_8 : ∀ i : grid0.Coords, EltTy.bits .bf16 = 32 ∨ (Rect.block (s := S8192x1024) S1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S8192x1024.size a
  hwx0_9 : ∀ i : grid0.Coords, EltTy.bits .bf16 = 32 ∨ (Rect.block (s := S8192x1024) S1024x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x1024.size a ≤ S4x2048x1024.size a
  hwx1_0 : ∀ i : grid1.Coords, EltTy.bits .bf16 = 32 ∨ (Rect.block (s := S4x2048x1024) S4x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x128x1024.size a ≤ S4x2048x1024.size a
  hwx1_1 : ∀ i : grid1.Coords, EltTy.bits .bf16 = 32 ∨ (Rect.block (s := S4x2048x1024) S4x128x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x128x1024.size a ≤ S4x2048x1024.size a
  hwx1_2 : ∀ i : grid1.Coords, EltTy.bits .bf16 = 32 ∨ (Rect.block (s := S4x2048x1024) S4x128x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x256x1024.size a ≤ S4x2048x1024.size a
  hwx1_5 : ∀ i : grid1.Coords, EltTy.bits .f32 = 32 ∨ (Rect.block (s := S4x2048x1024) S4x256x1024.size (cc1_transform_5 i) (hinb1_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S4x256x1024_S4x128x1024_S4x256x128_2_2_1_1_0_0 : DotDims S4x256x1024 S4x128x1024 S4x256x128 where
  lhsContracting := [2]
  rhsContracting := [2]
  lhsNonContracting := [1]
  rhsNonContracting := [1]
  lhsBatch := [0]
  rhsBatch := [0]
  wf := dot_S4x256x1024_S4x128x1024_S4x256x128_2_2_1_1_0_0_wf
def dot_S4x256x128_S4x128x1024_S4x256x1024_2_1_1_2_0_0 : DotDims S4x256x128 S4x128x1024 S4x256x1024 where
  lhsContracting := [2]
  rhsContracting := [1]
  lhsNonContracting := [1]
  rhsNonContracting := [2]
  lhsBatch := [0]
  rhsBatch := [0]
  wf := dot_S4x256x128_S4x128x1024_S4x256x1024_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v10) S4x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4x128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S4x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KRegion0.lean ====
/- The first kernel region's body obligation of the kernel program, at any float instance: what the
   projection kernel finds in its input windows' staging buffers, what it leaves in its three output windows'
   buffers, its triple, and the pipeline's proof data at a parameter V (the buffers' contents when the region
   is entered). -/
import proofs.«171910_j33732673143663_2_alg».proof.Proof.Gen.KernelIdeal.Launch
import proofs.«171910_j33732673143663_2_alg».proof.Proof.Gen.KernelIdeal.Skeleton
import proofs.«171910_j33732673143663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block) holds its block at every point, fetched there or not, for any proof
    data whose array is V's and whose body leaves the block in place: an unfetched input's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the first weight matrix, whole, fetched once) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the first bias row) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 (the second weight matrix) likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 (the second bias row) likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5 (the third weight matrix) likewise. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6 (the third bias row) likewise. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024 × 1024 block. -/
abbrev r0_0 : Rect S1024x1024 := Rect.unit (s := S1024x1024) ![0, 0] S1024x1024.size inb_S1024x1024_S1024x1024_0_0
/-- The whole 1 × 1024 bias row. -/
abbrev r0_1 : Rect S1x1024 := Rect.unit (s := S1x1024) ![0, 0] S1x1024.size inb_S1x1024_S1x1024_0_0

/-! ## What the body leaves in each output window's buffer -/

/-- Window 7's staging buffer after the body, from the input windows' blocks: its one store, of the rounded
    product of the rounded activations with the first weight matrix plus the first bias row. -/
def out0_7 (x0 : Vec F S1024x1024 .f32) (x1 : Vec F S1024x1024 .bf16) (x2 : Vec F S1x1024 .f32) : Vec F S1024x1024 .bf16 :=
  View.canon [⟨r0_0, k0_pay2 (View.ld x0 r0_0) (View.ld x1 r0_0) (View.ld x2 r0_1)⟩]
/-- Window 8's, from the second weight matrix and bias row. -/
def out0_8 (x0 : Vec F S1024x1024 .f32) (x3 : Vec F S1024x1024 .bf16) (x4 : Vec F S1x1024 .f32) : Vec F S1024x1024 .bf16 :=
  View.canon [⟨r0_0, k0_pay3 (View.ld x0 r0_0) (View.ld x3 r0_0) (View.ld x4 r0_1)⟩]
/-- Window 9's, from the third weight matrix and bias row. -/
def out0_9 (x0 : Vec F S1024x1024 .f32) (x5 : Vec F S1024x1024 .bf16) (x6 : Vec F S1x1024 .f32) : Vec F S1024x1024 .bf16 :=
  View.canon [⟨r0_0, k0_pay4 (View.ld x0 r0_0) (View.ld x5 r0_0) (View.ld x6 r0_1)⟩]

/-- One store of the whole block tiles the buffer (one block index per axis), so it covers it. -/
theorem cover0 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The kernel body on whole staging memrefs, the inputs' at read contents xW and the outputs' at anything, runs to
    the continuation holding the inputs' as they were and each output's at out0_W of the inputs'. The body loads each
    output's buffer before storing the whole of it; the loaded value is not used, so any contents will do. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S1024x1024 .bf16) (harg8 : arg8.IsWhole)
    (arg9 : Memref sig .tc .vmem S1024x1024 .bf16) (harg9 : arg9.IsWhole) (arg10 : Memref sig .tc .vmem S1024x1024 .bf16) (harg10 : arg10.IsWhole)
    (x0 : Vec F S1024x1024 .f32) (x1 : Vec F S1024x1024 .bf16) (x2 : Vec F S1x1024 .f32) (x3 : Vec F S1024x1024 .bf16)
    (x4 : Vec F S1x1024 .f32) (x5 : Vec F S1024x1024 .bf16) (x6 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2) ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The proof data of pipeline 0 on core c: the arrays as the region finds them (V); after the body at point t each
    input's buffer at its block and each output's at out0_W of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's match reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point t (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (before0_W), so sound_kernel0 applies; the invariant
    and the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KRegion1Defs.lean ====
/-
  The attention region (the second kernel launch) — what its per-point runs share.

  The grid is 8 query tiles by 16 key tiles, walked key tile fastest: point `t` is query tile `t / 16`, key tile
  `t % 16`. At a key tile 0 the body first resets its three carried buffers (the running maximum to −∞, the running
  normaliser and the running weighted sum to 0); at every point it folds one key tile into them; at key tile 15 it
  divides the weighted sum by the normaliser, applies the output projection and stores the query tile's result. So the
  result's staging buffer is written at the points ≡ 15 (mod 16) only, which are exactly the points that write it back;
  elsewhere it is idle.
-/
import proofs.«171910_j33732673143663_2_alg».proof.Proof.Gen.KernelIdeal.Launch
import proofs.«171910_j33732673143663_2_alg».proof.Proof.Gen.KernelIdeal.Skeleton
import proofs.«171910_j33732673143663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "This is the first key tile of the row of points": the reset's condition, as the body computes it. -/
abbrev cond1_0 (i : grid1.Coords) : Prop :=
  (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key tile": the finalisation's condition. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last key tile the result's window is idle (nothing is stored into it) and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last key tile it is live, and written back. -/
theorem liveAt1_5 : ∀ t : Fin cfg1.N, cond1_1 (grid1.coords t) → cfg1.idle 5 (grid1.coords t) = false := by decide +kernel
theorem flushAt1_5 : ∀ t : Fin cfg1.N, cond1_1 (grid1.coords t) → (cfg1.win 5).flush t = true := by decide +kernel

/-! ## The staging and scratch memrefs as the pipeline passes them -/

abbrev ms1_0 (t : Fin cfg1.N) : Memref sig .tc .vmem S4x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x128x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x128x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4x256x1024 .f32 := win1_5.stage (cfg1.slots t 5)
abbrev hs1_5 (t : Fin cfg1.N) : (ms1_5 t).IsWhole := hstage1_5 ((cfg1.slots t 5).cast nbuf1_5)
/-- The three carried buffers: the running maximum, the running normaliser, the running weighted sum. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x1024 .f32 := Memref.whole cc1_scratch2

end Cert.KernelIdeal.Hand

end
-- ==== Proof.KRegion1RunA.lean ====
/-
  The attention body at the first key tile of a row of points: the three carried buffers are reset (the running maximum
  to −∞, the normaliser and the weighted sum to 0) and the first key tile is folded into them; the result's buffer is
  untouched.
-/
import proofs.«171910_j33732673143663_2_alg».proof.Proof.KRegion1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs' at their contents, the result's at contents handed back untouched, the
    three carried buffers at anything — the body runs to the continuation holding the inputs' as they were and each
    carried buffer with its stores written, as pieces the run finds. -/
noncomputable def kernelRun1_A (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i)
    (x0 : Vec F S4x256x1024 .bf16) (x1 : Vec F S4x128x1024 .bf16) (x2 : Vec F S4x128x1024 .bf16) (x3 : Vec F S1024x1024 .bf16) (x4 : Vec F S1x1024 .f32) :
    Σ' (LS0 : List (View.Piece (Elt F) S4x256x1 .f32)) (LS1 : List (View.Piece (Elt F) S4x256x1 .f32)), { LS2 : List (View.Piece (Elt F) S4x256x1024 .f32) //
      ∀ (xi5 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KRegion1RunB.lean ====
/-
  The attention body at a middle key tile (neither the first nor the last of its row of points): one key tile folded
  into the three carried buffers, the result's buffer untouched.
-/
import proofs.«171910_j33732673143663_2_alg».proof.Proof.KRegion1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs' at their contents, the result's at contents handed back untouched, the
    three carried buffers at what the point before left — the body runs to the continuation holding the inputs' as they
    were and each carried buffer with its stores written, as pieces the run finds. -/
noncomputable def kernelRun1_B (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i)
    (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) :
    Σ' (LS0 : List (View.Piece (Elt F) S4x256x1 .f32)) (LS1 : List (View.Piece (Elt F) S4x256x1 .f32)), { LS2 : List (View.Piece (Elt F) S4x256x1024 .f32) //
      ∀ (xi5 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KRegion1RunC.lean ====
/-
  The attention body at the last key tile of a row of points: the last key tile is folded into the three carried
  buffers, then the weighted sum is divided by the normaliser, projected, and stored as the query tile's result.
-/
import proofs.«171910_j33732673143663_2_alg».proof.Proof.KRegion1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs' at their contents, the result's at anything, the three carried buffers at
    what the point before left — the body runs to the continuation holding the inputs' as they were, each carried buffer
    and the result's buffer with their stores written, as pieces the run finds. -/
noncomputable def kernelRun1_C (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i)
    (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) :
    Σ' (L5 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KRegion1Frame.lean ====
/-
  The attention region's proof data and body obligation.

  After the body at point `t` the three carried buffers hold the online-softmax state of the query tile `t / 16` over the
  key tiles `0 … t % 16`: by recursion on the point — reset and one fold at a key tile 0, one more fold at every later
  key tile of the row, each fold over what the point before left. The result's buffer is stored at the last key tile only.
-/
import proofs.«171910_j33732673143663_2_alg».proof.Proof.KRegion1RunA
import proofs.«171910_j33732673143663_2_alg».proof.Proof.KRegion1RunB
import proofs.«171910_j33732673143663_2_alg».proof.Proof.KRegion1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, fetched there or not: an unfetched input's block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point, fetched there or not: an unfetched input's block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point, fetched there or not: an unfetched input's block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every point, fetched there or not: an unfetched input's block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every point, fetched there or not: an unfetched input's block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The views through which the result's buffer and the carried buffers' contents are stated. -/
abbrev VO1_5 : View sig .tc .vmem S4x256x1024 .f32 := (Memref.whole cc1_stg5_0 : Memref sig .tc .vmem S4x256x1024 .f32).view
abbrev VS1_0 : View sig .tc .vmem S4x256x1 .f32 := scM1_0.view
abbrev VS1_1 : View sig .tc .vmem S4x256x1 .f32 := scM1_1.view
abbrev VS1_2 : View sig .tc .vmem S4x256x1024 .f32 := scM1_2.view

/-- A placeholder for the result's buffer at a point that stores nothing into it (never consulted: the window is idle there). -/
def outIdle1 : Vec F S4x256x1024 .f32 := VO1_5.read (Elt F) (VO1_5.writes (Elt F) VO1_5.junk [])

/-- What this case leaves in carried buffer 0: its stores read back. -/
def sout1_A_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) : Vec F S4x256x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).1)
/-- Its stores cover the buffer. -/
theorem scover1_A_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (y : S4x256x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL ((kernelRun1_A c i arg2 harg2 arg3 harg3 arg4 harg4 arg5 harg5 arg6 harg6 arg7 harg7 arg8 harg8 arg9 harg9 arg10 harg10 hc0 hc1 x0 x1 x2 x3 x4).1) S4x256x1.size (by sl_kernel_rfl) y

/-- What this case leaves in carried buffer 1: its stores read back. -/
def sout1_A_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) : Vec F S4x256x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.1)
/-- Its stores cover the buffer. -/
theorem scover1_A_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (y : S4x256x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL ((kernelRun1_A c i arg2 harg2 arg3 harg3 arg4 harg4 arg5 harg5 arg6 harg6 arg7 harg7 arg8 harg8 arg9 harg9 arg10 harg10 hc0 hc1 x0 x1 x2 x3 x4).2.1) S4x256x1.size (by sl_kernel_rfl) y

/-- What this case leaves in carried buffer 2: its stores read back. -/
def sout1_A_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) : Vec F S4x256x1024 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.1)
/-- Its stores cover the buffer. -/
theorem scover1_A_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (y : S4x256x1024.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL ((kernelRun1_A c i arg2 harg2 arg3 harg3 arg4 harg4 arg5 harg5 arg6 harg6 arg7 harg7 arg8 harg8 arg9 harg9 arg10 harg10 hc0 hc1 x0 x1 x2 x3 x4).2.2.1) S4x256x1024.size (by sl_kernel_rfl) y

/-- What this case leaves in carried buffer 0: its stores read back. -/
def sout1_B_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).1)
/-- Its stores cover the buffer. -/
theorem scover1_B_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL ((kernelRun1_B c i arg2 harg2 arg3 harg3 arg4 harg4 arg5 harg5 arg6 harg6 arg7 harg7 arg8 harg8 arg9 harg9 arg10 harg10 hc0 hc1 x0 x1 x2 x3 x4 xs0 xs1 xs2).1) S4x256x1.size (by sl_kernel_rfl) y

/-- What this case leaves in carried buffer 1: its stores read back. -/
def sout1_B_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)
/-- Its stores cover the buffer. -/
theorem scover1_B_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL ((kernelRun1_B c i arg2 harg2 arg3 harg3 arg4 harg4 arg5 harg5 arg6 harg6 arg7 harg7 arg8 harg8 arg9 harg9 arg10 harg10 hc0 hc1 x0 x1 x2 x3 x4 xs0 xs1 xs2).2.1) S4x256x1.size (by sl_kernel_rfl) y

/-- What this case leaves in carried buffer 2: its stores read back. -/
def sout1_B_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1024 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)
/-- Its stores cover the buffer. -/
theorem scover1_B_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1024.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL ((kernelRun1_B c i arg2 harg2 arg3 harg3 arg4 harg4 arg5 harg5 arg6 harg6 arg7 harg7 arg8 harg8 arg9 harg9 arg10 harg10 hc0 hc1 x0 x1 x2 x3 x4 xs0 xs1 xs2).2.2.1) S4x256x1024.size (by sl_kernel_rfl) y

/-- What the last key tile leaves in the result's buffer: its store read back. -/
def out1_C_5 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1024 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1)
/-- Its store covers the buffer. -/
theorem cover1_C_5 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL ((kernelRun1_C c i arg2 harg2 arg3 harg3 arg4 harg4 arg5 harg5 arg6 harg6 arg7 harg7 arg8 harg8 arg9 harg9 arg10 harg10 hc0 hc1 x0 x1 x2 x3 x4 xs0 xs1 xs2).1) S4x256x1024.size (by sl_kernel_rfl) y

/-- What this case leaves in carried buffer 0: its stores read back. -/
def sout1_C_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1)
/-- Its stores cover the buffer. -/
theorem scover1_C_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL ((kernelRun1_C c i arg2 harg2 arg3 harg3 arg4 harg4 arg5 harg5 arg6 harg6 arg7 harg7 arg8 harg8 arg9 harg9 arg10 harg10 hc0 hc1 x0 x1 x2 x3 x4 xs0 xs1 xs2).2.1) S4x256x1.size (by sl_kernel_rfl) y

/-- What this case leaves in carried buffer 1: its stores read back. -/
def sout1_C_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1)
/-- Its stores cover the buffer. -/
theorem scover1_C_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL ((kernelRun1_C c i arg2 harg2 arg3 harg3 arg4 harg4 arg5 harg5 arg6 harg6 arg7 harg7 arg8 harg8 arg9 harg9 arg10 harg10 hc0 hc1 x0 x1 x2 x3 x4 xs0 xs1 xs2).2.2.1) S4x256x1.size (by sl_kernel_rfl) y

/-- What this case leaves in carried buffer 2: its stores read back. -/
def sout1_C_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1024 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1)
/-- Its stores cover the buffer. -/
theorem scover1_C_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL ((kernelRun1_C c i arg2 harg2 arg3 harg3 arg4 harg4 arg5 harg5 arg6 harg6 arg7 harg7 arg8 harg8 arg9 harg9 arg10 harg10 hc0 hc1 x0 x1 x2 x3 x4 xs0 xs1 xs2).2.2.2.1) S4x256x1024.size (by sl_kernel_rfl) y

/-! ## What the buffers hold after each point -/

/-- The result's buffer and the three carried buffers. -/
abbrev St1 (F : FTy → Type) [FloatOps F] : Type := Vec F S4x256x1024 .f32 × Vec F S4x256x1 .f32 × Vec F S4x256x1 .f32 × Vec F S4x256x1024 .f32

/-- After a first key tile. -/
def caseA1 (c : Dev nD) (t : Fin cfg1.N) (h0 : t.val % 16 = 0) (h1 : ¬t.val % 16 = 15) : St1 F :=
  (outIdle1,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- After a middle key tile, over what the point before left in the carried buffers. -/
def caseB1 (c : Dev nD) (t : Fin cfg1.N) (h0 : ¬t.val % 16 = 0) (h1 : ¬t.val % 16 = 15) (p : St1 F) : St1 F :=
  (outIdle1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2)

/-- After a last key tile, over what the point before left. -/
def caseC1 (c : Dev nD) (t : Fin cfg1.N) (h0 : ¬t.val % 16 = 0) (h1 : t.val % 16 = 15) (p : St1 F) : St1 F :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2)

/-- THE ACCUMULATION: what the result's buffer and the carried buffers hold after the body at position `n`. -/
def outsAt1 (c : Dev nD) : (n : ℕ) → n < cfg1.N → St1 F
  | 0, hn => caseA1 V c ⟨0, hn⟩ (Nat.zero_mod _) (by show ¬ 0 % 16 = 15; decide)
  | n + 1, hn =>
    if h0 : (n + 1) % 16 = 0 then
      if h1 : (n + 1) % 16 = 15 then False.elim (by omega)
      else caseA1 V c ⟨n + 1, hn⟩ h0 h1
    else
      if h1 : (n + 1) % 16 = 15 then caseC1 V c ⟨n + 1, hn⟩ h0 h1 (outsAt1 c n (Nat.lt_of_succ_lt hn))
      else caseB1 V c ⟨n + 1, hn⟩ h0 h1 (outsAt1 c n (Nat.lt_of_succ_lt hn))

theorem outsAt1_A (c : Dev nD) (t : Fin cfg1.N) (h0 : t.val % 16 = 0) (h1 : ¬t.val % 16 = 15) :
    outsAt1 V c t.val t.isLt = caseA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = caseB1 V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = caseC1 V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between points -/

/-- The region's scoped buffers that are not its own staging buffers, with the three carried buffers named. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- Before the first point anything; afterwards the carried buffers at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.KernelIdeal.Hand

end
-- ==== Proof.KRegion1Body.lean ====
/-
  The attention region's body obligation: at every point the body, called on the windows' current staging buffers and
  the carried buffers as the point before left them, leaves the carried buffers at this point's online-softmax state and
  (at a last key tile) the result's buffer at the query tile's result; elsewhere it hands the result's buffer back.
-/
import proofs.«171910_j33732673143663_2_alg».proof.Proof.KRegion1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- A first key tile: the carried buffers come in at anything (the first point of all) or at what the previous query tile
    left, and are reset before use either way. -/
theorem sound_body1_A (c : Dev nD) (t : Fin cfg1.N) (h0 : t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5 t (fun h => h1 ((hcond1_1 t).mp h))) (noFlush1_5 t (fun h => h1 ((hcond1_1 t).mp h)))]
  rw [outsAt1_A V c t h0 h1]
  unfold caseA1 sout1_A_0 sout1_A_1 sout1_A_2; (try dsimp only)
  by_cases hz : t.val = 0
  · rw [PhiS1_castSucc V c t, PhiS1_zero V c _ _ hz, PhiA1_eq]
    iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HO0 HO1 HO2 HO3 HO4 HO5 HO6 HO7 HO8 HO9 HO10 HO11 HO12 HO13 HS0 HS1 HS2 Hg]
    · isplitl [HO0 HO1 HO2 HO3 HO4 HO5 HO6 HO7 HO8 HO9 HO10 HO11 HO12 HO13 HS0 HS1 HS2]
      ·
        isplitl [HO0]; · iexact HO0
        isplitl [HO1]; · iexact HO1
        isplitl [HO2]; · iexact HO2
        isplitl [HO3]; · iexact HO3
        isplitl [HO4]; · iexact HO4
        isplitl [HO5]; · iexact HO5
        isplitl [HO6]; · iexact HO6
        isplitl [HO7]; · iexact HO7
        isplitl [HO8]; · iexact HO8
        isplitl [HO9]; · iexact HO9
        isplitl [HO10]; · iexact HO10
        isplitl [HO11]; · iexact HO11
        isplitl [HO12]; · iexact HO12
        isplitl [HO13]; · iexact HO13
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS1_castSucc V c t, PhiS1_pos V c _ _ hz]
    iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    isplitl [HS2]; · iexists _; iexact HS2
    iintro ⟨H0, H1, H2, H3, H4, H5, ⟨%es0, HS0⟩, ⟨%es1, HS1⟩, ⟨%es2, HS2⟩⟩
    isplitl [HO0 HO1 HO2 HO3 HO4 HO5 HO6 HO7 HO8 HO9 HO10 HO11 HO12 HO13 HS0 HS1 HS2 Hg]
    · isplitl [HO0 HO1 HO2 HO3 HO4 HO5 HO6 HO7 HO8 HO9 HO10 HO11 HO12 HO13 HS0 HS1 HS2]
      ·
        isplitl [HO0]; · iexact HO0
        isplitl [HO1]; · iexact HO1
        isplitl [HO2]; · iexact HO2
        isplitl [HO3]; · iexact HO3
        isplitl [HO4]; · iexact HO4
        isplitl [HO5]; · iexact HO5
        isplitl [HO6]; · iexact HO6
        isplitl [HO7]; · iexact HO7
        isplitl [HO8]; · iexact HO8
        isplitl [HO9]; · iexact HO9
        isplitl [HO10]; · iexact HO10
        isplitl [HO11]; · iexact HO11
        isplitl [HO12]; · iexact HO12
        isplitl [HO13]; · iexact HO13
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 4800000 in
/-- A middle key tile: one fold over what the point before left. -/
theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5 t (fun h => h1 ((hcond1_1 t).mp h))) (noFlush1_5 t (fun h => h1 ((hcond1_1 t).mp h)))]
  rw [outsAt1_B V c t h0 h1]
  unfold caseB1 sout1_B_0 sout1_B_1 sout1_B_2; (try dsimp only)
  have hz : t.val ≠ 0 := fun hz => h0 (by rw [hz])
  rw [PhiS1_castSucc V c t, PhiS1_pos V c _ _ hz]
  iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [HO0 HO1 HO2 HO3 HO4 HO5 HO6 HO7 HO8 HO9 HO10 HO11 HO12 HO13 HS0 HS1 HS2 Hg]
  · isplitl [HO0 HO1 HO2 HO3 HO4 HO5 HO6 HO7 HO8 HO9 HO10 HO11 HO12 HO13 HS0 HS1 HS2]
    ·
      isplitl [HO0]; · iexact HO0
      isplitl [HO1]; · iexact HO1
      isplitl [HO2]; · iexact HO2
      isplitl [HO3]; · iexact HO3
      isplitl [HO4]; · iexact HO4
      isplitl [HO5]; · iexact HO5
      isplitl [HO6]; · iexact HO6
      isplitl [HO7]; · iexact HO7
      isplitl [HO8]; · iexact HO8
      isplitl [HO9]; · iexact HO9
      isplitl [HO10]; · iexact HO10
      isplitl [HO11]; · iexact HO11
      isplitl [HO12]; · iexact HO12
      isplitl [HO13]; · iexact HO13
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _)
      unfold owns; iexists _; isplitr
      swap; · iexact HS2
      ipureintro; exact View.read_writes_of_cover _ _ _ _ _ (scover1_B_2 c _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- A last key tile: one fold, then the result stored into its buffer, which this point writes back. -/
theorem sound_body1_C (c : Dev nD) (t : Fin cfg1.N) (h0 : ¬t.val % 16 = 0) (h1 : t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t ((hcond1_1 t).mpr h1)], after1_5]
  rw [outsAt1_C V c t h0 h1]
  unfold caseC1 out1_C_5 sout1_C_0 sout1_C_1 sout1_C_2; (try dsimp only)
  have hz : t.val ≠ 0 := fun hz => h0 (by rw [hz])
  rw [PhiS1_castSucc V c t, PhiS1_pos V c _ _ hz]
  iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, ⟨%es0, HS0⟩, ⟨%es1, HS1⟩, ⟨%es2, HS2⟩⟩
  isplitl [HO0 HO1 HO2 HO3 HO4 HO5 HO6 HO7 HO8 HO9 HO10 HO11 HO12 HO13 HS0 HS1 HS2 Hg]
  · isplitl [HO0 HO1 HO2 HO3 HO4 HO5 HO6 HO7 HO8 HO9 HO10 HO11 HO12 HO13 HS0 HS1 HS2]
    ·
      isplitl [HO0]; · iexact HO0
      isplitl [HO1]; · iexact HO1
      isplitl [HO2]; · iexact HO2
      isplitl [HO3]; · iexact HO3
      isplitl [HO4]; · iexact HO4
      isplitl [HO5]; · iexact HO5
      isplitl [HO6]; · iexact HO6
      isplitl [HO7]; · iexact HO7
      isplitl [HO8]; · iexact HO8
      isplitl [HO9]; · iexact HO9
      isplitl [HO10]; · iexact HO10
      isplitl [HO11]; · iexact HO11
      isplitl [HO12]; · iexact HO12
      isplitl [HO13]; · iexact HO13
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _)
      unfold owns; iexists _; isplitr
      swap; · iexact HS2
      ipureintro; exact View.read_writes_of_cover _ _ _ _ _ (scover1_C_2 c _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c _ _ _ _ _ _ _ _ _ _ _ _ _ _ _ _ _ _ _ _ _ _ _ _ _ _ _ _ _)

/-- The body at any point: the closed forms of the two conditions select the case. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · by_cases h1 : t.val % 16 = 15
    · exfalso; omega
    · exact sound_body1_A V c t h0 h1
  · by_cases h1 : t.val % 16 = 15
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After any point the invariant gives the scoped buffers back, the carried buffers' contents forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HO0, HO1, HO2, HO3, HO4, HO5, HO6, HO7, HO8, HO9, HO10, HO11, HO12, HO13, HS0, HS1, HS2⟩, Hg⟩
  isplitl [HO0 HO1 HO2 HO3 HO4 HO5 HO6 HO7 HO8 HO9 HO10 HO11 HO12 HO13 HS0 HS1 HS2]
  ·
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ (Pipeline.ΦA spec1 c : sProp 𝕄) :=
  Phi1_out V c _ (by rw [Fin.val_last]; have : cfg1.N = 128 := N_1; omega)

end Cert.KernelIdeal.Hand

end
-- ==== Proof.KRun.lean ====
/- The whole program, from launch to return, at any float instance.

   The program is four stretches in a row: nine host operations (the reshape of the activations, the rounding of the
   four weight matrices to bf16, the reshape of the four bias vectors to rows), the projection region (Q, K, V),
   three host operations (the reshape of Q, K, V to [4, 2048, 1024]), and the attention region. Below: what every
   unscoped buffer holds at each of the five boundaries between them (W0 … W4), as a fold from the launch memory;
   that the nine argument arrays hold at the end what they held at launch, and the result array what the attention
   region's write-backs leave; the two regions stated over "every unscoped buffer at the boundary's contents"; and
   the run itself: every fair execution terminates without fault, in a memory that reads W4. -/
import proofs.«171910_j33732673143663_2_alg».proof.Proof.KRegion0
import proofs.«171910_j33732673143663_2_alg».proof.Proof.KRegion1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the unscoped buffers hold at the five boundaries -/

/-- Boundary 0, the launch: the given memory m, read on core c. -/
abbrev W0 : Dev nD → Valuation τ sig (Elt F) := fun c b => (s₀ m ρ).mem ((c : Dev nD), b)
/-- Boundary 1, where the projection region starts: the nine host operations applied to the launch contents. -/
abbrev W1 : Dev nD → Valuation τ sig (Elt F) := fun c => StableHlo.after hostOps0 (W0 m ρ c)
/-- W1 as a family over the core's own references (the form the projection region's proof data are stated at). -/
abbrev V1 : (c : Dev nD) → (b : Ref sig .tc) → Buf (Elt F) ((c : Thread nD τ).loc b) := fun c b => W1 m ρ c b
/-- Boundary 2, where the projection region ends: each of its ten windowed arrays holds what the region's transfers
    have left there after the last grid point (an input array what it held, an output array its eight written
    row blocks), and a buffer that is no window's array holds what it held at boundary 1. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- W2 over the core's own references. -/
abbrev V2 : (c : Dev nD) → (b : Ref sig .tc) → Buf (Elt F) ((c : Thread nD τ).loc b) := fun c b => W2 m ρ c b
/-- The two defining properties of boundary 2, in the form the regrouping of the arrays with the other unscoped
    buffers asks for them: a windowed array reads the pipeline's final contents, any other reference reads W1. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Boundary 3, where the attention region starts: the three reshapes applied to boundary 2. -/
abbrev W3 : Dev nD → Valuation τ sig (Elt F) := fun c => StableHlo.after hostOps1 (W2 m ρ c)
/-- W3 over the core's own references (what the attention region's proof data are stated at). -/
abbrev V3 : (c : Dev nD) → (b : Ref sig .tc) → Buf (Elt F) ((c : Thread nD τ).loc b) := fun c b => W3 m ρ c b
/-- Boundary 4, the return: the attention region's six windowed arrays at what its transfers have left after the last
    of its 128 grid points, every other buffer as at boundary 3. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- W4 over the core's own references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The nine arguments are never written

An argument array is the operand of one host operation of the first stretch and of nothing else: no host operation
has it as its result, and neither region has a window over it (the regions' windows are over the host operations'
results main_v0 … main_v8 and over the regions' own results). So reading W4 at an argument's buffer, each of the four
steps back to the launch leaves the buffer's contents as they were: not an array of the attention region, not written
by the three reshapes, not an array of the projection region, not written by the nine host operations. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The result array main_v13 is the array of the attention region's one output window (window 5), so at the return it
    holds that window's write-backs, folded over the grid. -/
theorem W4_out (c : Dev nD) : W4 m ρ c (Proc.devRef .tc main_v13) = (dat1 (V3 m ρ) c).arrAt 5 cfg1.N :=
  W4_arr m ρ c 5

/-! ## The two regions' proof data as one family, and what a core holds between segments -/

/-- Neither region prefetches a table, so there is nothing to choose for the tables' contents. -/
abbrev adm : (p : Fin 2) → (pcfgs (F := F) p).Adm := fun p => (cfgs p).toPCfg_adm
/-- The projection region's proof data at boundary 1's contents and the attention region's at boundary 3's, by a
    literal case split on the region's number. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- The program has one core, which signals no one: no level is ever assigned. -/
abbrev L : GSem nD τ sig → Finset Unit := fun _ => ∅
abbrev lv : GSem nD τ sig → Unit → ℕ := fun _ _ => 0
/-- Besides its buffers a core carries, unchanged through all four segments, its random-generator register (in some
    state: no segment reads it) and the record that it owes no signal. -/
abbrev R (c : Dev nD) : sProp 𝕄 := iprop((∃ r, prngReg c r) ∗ ∃ W, owes (c : Thread nD τ) (0 : CellTallies nD τ sig Unit) W)
/-- A stretch of host operations as a segment: from every unscoped buffer at W to every unscoped buffer at the
    operations' fold over W, the rest of the core's holdings untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Reshapes and roundings allocate nothing. -/
theorem hostOps0_fresh : (hostOps0 : List (HloOp τ sig (Elt F))).Forall fun op => op.fresh = ∅ := by
  simp only [List.Forall]; repeat' constructor
/-- Nor do the three reshapes of the second stretch. -/
theorem hostOps1_fresh : (hostOps1 : List (HloOp τ sig (Elt F))).Forall fun op => op.fresh = ∅ := by
  simp only [List.Forall]; repeat' constructor
/-- Every unscoped reference of the core is one of the buffers held between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the core holds at the return, the owing record apart: every unscoped buffer at W4 and the generator register. -/
abbrev Tₙ (c : Dev nD) : sProp 𝕄 := iprop(StableHlo.held (c : Thread nD τ) (Pipeline.ucRefs τ sig) (W4 m ρ c) ∗ ∃ r, prngReg c r)

/-! ## The two regions between their boundaries -/

set_option backward.isDefEq.respectTransparency.types false in
/-- The projection region takes every unscoped buffer from W1 to W2. On entry its ten arrays are separated from the
    other unscoped buffers (which bypass it); its invariant between grid points is constant — the other region's scoped
    buffers and the generator register, none of which its body touches —, so it is entered and left trivially; on exit the
    arrays, now at their final contents, are regrouped with the bypassed buffers, which is W2 by its definition. The body
    owes and signals nothing, and uses no semaphore beyond the transfers' own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region takes every unscoped buffer from W3 to W4, in the same way. Its invariant is not constant
    (after the first grid point it records what the three carried buffers hold), but before the first point it is the
    plain one and after the last point it gives the plain one back (hin1, hout1), which is all that entering and leaving
    need. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the run -/

/-- The four segments in program order, each host stretch started from the boundary before it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- The program's text is these four segments run one after the other. -/
theorem main_run (c : Dev nD) : main (F := F) c = Pipeline.Seg.run (segs m ρ) := (main_chain c).trans (by chain_rfl)

set_option backward.isDefEq.respectTransparency.types false in
/-- The run. From any memory m with all semaphore counters at zero, every weakly fair execution of the program
    terminates without fault, and in the final memory every unscoped buffer of core c reads W4 m ρ c. The segments
    chain (each ends in the holdings the next starts from), the launch deals the first holdings (the buffers at m, the
    register, nothing owed), and at the return the held buffers are read off the final memory one by one. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame property: the program runs, and the nine argument arrays end as they were launched — the final memory
    reads W4 at each of them (each is an unscoped buffer), and W4 there is the launch memory. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono (fun r h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩)
    (run_all m ρ)

end Cert.KernelIdeal.Hand

end
-- ==== Proof.KRegion0Bits.lean ====
/- The first kernel region's body obligation of the kernel program, at any float instance: what the
   projection kernel finds in its input windows' staging buffers, what it leaves in its three output windows'
   buffers, its triple, and the pipeline's proof data at a parameter V (the buffers' contents when the region
   is entered). -/
import proofs.«171910_j33732673143663_2_alg».proof.Proof.Gen.Kernel.Launch
import proofs.«171910_j33732673143663_2_alg».proof.Proof.Gen.Kernel.Skeleton
import proofs.«171910_j33732673143663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block) holds its block at every point, fetched there or not, for any proof
    data whose array is V's and whose body leaves the block in place: an unfetched input's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the first weight matrix, whole, fetched once) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the first bias row) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 (the second weight matrix) likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 (the second bias row) likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5 (the third weight matrix) likewise. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6 (the third bias row) likewise. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024 × 1024 block. -/
abbrev r0_0 : Rect S1024x1024 := Rect.unit (s := S1024x1024) ![0, 0] S1024x1024.size inb_S1024x1024_S1024x1024_0_0
/-- The whole 1 × 1024 bias row. -/
abbrev r0_1 : Rect S1x1024 := Rect.unit (s := S1x1024) ![0, 0] S1x1024.size inb_S1x1024_S1x1024_0_0

/-! ## What the body leaves in each output window's buffer -/

/-- Window 7's staging buffer after the body, from the input windows' blocks: its one store, of the rounded
    product of the rounded activations with the first weight matrix plus the first bias row. -/
def out0_7 (x0 : Vec F S1024x1024 .f32) (x1 : Vec F S1024x1024 .bf16) (x2 : Vec F S1x1024 .f32) : Vec F S1024x1024 .bf16 :=
  View.canon [⟨r0_0, k0_pay2 (View.ld x0 r0_0) (View.ld x1 r0_0) (View.ld x2 r0_1)⟩]
/-- Window 8's, from the second weight matrix and bias row. -/
def out0_8 (x0 : Vec F S1024x1024 .f32) (x3 : Vec F S1024x1024 .bf16) (x4 : Vec F S1x1024 .f32) : Vec F S1024x1024 .bf16 :=
  View.canon [⟨r0_0, k0_pay3 (View.ld x0 r0_0) (View.ld x3 r0_0) (View.ld x4 r0_1)⟩]
/-- Window 9's, from the third weight matrix and bias row. -/
def out0_9 (x0 : Vec F S1024x1024 .f32) (x5 : Vec F S1024x1024 .bf16) (x6 : Vec F S1x1024 .f32) : Vec F S1024x1024 .bf16 :=
  View.canon [⟨r0_0, k0_pay4 (View.ld x0 r0_0) (View.ld x5 r0_0) (View.ld x6 r0_1)⟩]

/-- One store of the whole block tiles the buffer (one block index per axis), so it covers it. -/
theorem cover0 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The kernel body on whole staging memrefs, the inputs' at read contents xW and the outputs' at anything, runs to
    the continuation holding the inputs' as they were and each output's at out0_W of the inputs'. The body loads each
    output's buffer before storing the whole of it; the loaded value is not used, so any contents will do. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S1024x1024 .bf16) (harg8 : arg8.IsWhole)
    (arg9 : Memref sig .tc .vmem S1024x1024 .bf16) (harg9 : arg9.IsWhole) (arg10 : Memref sig .tc .vmem S1024x1024 .bf16) (harg10 : arg10.IsWhole)
    (x0 : Vec F S1024x1024 .f32) (x1 : Vec F S1024x1024 .bf16) (x2 : Vec F S1x1024 .f32) (x3 : Vec F S1024x1024 .bf16)
    (x4 : Vec F S1x1024 .f32) (x5 : Vec F S1024x1024 .bf16) (x6 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2) ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The proof data of pipeline 0 on core c: the arrays as the region finds them (V); after the body at point t each
    input's buffer at its block and each output's at out0_W of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's match reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point t (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (before0_W), so sound_kernel0 applies; the invariant
    and the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1DefsBits.lean ====
/-
  The attention region (the second kernel launch) — what its per-point runs share.

  The grid is 8 query tiles by 16 key tiles, walked key tile fastest: point `t` is query tile `t / 16`, key tile
  `t % 16`. At a key tile 0 the body first resets its three carried buffers (the running maximum to −∞, the running
  normaliser and the running weighted sum to 0); at every point it folds one key tile into them; at key tile 15 it
  divides the weighted sum by the normaliser, applies the output projection and stores the query tile's result. So the
  result's staging buffer is written at the points ≡ 15 (mod 16) only, which are exactly the points that write it back;
  elsewhere it is idle.
-/
import proofs.«171910_j33732673143663_2_alg».proof.Proof.Gen.Kernel.Launch
import proofs.«171910_j33732673143663_2_alg».proof.Proof.Gen.Kernel.Skeleton
import proofs.«171910_j33732673143663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "This is the first key tile of the row of points": the reset's condition, as the body computes it. -/
abbrev cond1_0 (i : grid1.Coords) : Prop :=
  (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key tile": the finalisation's condition. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last key tile the result's window is idle (nothing is stored into it) and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last key tile it is live, and written back. -/
theorem liveAt1_5 : ∀ t : Fin cfg1.N, cond1_1 (grid1.coords t) → cfg1.idle 5 (grid1.coords t) = false := by decide +kernel
theorem flushAt1_5 : ∀ t : Fin cfg1.N, cond1_1 (grid1.coords t) → (cfg1.win 5).flush t = true := by decide +kernel

/-! ## The staging and scratch memrefs as the pipeline passes them -/

abbrev ms1_0 (t : Fin cfg1.N) : Memref sig .tc .vmem S4x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x128x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x128x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4x256x1024 .f32 := win1_5.stage (cfg1.slots t 5)
abbrev hs1_5 (t : Fin cfg1.N) : (ms1_5 t).IsWhole := hstage1_5 ((cfg1.slots t 5).cast nbuf1_5)
/-- The three carried buffers: the running maximum, the running normaliser, the running weighted sum. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x1024 .f32 := Memref.whole cc1_scratch2

end Cert.Kernel.Hand

end
-- ==== Proof.KRegion1RunABits.lean ====
/-
  The attention body at the first key tile of a row of points: the three carried buffers are reset (the running maximum
  to −∞, the normaliser and the weighted sum to 0) and the first key tile is folded into them; the result's buffer is
  untouched.
-/
import proofs.«171910_j33732673143663_2_alg».proof.Proof.KRegion1DefsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs' at their contents, the result's at contents handed back untouched, the
    three carried buffers at anything — the body runs to the continuation holding the inputs' as they were and each
    carried buffer with its stores written, as pieces the run finds. -/
noncomputable def kernelRun1_A (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i)
    (x0 : Vec F S4x256x1024 .bf16) (x1 : Vec F S4x128x1024 .bf16) (x2 : Vec F S4x128x1024 .bf16) (x3 : Vec F S1024x1024 .bf16) (x4 : Vec F S1x1024 .f32) :
    Σ' (LS0 : List (View.Piece (Elt F) S4x256x1 .f32)) (LS1 : List (View.Piece (Elt F) S4x256x1 .f32)), { LS2 : List (View.Piece (Elt F) S4x256x1024 .f32) //
      ∀ (xi5 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KRegion1RunBBits.lean ====
/-
  The attention body at a middle key tile (neither the first nor the last of its row of points): one key tile folded
  into the three carried buffers, the result's buffer untouched.
-/
import proofs.«171910_j33732673143663_2_alg».proof.Proof.KRegion1DefsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs' at their contents, the result's at contents handed back untouched, the
    three carried buffers at what the point before left — the body runs to the continuation holding the inputs' as they
    were and each carried buffer with its stores written, as pieces the run finds. -/
noncomputable def kernelRun1_B (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i)
    (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) :
    Σ' (LS0 : List (View.Piece (Elt F) S4x256x1 .f32)) (LS1 : List (View.Piece (Elt F) S4x256x1 .f32)), { LS2 : List (View.Piece (Elt F) S4x256x1024 .f32) //
      ∀ (xi5 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KRegion1RunCBits.lean ====
/-
  The attention body at the last key tile of a row of points: the last key tile is folded into the three carried
  buffers, then the weighted sum is divided by the normaliser, projected, and stored as the query tile's result.
-/
import proofs.«171910_j33732673143663_2_alg».proof.Proof.KRegion1DefsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the five inputs' at their contents, the result's at anything, the three carried buffers at
    what the point before left — the body runs to the continuation holding the inputs' as they were, each carried buffer
    and the result's buffer with their stores written, as pieces the run finds. -/
noncomputable def kernelRun1_C (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i)
    (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) :
    Σ' (L5 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.KRegion1FrameBits.lean ====
/-
  The attention region's proof data and body obligation.

  After the body at point `t` the three carried buffers hold the online-softmax state of the query tile `t / 16` over the
  key tiles `0 … t % 16`: by recursion on the point — reset and one fold at a key tile 0, one more fold at every later
  key tile of the row, each fold over what the point before left. The result's buffer is stored at the last key tile only.
-/
import proofs.«171910_j33732673143663_2_alg».proof.Proof.KRegion1RunABits
import proofs.«171910_j33732673143663_2_alg».proof.Proof.KRegion1RunBBits
import proofs.«171910_j33732673143663_2_alg».proof.Proof.KRegion1RunCBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, fetched there or not: an unfetched input's block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point, fetched there or not: an unfetched input's block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point, fetched there or not: an unfetched input's block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every point, fetched there or not: an unfetched input's block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every point, fetched there or not: an unfetched input's block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The views through which the result's buffer and the carried buffers' contents are stated. -/
abbrev VO1_5 : View sig .tc .vmem S4x256x1024 .f32 := (Memref.whole cc1_stg5_0 : Memref sig .tc .vmem S4x256x1024 .f32).view
abbrev VS1_0 : View sig .tc .vmem S4x256x1 .f32 := scM1_0.view
abbrev VS1_1 : View sig .tc .vmem S4x256x1 .f32 := scM1_1.view
abbrev VS1_2 : View sig .tc .vmem S4x256x1024 .f32 := scM1_2.view

/-- A placeholder for the result's buffer at a point that stores nothing into it (never consulted: the window is idle there). -/
def outIdle1 : Vec F S4x256x1024 .f32 := VO1_5.read (Elt F) (VO1_5.writes (Elt F) VO1_5.junk [])

/-- What this case leaves in carried buffer 0: its stores read back. -/
def sout1_A_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) : Vec F S4x256x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).1)
/-- Its stores cover the buffer. -/
theorem scover1_A_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (y : S4x256x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL ((kernelRun1_A c i arg2 harg2 arg3 harg3 arg4 harg4 arg5 harg5 arg6 harg6 arg7 harg7 arg8 harg8 arg9 harg9 arg10 harg10 hc0 hc1 x0 x1 x2 x3 x4).1) S4x256x1.size (by sl_kernel_rfl) y

/-- What this case leaves in carried buffer 1: its stores read back. -/
def sout1_A_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) : Vec F S4x256x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.1)
/-- Its stores cover the buffer. -/
theorem scover1_A_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (y : S4x256x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL ((kernelRun1_A c i arg2 harg2 arg3 harg3 arg4 harg4 arg5 harg5 arg6 harg6 arg7 harg7 arg8 harg8 arg9 harg9 arg10 harg10 hc0 hc1 x0 x1 x2 x3 x4).2.1) S4x256x1.size (by sl_kernel_rfl) y

/-- What this case leaves in carried buffer 2: its stores read back. -/
def sout1_A_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) : Vec F S4x256x1024 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.1)
/-- Its stores cover the buffer. -/
theorem scover1_A_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (y : S4x256x1024.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL ((kernelRun1_A c i arg2 harg2 arg3 harg3 arg4 harg4 arg5 harg5 arg6 harg6 arg7 harg7 arg8 harg8 arg9 harg9 arg10 harg10 hc0 hc1 x0 x1 x2 x3 x4).2.2.1) S4x256x1024.size (by sl_kernel_rfl) y

/-- What this case leaves in carried buffer 0: its stores read back. -/
def sout1_B_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).1)
/-- Its stores cover the buffer. -/
theorem scover1_B_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL ((kernelRun1_B c i arg2 harg2 arg3 harg3 arg4 harg4 arg5 harg5 arg6 harg6 arg7 harg7 arg8 harg8 arg9 harg9 arg10 harg10 hc0 hc1 x0 x1 x2 x3 x4 xs0 xs1 xs2).1) S4x256x1.size (by sl_kernel_rfl) y

/-- What this case leaves in carried buffer 1: its stores read back. -/
def sout1_B_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)
/-- Its stores cover the buffer. -/
theorem scover1_B_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL ((kernelRun1_B c i arg2 harg2 arg3 harg3 arg4 harg4 arg5 harg5 arg6 harg6 arg7 harg7 arg8 harg8 arg9 harg9 arg10 harg10 hc0 hc1 x0 x1 x2 x3 x4 xs0 xs1 xs2).2.1) S4x256x1.size (by sl_kernel_rfl) y

/-- What this case leaves in carried buffer 2: its stores read back. -/
def sout1_B_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1024 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)
/-- Its stores cover the buffer. -/
theorem scover1_B_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1024.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL ((kernelRun1_B c i arg2 harg2 arg3 harg3 arg4 harg4 arg5 harg5 arg6 harg6 arg7 harg7 arg8 harg8 arg9 harg9 arg10 harg10 hc0 hc1 x0 x1 x2 x3 x4 xs0 xs1 xs2).2.2.1) S4x256x1024.size (by sl_kernel_rfl) y

/-- What the last key tile leaves in the result's buffer: its store read back. -/
def out1_C_5 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1024 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1)
/-- Its store covers the buffer. -/
theorem cover1_C_5 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL ((kernelRun1_C c i arg2 harg2 arg3 harg3 arg4 harg4 arg5 harg5 arg6 harg6 arg7 harg7 arg8 harg8 arg9 harg9 arg10 harg10 hc0 hc1 x0 x1 x2 x3 x4 xs0 xs1 xs2).1) S4x256x1024.size (by sl_kernel_rfl) y

/-- What this case leaves in carried buffer 0: its stores read back. -/
def sout1_C_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1)
/-- Its stores cover the buffer. -/
theorem scover1_C_0 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL ((kernelRun1_C c i arg2 harg2 arg3 harg3 arg4 harg4 arg5 harg5 arg6 harg6 arg7 harg7 arg8 harg8 arg9 harg9 arg10 harg10 hc0 hc1 x0 x1 x2 x3 x4 xs0 xs1 xs2).2.1) S4x256x1.size (by sl_kernel_rfl) y

/-- What this case leaves in carried buffer 1: its stores read back. -/
def sout1_C_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1)
/-- Its stores cover the buffer. -/
theorem scover1_C_1 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL ((kernelRun1_C c i arg2 harg2 arg3 harg3 arg4 harg4 arg5 harg5 arg6 harg6 arg7 harg7 arg8 harg8 arg9 harg9 arg10 harg10 hc0 hc1 x0 x1 x2 x3 x4 xs0 xs1 xs2).2.2.1) S4x256x1.size (by sl_kernel_rfl) y

/-- What this case leaves in carried buffer 2: its stores read back. -/
def sout1_C_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : Vec F S4x256x1024 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1)
/-- Its stores cover the buffer. -/
theorem scover1_C_2 (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) (y : S4x256x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL ((kernelRun1_C c i arg2 harg2 arg3 harg3 arg4 harg4 arg5 harg5 arg6 harg6 arg7 harg7 arg8 harg8 arg9 harg9 arg10 harg10 hc0 hc1 x0 x1 x2 x3 x4 xs0 xs1 xs2).2.2.2.1) S4x256x1024.size (by sl_kernel_rfl) y

/-! ## What the buffers hold after each point -/

/-- The result's buffer and the three carried buffers. -/
abbrev St1 (F : FTy → Type) [FloatOps F] : Type := Vec F S4x256x1024 .f32 × Vec F S4x256x1 .f32 × Vec F S4x256x1 .f32 × Vec F S4x256x1024 .f32

/-- After a first key tile. -/
def caseA1 (c : Dev nD) (t : Fin cfg1.N) (h0 : t.val % 16 = 0) (h1 : ¬t.val % 16 = 15) : St1 F :=
  (outIdle1,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- After a middle key tile, over what the point before left in the carried buffers. -/
def caseB1 (c : Dev nD) (t : Fin cfg1.N) (h0 : ¬t.val % 16 = 0) (h1 : ¬t.val % 16 = 15) (p : St1 F) : St1 F :=
  (outIdle1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2)

/-- After a last key tile, over what the point before left. -/
def caseC1 (c : Dev nD) (t : Fin cfg1.N) (h0 : ¬t.val % 16 = 0) (h1 : t.val % 16 = 15) (p : St1 F) : St1 F :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2)

/-- THE ACCUMULATION: what the result's buffer and the carried buffers hold after the body at position `n`. -/
def outsAt1 (c : Dev nD) : (n : ℕ) → n < cfg1.N → St1 F
  | 0, hn => caseA1 V c ⟨0, hn⟩ (Nat.zero_mod _) (by show ¬ 0 % 16 = 15; decide)
  | n + 1, hn =>
    if h0 : (n + 1) % 16 = 0 then
      if h1 : (n + 1) % 16 = 15 then False.elim (by omega)
      else caseA1 V c ⟨n + 1, hn⟩ h0 h1
    else
      if h1 : (n + 1) % 16 = 15 then caseC1 V c ⟨n + 1, hn⟩ h0 h1 (outsAt1 c n (Nat.lt_of_succ_lt hn))
      else caseB1 V c ⟨n + 1, hn⟩ h0 h1 (outsAt1 c n (Nat.lt_of_succ_lt hn))

theorem outsAt1_A (c : Dev nD) (t : Fin cfg1.N) (h0 : t.val % 16 = 0) (h1 : ¬t.val % 16 = 15) :
    outsAt1 V c t.val t.isLt = caseA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = caseB1 V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = caseC1 V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between points -/

/-- The region's scoped buffers that are not its own staging buffers, with the three carried buffers named. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- Before the first point anything; afterwards the carried buffers at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.Kernel.Hand

end
-- ==== Proof.KRegion1BodyBits.lean ====
/-
  The attention region's body obligation: at every point the body, called on the windows' current staging buffers and
  the carried buffers as the point before left them, leaves the carried buffers at this point's online-softmax state and
  (at a last key tile) the result's buffer at the query tile's result; elsewhere it hands the result's buffer back.
-/
import proofs.«171910_j33732673143663_2_alg».proof.Proof.KRegion1FrameBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- A first key tile: the carried buffers come in at anything (the first point of all) or at what the previous query tile
    left, and are reset before use either way. -/
theorem sound_body1_A (c : Dev nD) (t : Fin cfg1.N) (h0 : t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5 t (fun h => h1 ((hcond1_1 t).mp h))) (noFlush1_5 t (fun h => h1 ((hcond1_1 t).mp h)))]
  rw [outsAt1_A V c t h0 h1]
  unfold caseA1 sout1_A_0 sout1_A_1 sout1_A_2; (try dsimp only)
  by_cases hz : t.val = 0
  · rw [PhiS1_castSucc V c t, PhiS1_zero V c _ _ hz, PhiA1_eq]
    iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HO0 HO1 HO2 HO3 HO4 HO5 HO6 HO7 HO8 HO9 HO10 HO11 HO12 HO13 HS0 HS1 HS2 Hg]
    · isplitl [HO0 HO1 HO2 HO3 HO4 HO5 HO6 HO7 HO8 HO9 HO10 HO11 HO12 HO13 HS0 HS1 HS2]
      ·
        isplitl [HO0]; · iexact HO0
        isplitl [HO1]; · iexact HO1
        isplitl [HO2]; · iexact HO2
        isplitl [HO3]; · iexact HO3
        isplitl [HO4]; · iexact HO4
        isplitl [HO5]; · iexact HO5
        isplitl [HO6]; · iexact HO6
        isplitl [HO7]; · iexact HO7
        isplitl [HO8]; · iexact HO8
        isplitl [HO9]; · iexact HO9
        isplitl [HO10]; · iexact HO10
        isplitl [HO11]; · iexact HO11
        isplitl [HO12]; · iexact HO12
        isplitl [HO13]; · iexact HO13
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS1_castSucc V c t, PhiS1_pos V c _ _ hz]
    iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    isplitl [HS2]; · iexists _; iexact HS2
    iintro ⟨H0, H1, H2, H3, H4, H5, ⟨%es0, HS0⟩, ⟨%es1, HS1⟩, ⟨%es2, HS2⟩⟩
    isplitl [HO0 HO1 HO2 HO3 HO4 HO5 HO6 HO7 HO8 HO9 HO10 HO11 HO12 HO13 HS0 HS1 HS2 Hg]
    · isplitl [HO0 HO1 HO2 HO3 HO4 HO5 HO6 HO7 HO8 HO9 HO10 HO11 HO12 HO13 HS0 HS1 HS2]
      ·
        isplitl [HO0]; · iexact HO0
        isplitl [HO1]; · iexact HO1
        isplitl [HO2]; · iexact HO2
        isplitl [HO3]; · iexact HO3
        isplitl [HO4]; · iexact HO4
        isplitl [HO5]; · iexact HO5
        isplitl [HO6]; · iexact HO6
        isplitl [HO7]; · iexact HO7
        isplitl [HO8]; · iexact HO8
        isplitl [HO9]; · iexact HO9
        isplitl [HO10]; · iexact HO10
        isplitl [HO11]; · iexact HO11
        isplitl [HO12]; · iexact HO12
        isplitl [HO13]; · iexact HO13
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 4800000 in
/-- A middle key tile: one fold over what the point before left. -/
theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [Dat.leavesExact_idle (dat1 V c) 5 t (idleAt1_5 t (fun h => h1 ((hcond1_1 t).mp h))) (noFlush1_5 t (fun h => h1 ((hcond1_1 t).mp h)))]
  rw [outsAt1_B V c t h0 h1]
  unfold caseB1 sout1_B_0 sout1_B_1 sout1_B_2; (try dsimp only)
  have hz : t.val ≠ 0 := fun hz => h0 (by rw [hz])
  rw [PhiS1_castSucc V c t, PhiS1_pos V c _ _ hz]
  iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [HO0 HO1 HO2 HO3 HO4 HO5 HO6 HO7 HO8 HO9 HO10 HO11 HO12 HO13 HS0 HS1 HS2 Hg]
  · isplitl [HO0 HO1 HO2 HO3 HO4 HO5 HO6 HO7 HO8 HO9 HO10 HO11 HO12 HO13 HS0 HS1 HS2]
    ·
      isplitl [HO0]; · iexact HO0
      isplitl [HO1]; · iexact HO1
      isplitl [HO2]; · iexact HO2
      isplitl [HO3]; · iexact HO3
      isplitl [HO4]; · iexact HO4
      isplitl [HO5]; · iexact HO5
      isplitl [HO6]; · iexact HO6
      isplitl [HO7]; · iexact HO7
      isplitl [HO8]; · iexact HO8
      isplitl [HO9]; · iexact HO9
      isplitl [HO10]; · iexact HO10
      isplitl [HO11]; · iexact HO11
      isplitl [HO12]; · iexact HO12
      isplitl [HO13]; · iexact HO13
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _)
      unfold owns; iexists _; isplitr
      swap; · iexact HS2
      ipureintro; exact View.read_writes_of_cover _ _ _ _ _ (scover1_B_2 c _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- A last key tile: one fold, then the result stored into its buffer, which this point writes back. -/
theorem sound_body1_C (c : Dev nD) (t : Fin cfg1.N) (h0 : ¬t.val % 16 = 0) (h1 : t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t ((hcond1_1 t).mpr h1)], after1_5]
  rw [outsAt1_C V c t h0 h1]
  unfold caseC1 out1_C_5 sout1_C_0 sout1_C_1 sout1_C_2; (try dsimp only)
  have hz : t.val ≠ 0 := fun hz => h0 (by rw [hz])
  rw [PhiS1_castSucc V c t, PhiS1_pos V c _ _ hz]
  iintro ⟨⟨⟨HO0, HO1, HO2, HO3, HO4, HO5, HO6, HO7, HO8, HO9, HO10, HO11, HO12, HO13, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, ⟨%es0, HS0⟩, ⟨%es1, HS1⟩, ⟨%es2, HS2⟩⟩
  isplitl [HO0 HO1 HO2 HO3 HO4 HO5 HO6 HO7 HO8 HO9 HO10 HO11 HO12 HO13 HS0 HS1 HS2 Hg]
  · isplitl [HO0 HO1 HO2 HO3 HO4 HO5 HO6 HO7 HO8 HO9 HO10 HO11 HO12 HO13 HS0 HS1 HS2]
    ·
      isplitl [HO0]; · iexact HO0
      isplitl [HO1]; · iexact HO1
      isplitl [HO2]; · iexact HO2
      isplitl [HO3]; · iexact HO3
      isplitl [HO4]; · iexact HO4
      isplitl [HO5]; · iexact HO5
      isplitl [HO6]; · iexact HO6
      isplitl [HO7]; · iexact HO7
      isplitl [HO8]; · iexact HO8
      isplitl [HO9]; · iexact HO9
      isplitl [HO10]; · iexact HO10
      isplitl [HO11]; · iexact HO11
      isplitl [HO12]; · iexact HO12
      isplitl [HO13]; · iexact HO13
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _)
      unfold owns; iexists _; isplitr
      swap; · iexact HS2
      ipureintro; exact View.read_writes_of_cover _ _ _ _ _ (scover1_C_2 c _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c _ _ _ _ _ _ _ _ _ _ _ _ _ _ _ _ _ _ _ _ _ _ _ _ _ _ _ _ _)

/-- The body at any point: the closed forms of the two conditions select the case. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · by_cases h1 : t.val % 16 = 15
    · exfalso; omega
    · exact sound_body1_A V c t h0 h1
  · by_cases h1 : t.val % 16 = 15
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After any point the invariant gives the scoped buffers back, the carried buffers' contents forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HO0, HO1, HO2, HO3, HO4, HO5, HO6, HO7, HO8, HO9, HO10, HO11, HO12, HO13, HS0, HS1, HS2⟩, Hg⟩
  isplitl [HO0 HO1 HO2 HO3 HO4 HO5 HO6 HO7 HO8 HO9 HO10 HO11 HO12 HO13 HS0 HS1 HS2]
  ·
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ (Pipeline.ΦA spec1 c : sProp 𝕄) :=
  Phi1_out V c _ (by rw [Fin.val_last]; have : cfg1.N = 128 := N_1; omega)

end Cert.Kernel.Hand

end
-- ==== Proof.KRunBits.lean ====
/- The whole program, from launch to return, at any float instance.

   The program is four stretches in a row: nine host operations (the reshape of the activations, the rounding of the
   four weight matrices to bf16, the reshape of the four bias vectors to rows), the projection region (Q, K, V),
   three host operations (the reshape of Q, K, V to [4, 2048, 1024]), and the attention region. Below: what every
   unscoped buffer holds at each of the five boundaries between them (W0 … W4), as a fold from the launch memory;
   that the nine argument arrays hold at the end what they held at launch, and the result array what the attention
   region's write-backs leave; the two regions stated over "every unscoped buffer at the boundary's contents"; and
   the run itself: every fair execution terminates without fault, in a memory that reads W4. -/
import proofs.«171910_j33732673143663_2_alg».proof.Proof.KRegion0Bits
import proofs.«171910_j33732673143663_2_alg».proof.Proof.KRegion1BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the unscoped buffers hold at the five boundaries -/

/-- Boundary 0, the launch: the given memory m, read on core c. -/
abbrev W0 : Dev nD → Valuation τ sig (Elt F) := fun c b => (s₀ m ρ).mem ((c : Dev nD), b)
/-- Boundary 1, where the projection region starts: the nine host operations applied to the launch contents. -/
abbrev W1 : Dev nD → Valuation τ sig (Elt F) := fun c => StableHlo.after hostOps0 (W0 m ρ c)
/-- W1 as a family over the core's own references (the form the projection region's proof data are stated at). -/
abbrev V1 : (c : Dev nD) → (b : Ref sig .tc) → Buf (Elt F) ((c : Thread nD τ).loc b) := fun c b => W1 m ρ c b
/-- Boundary 2, where the projection region ends: each of its ten windowed arrays holds what the region's transfers
    have left there after the last grid point (an input array what it held, an output array its eight written
    row blocks), and a buffer that is no window's array holds what it held at boundary 1. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- W2 over the core's own references. -/
abbrev V2 : (c : Dev nD) → (b : Ref sig .tc) → Buf (Elt F) ((c : Thread nD τ).loc b) := fun c b => W2 m ρ c b
/-- The two defining properties of boundary 2, in the form the regrouping of the arrays with the other unscoped
    buffers asks for them: a windowed array reads the pipeline's final contents, any other reference reads W1. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Boundary 3, where the attention region starts: the three reshapes applied to boundary 2. -/
abbrev W3 : Dev nD → Valuation τ sig (Elt F) := fun c => StableHlo.after hostOps1 (W2 m ρ c)
/-- W3 over the core's own references (what the attention region's proof data are stated at). -/
abbrev V3 : (c : Dev nD) → (b : Ref sig .tc) → Buf (Elt F) ((c : Thread nD τ).loc b) := fun c b => W3 m ρ c b
/-- Boundary 4, the return: the attention region's six windowed arrays at what its transfers have left after the last
    of its 128 grid points, every other buffer as at boundary 3. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- W4 over the core's own references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The nine arguments are never written

An argument array is the operand of one host operation of the first stretch and of nothing else: no host operation
has it as its result, and neither region has a window over it (the regions' windows are over the host operations'
results main_v0 … main_v8 and over the regions' own results). So reading W4 at an argument's buffer, each of the four
steps back to the launch leaves the buffer's contents as they were: not an array of the attention region, not written
by the three reshapes, not an array of the projection region, not written by the nine host operations. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The result array main_v13 is the array of the attention region's one output window (window 5), so at the return it
    holds that window's write-backs, folded over the grid. -/
theorem W4_out (c : Dev nD) : W4 m ρ c (Proc.devRef .tc main_v13) = (dat1 (V3 m ρ) c).arrAt 5 cfg1.N :=
  W4_arr m ρ c 5

/-! ## The two regions' proof data as one family, and what a core holds between segments -/

/-- Neither region prefetches a table, so there is nothing to choose for the tables' contents. -/
abbrev adm : (p : Fin 2) → (pcfgs (F := F) p).Adm := fun p => (cfgs p).toPCfg_adm
/-- The projection region's proof data at boundary 1's contents and the attention region's at boundary 3's, by a
    literal case split on the region's number. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- The program has one core, which signals no one: no level is ever assigned. -/
abbrev L : GSem nD τ sig → Finset Unit := fun _ => ∅
abbrev lv : GSem nD τ sig → Unit → ℕ := fun _ _ => 0
/-- Besides its buffers a core carries, unchanged through all four segments, its random-generator register (in some
    state: no segment reads it) and the record that it owes no signal. -/
abbrev R (c : Dev nD) : sProp 𝕄 := iprop((∃ r, prngReg c r) ∗ ∃ W, owes (c : Thread nD τ) (0 : CellTallies nD τ sig Unit) W)
/-- A stretch of host operations as a segment: from every unscoped buffer at W to every unscoped buffer at the
    operations' fold over W, the rest of the core's holdings untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Reshapes and roundings allocate nothing. -/
theorem hostOps0_fresh : (hostOps0 : List (HloOp τ sig (Elt F))).Forall fun op => op.fresh = ∅ := by
  simp only [List.Forall]; repeat' constructor
/-- Nor do the three reshapes of the second stretch. -/
theorem hostOps1_fresh : (hostOps1 : List (HloOp τ sig (Elt F))).Forall fun op => op.fresh = ∅ := by
  simp only [List.Forall]; repeat' constructor
/-- Every unscoped reference of the core is one of the buffers held between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the core holds at the return, the owing record apart: every unscoped buffer at W4 and the generator register. -/
abbrev Tₙ (c : Dev nD) : sProp 𝕄 := iprop(StableHlo.held (c : Thread nD τ) (Pipeline.ucRefs τ sig) (W4 m ρ c) ∗ ∃ r, prngReg c r)

/-! ## The two regions between their boundaries -/

set_option backward.isDefEq.respectTransparency.types false in
/-- The projection region takes every unscoped buffer from W1 to W2. On entry its ten arrays are separated from the
    other unscoped buffers (which bypass it); its invariant between grid points is constant — the other region's scoped
    buffers and the generator register, none of which its body touches —, so it is entered and left trivially; on exit the
    arrays, now at their final contents, are regrouped with the bypassed buffers, which is W2 by its definition. The body
    owes and signals nothing, and uses no semaphore beyond the transfers' own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region takes every unscoped buffer from W3 to W4, in the same way. Its invariant is not constant
    (after the first grid point it records what the three carried buffers hold), but before the first point it is the
    plain one and after the last point it gives the plain one back (hin1, hout1), which is all that entering and leaving
    need. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the run -/

/-- The four segments in program order, each host stretch started from the boundary before it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- The program's text is these four segments run one after the other. -/
theorem main_run (c : Dev nD) : main (F := F) c = Pipeline.Seg.run (segs m ρ) := (main_chain c).trans (by chain_rfl)

set_option backward.isDefEq.respectTransparency.types false in
/-- The run. From any memory m with all semaphore counters at zero, every weakly fair execution of the program
    terminates without fault, and in the final memory every unscoped buffer of core c reads W4 m ρ c. The segments
    chain (each ends in the holdings the next starts from), the launch deals the first holdings (the buffers at m, the
    register, nothing owed), and at the return the held buffers are read off the final memory one by one. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame property: the program runs, and the nine argument arrays end as they were launched — the final memory
    reads W4 at each of them (each is an unscoped buffer), and W4 there is the launch memory. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono (fun r h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩)
    (run_all m ρ)

end Cert.Kernel.Hand

end
-- ==== Proof.RefConsts.lean ====
/-
  The float constants the reference program spells, as the extended reals their patterns denote: the width
  `1024.0` and its exact square root `32`, and negative infinity, the value a row maximum starts from.
-/
import Idealize.ShloMosaic.PureOps.Ideal

noncomputable section

namespace Cert.ReferenceIdeal.RefValue

open Idealize.ShloMosaic

/-- The pattern of `1024.0` denotes the real `1024`. -/
theorem ofBits_1024 : Ideal.ofBits .f32 0x44800000#32 = ((1024 : ℝ) : EReal) := by
  simp [Ideal.ofBits, Ideal.ieee, -EReal.coe_mul]; norm_num

/-- The pattern of negative infinity denotes `⊥`. -/
theorem ofBits_neg_inf : Ideal.ofBits .f32 0xFF800000#32 = ⊥ := by
  simp [Ideal.ofBits, Ideal.ieee]

/-- The square root of `1024` is `32`, exactly: `32 · 32 = 1024`. -/
theorem sqrt_1024 : Ideal.sqrt ((1024 : ℝ) : EReal) = ((32 : ℝ) : EReal) := by
  rw [Ideal.sqrt_coe, if_neg (by norm_num)]
  congr 1
  rw [show (1024 : ℝ) = 32 * 32 by norm_num]
  exact Real.sqrt_mul_self (by norm_num)

/-- So the reference's divisor, the square root of the constant `1024.0`, is `32`. -/
theorem sqrt_ofBits_1024 : Ideal.sqrt (Ideal.ofBits .f32 0x44800000#32) = ((32 : ℝ) : EReal) := by
  rw [ofBits_1024, sqrt_1024]

end Cert.ReferenceIdeal.RefValue

end
-- ==== Proof.Spec.lean ====
/-
  The function both programs compute, stated once over the extended reals, index by index.

  For an input block `x : [4, 2048, 1024]`, square weights `W : [1024, 1024]` and biases `[1024]`:
  * a linear layer is `lin x W β (b, t, e) = (∑ d, x (b, t, d) · W (e, d)) + β e` (the weight is applied transposed);
  * the queries, keys and values are the linear layers of `x` by `(Wq, bq)`, `(Wk, bk)`, `(Wv, bv)`;
  * a score is `S (b, t, s) = (∑ d, Q (b, t, d) · K (b, s, d)) · 1/32` (the width 1024 has the exact root 32);
  * a row's weights are the softmax of its 2048 scores, taken stably: with `M` the row's maximum and
    `L = ∑ s, exp (S s − M)`, the weight of key `s` is `exp (S s − M) / L`;
  * the attended value is `A (b, t, d) = ∑ s, weight s · V (b, s, d)`, and the result the linear layer of `A` by `(Wo, bo)`.
-/
import Idealize.ShloMosaic.PureOps.Ideal
import Idealize.ShloMosaic.Lib.ValueIdx

noncomputable section

namespace Cert.Spec

open Idealize.ShloMosaic Idealize.ShloMosaic.ValueIdx

/-- The shapes of the arguments: the input `[4, 2048, 1024]`, a weight `[1024, 1024]`, a bias `[1024]`. -/
abbrev T3 : Shape := ⟨3, ![4, 2048, 1024]⟩
abbrev T2 : Shape := ⟨2, ![1024, 1024]⟩
abbrev T1 : Shape := ⟨1, ![1024]⟩

/-- A three-axis array by coordinates. -/
abbrev Arr3 : Type := Fin 4 → Fin 2048 → Fin 1024 → EReal

/-- The linear layer `x · Wᵀ + β`, by coordinates, of an input given by coordinates. -/
def linOf (x : Arr3) (W : T2.Idx → EReal) (β : T1.Idx → EReal) : Arr3 :=
  fun b t e => (∑ d : Fin 1024, x b t d * W (ix2 e d)) + β (ix1 e)

/-- An array read by coordinates. -/
def coords (x : T3.Idx → EReal) : Arr3 := fun b t d => x (ix3 b t d)

/-- The scaled scores `(Q · Kᵀ) / 32`. -/
def score (Q K : Arr3) (b : Fin 4) (t s : Fin 2048) : EReal :=
  (∑ d : Fin 1024, Q b t d * K b s d) * ((1 / 32 : ℝ) : EReal)

/-- A row's largest score. -/
def rowMax (S : Fin 4 → Fin 2048 → Fin 2048 → EReal) (b : Fin 4) (t : Fin 2048) : EReal :=
  (Finset.univ : Finset (Fin 2048)).fold max ⊥ (fun s => S b t s)

/-- A row's normaliser: the sum of the exponentials of its scores less its maximum. -/
def rowSum (S : Fin 4 → Fin 2048 → Fin 2048 → EReal) (b : Fin 4) (t : Fin 2048) : EReal :=
  ∑ s : Fin 2048, Ideal.exp (S b t s - rowMax S b t)

/-- The softmax weights applied to the values. -/
def attend (S : Fin 4 → Fin 2048 → Fin 2048 → EReal) (V : Arr3) : Arr3 :=
  fun b t d => ∑ s : Fin 2048, Ideal.div (Ideal.exp (S b t s - rowMax S b t)) (rowSum S b t) * V b s d

/-- The whole function, by coordinates. -/
def outOf (x : T3.Idx → EReal) (Wq : T2.Idx → EReal) (bq : T1.Idx → EReal) (Wk : T2.Idx → EReal) (bk : T1.Idx → EReal)
    (Wv : T2.Idx → EReal) (bv : T1.Idx → EReal) (Wo : T2.Idx → EReal) (bo : T1.Idx → EReal) : Arr3 :=
  linOf (attend (score (linOf (coords x) Wq bq) (linOf (coords x) Wk bk)) (linOf (coords x) Wv bv)) Wo bo

/-- The whole function as an array. -/
def out (x : T3.Idx → EReal) (Wq : T2.Idx → EReal) (bq : T1.Idx → EReal) (Wk : T2.Idx → EReal) (bk : T1.Idx → EReal)
    (Wv : T2.Idx → EReal) (bv : T1.Idx → EReal) (Wo : T2.Idx → EReal) (bo : T1.Idx → EReal) : T3.Idx → EReal :=
  fun i => outOf x Wq bq Wk bk Wv bv Wo bo (i 0) (i 1) (i 2)

end Cert.Spec

end
-- ==== Proof.RefLin.lean ====
/-
  The reference's three input projections, read at an index. Each is a contraction of the input block with a
  weight over the weight's second axis (so the weight is applied transposed) plus the bias broadcast along the
  two leading axes: at `(b, t, e)` it is `(∑ d, x (b, t, d) · W (e, d)) + β e`, the specification's linear layer.
-/
import proofs.«171910_j33732673143663_2_alg».proof.Proof.Gen.ReferenceIdeal.Read
import proofs.«171910_j33732673143663_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The index of the left operand of an input-by-weight contraction at `(b, t, e)` and contracted coordinate `d`. -/
theorem lidx_lin (b : Fin 4) (t : Fin 2048) (e d : Fin 1024) : lidx_main_v0 (ix3 b t e) d = ix3 b t d :=
  funext fun a => by match a with | ⟨0, _⟩ => rfl | ⟨1, _⟩ => rfl | ⟨2, _⟩ => rfl

/-- The index of the weight there: row `e`, column `d`. -/
theorem ridx_lin (b : Fin 4) (t : Fin 2048) (e d : Fin 1024) : ridx_main_v0 (ix3 b t e) d = ix2 e d :=
  funext fun a => by match a with | ⟨0, _⟩ => rfl | ⟨1, _⟩ => rfl

/-- The two broadcasts of a bias read it at the last coordinate. -/
theorem bias_idx (b : Fin 4) (t : Fin 2048) (e : Fin 1024) : idx_main_v1 (idx_main_v2 (ix3 b t e)) = ix1 e :=
  funext fun a => by match a with | ⟨0, _⟩ => rfl

/-- The query projection at `(b, t, e)`. -/
theorem v3_eq (x : S4x2048x1024.Idx → EReal) (W : S1024x1024.Idx → EReal) (β : S1024.Idx → EReal)
    (b : Fin 4) (t : Fin 2048) (e : Fin 1024) :
    val_main_v3 (F := Ideal) x W β (ix3 b t e) = Cert.Spec.linOf (Cert.Spec.coords x) W β b t e := by
  rw [val_main_v3_apply, val_main_v0_apply, val_main_v2_apply, val_main_v1_apply, bias_idx]
  simp only [Ideal.addf_def, lidx_lin, ridx_lin]
  rfl

/-- The key projection is the same function of its own weight and bias. -/
theorem v7_eq (x : S4x2048x1024.Idx → EReal) (W : S1024x1024.Idx → EReal) (β : S1024.Idx → EReal)
    (b : Fin 4) (t : Fin 2048) (e : Fin 1024) :
    val_main_v7 (F := Ideal) x W β (ix3 b t e) = Cert.Spec.linOf (Cert.Spec.coords x) W β b t e :=
  v3_eq x W β b t e

/-- The value projection likewise. -/
theorem v11_eq (x : S4x2048x1024.Idx → EReal) (W : S1024x1024.Idx → EReal) (β : S1024.Idx → EReal)
    (b : Fin 4) (t : Fin 2048) (e : Fin 1024) :
    val_main_v11 (F := Ideal) x W β (ix3 b t e) = Cert.Spec.linOf (Cert.Spec.coords x) W β b t e :=
  v3_eq x W β b t e

end Cert.ReferenceIdeal.RefValue

end
-- ==== Proof.RefScore.lean ====
/-
  The reference's scaled scores, read at an index. The score of query row `t` against key row `s` in batch `b` is the
  contraction of the two projections over the feature axis, divided by the square root of the width `1024`. That root
  is exactly `32`, and dividing an extended real by a nonzero real is multiplying by its reciprocal, so the score is
  `(∑ d, Q (b, t, d) · K (b, s, d)) · 1/32`.
-/
import proofs.«171910_j33732673143663_2_alg».proof.Proof.RefConsts
import proofs.«171910_j33732673143663_2_alg».proof.Proof.RefLin

noncomputable section

namespace Cert.ReferenceIdeal.RefValue

open Cert.ReferenceIdeal Cert.ReferenceIdeal.Gen Cert.ReferenceIdeal.Read Idealize.ShloMosaic Idealize.ShloMosaic.ValueIdx

/-- The query's index in a score's contraction at `(b, t, s)` and contracted coordinate `d`. -/
theorem lidx_score (b : Fin 4) (t s : Fin 2048) (d : Fin 1024) : lidx_main_v12 (ix3 b t s) d = ix3 b t d :=
  funext fun a => by match a with | ⟨0, _⟩ => rfl | ⟨1, _⟩ => rfl | ⟨2, _⟩ => rfl

/-- The key's index there: the key row is the score's last coordinate. -/
theorem ridx_score (b : Fin 4) (t s : Fin 2048) (d : Fin 1024) : ridx_main_v12 (ix3 b t s) d = ix3 b s d :=
  funext fun a => by match a with | ⟨0, _⟩ => rfl | ⟨1, _⟩ => rfl | ⟨2, _⟩ => rfl

/-- The scaled score at `(b, t, s)`. -/
theorem v15_eq (x : S4x2048x1024.Idx → EReal) (Wq : S1024x1024.Idx → EReal) (bq : S1024.Idx → EReal)
    (Wk : S1024x1024.Idx → EReal) (bk : S1024.Idx → EReal) (b : Fin 4) (t s : Fin 2048) :
    val_main_v15 (F := Ideal) x Wq bq Wk bk (ix3 b t s)
      = Cert.Spec.score (Cert.Spec.linOf (Cert.Spec.coords x) Wq bq) (Cert.Spec.linOf (Cert.Spec.coords x) Wk bk) b t s := by
  rw [val_main_v15_apply, val_main_v12_apply, val_main_v14_apply, val_main_v13_apply, val_main_cst_apply]
  simp only [Ideal.hostDivf_def, Ideal.hostUnary_sqrt_def, Ideal.ofBits_def, sqrt_ofBits_1024, lidx_score, ridx_score,
    v3_eq, v7_eq]
  rw [Ideal.div_coe (by norm_num : (32 : ℝ) ≠ 0)]
  rfl

end Cert.ReferenceIdeal.RefValue

end
-- ==== Proof.RefMax.lean ====
/-
  The reference's row maxima, read at an index. The maximum of a row of scores is taken as a reduction over the last
  axis starting from negative infinity, that is, as the fold of `max` from `⊥` over the row's 2048 scores; taking
  the maximum of that with negative infinity once more changes nothing, since `⊥` is the least extended real.
-/
import proofs.«171910_j33732673143663_2_alg».proof.Proof.RefScore

noncomputable section

namespace Cert.ReferenceIdeal.RefValue

open Cert.ReferenceIdeal Cert.ReferenceIdeal.Gen Cert.ReferenceIdeal.Read Idealize.ShloMosaic Idealize.ShloMosaic.ValueIdx

/-- The scores' last axis can be reduced away, leaving the batch and query axes. -/
theorem reduces_scores : S4x2048x2048.Reduces [2] S4x2048 := by decide

/-- Inserting the key coordinate `s` into the reduced index `(b, t)` gives `(b, t, s)`. -/
theorem lift_scores (b : Fin 4) (t s : Fin 2048) : reduces_scores.lift (ix2 b t) s = ix3 b t s :=
  funext fun a => Fin.ext (by match a with | ⟨0, _⟩ => rfl | ⟨1, _⟩ => rfl | ⟨2, _⟩ => rfl)

/-- The reduction with `max` from negative infinity over a row is the fold of `max` from `⊥` over its scores. -/
theorem v16_eq (x : S4x2048x1024.Idx → EReal) (Wq : S1024x1024.Idx → EReal) (bq : S1024.Idx → EReal)
    (Wk : S1024x1024.Idx → EReal) (bk : S1024.Idx → EReal) (b : Fin 4) (t : Fin 2048) :
    val_main_v16 (F := Ideal) x Wq bq Wk bk (ix2 b t) = Cert.Spec.rowMax (Cert.Spec.score (Cert.Spec.linOf (Cert.Spec.coords x) Wq bq) (Cert.Spec.linOf (Cert.Spec.coords x) Wk bk)) b t := by
  unfold val_main_v16
  generalize hy : val_main_v15 (F := Ideal) x Wq bq Wk bk = y
  refine (Host.reduce_eq_fold_single (α := Ideal .f32) FloatOps.maximumf y _ reducesTo_S4x2048x2048_S4x2048_d2
    reduces_scores h_S_ (ix2 b t)).trans ?_
  have hinit : val_main_cst_0 (F := Ideal) (Shape.Idx.first h_S_) = ⊥ := ofBits_neg_inf
  rw [hinit]
  unfold Cert.Spec.rowMax
  refine Finset.fold_congr fun (s : Fin 2048) _ => ?_
  refine (congrArg y (lift_scores b t s)).trans ?_
  rw [← hy]
  exact v15_eq x Wq bq Wk bk b t s

/-- The maximum with the splat of negative infinity leaves the row maximum as it is. -/
theorem v18_eq (x : S4x2048x1024.Idx → EReal) (Wq : S1024x1024.Idx → EReal) (bq : S1024.Idx → EReal)
    (Wk : S1024x1024.Idx → EReal) (bk : S1024.Idx → EReal) (b : Fin 4) (t : Fin 2048) :
    val_main_v18 (F := Ideal) x Wq bq Wk bk (ix2 b t) = Cert.Spec.rowMax (Cert.Spec.score (Cert.Spec.linOf (Cert.Spec.coords x) Wq bq) (Cert.Spec.linOf (Cert.Spec.coords x) Wk bk)) b t := by
  rw [val_main_v18_apply, val_main_v17_apply, val_main_cst_1_apply, v16_eq]
  simp only [Ideal.maximumf_def, Ideal.ofBits_def, ofBits_neg_inf]
  exact max_bot_left _

/-- The two broadcasts of a per-row quantity read it at the row `(b, t)`. -/
theorem row_idx (b : Fin 4) (t s : Fin 2048) : idx_main_v19 (idx_main_v20 (ix3 b t s)) = ix2 b t :=
  funext fun a => by match a with | ⟨0, _⟩ => rfl | ⟨1, _⟩ => rfl

/-- The row maximum broadcast back along the key axis. -/
theorem v20_eq (x : S4x2048x1024.Idx → EReal) (Wq : S1024x1024.Idx → EReal) (bq : S1024.Idx → EReal)
    (Wk : S1024x1024.Idx → EReal) (bk : S1024.Idx → EReal) (b : Fin 4) (t s : Fin 2048) :
    val_main_v20 (F := Ideal) x Wq bq Wk bk (ix3 b t s) = Cert.Spec.rowMax (Cert.Spec.score (Cert.Spec.linOf (Cert.Spec.coords x) Wq bq) (Cert.Spec.linOf (Cert.Spec.coords x) Wk bk)) b t := by
  rw [val_main_v20_apply, val_main_v19_apply, row_idx, v18_eq]

end Cert.ReferenceIdeal.RefValue

end
-- ==== Proof.RefSoftmax.lean ====
/-
  The reference's softmax weights, read at an index. A score less its row's maximum is exponentiated; a row's
  normaliser is the reduction with `+` from `0` of those exponentials over the key axis, that is, their sum; a weight is
  an exponential divided by its row's normaliser.
-/
import proofs.«171910_j33732673143663_2_alg».proof.Proof.RefMax

noncomputable section

namespace Cert.ReferenceIdeal.RefValue

open Cert.ReferenceIdeal Cert.ReferenceIdeal.Gen Cert.ReferenceIdeal.Read Idealize.ShloMosaic Idealize.ShloMosaic.ValueIdx

/-- The exponential of a score less its row's maximum. -/
theorem v22_eq (x : S4x2048x1024.Idx → EReal) (Wq : S1024x1024.Idx → EReal) (bq : S1024.Idx → EReal)
    (Wk : S1024x1024.Idx → EReal) (bk : S1024.Idx → EReal) (b : Fin 4) (t s : Fin 2048) :
    val_main_v22 (F := Ideal) x Wq bq Wk bk (ix3 b t s)
      = Ideal.exp ((Cert.Spec.score (Cert.Spec.linOf (Cert.Spec.coords x) Wq bq) (Cert.Spec.linOf (Cert.Spec.coords x) Wk bk)) b t s - Cert.Spec.rowMax (Cert.Spec.score (Cert.Spec.linOf (Cert.Spec.coords x) Wq bq) (Cert.Spec.linOf (Cert.Spec.coords x) Wk bk)) b t) := by
  rw [val_main_v22_apply, val_main_v21_apply, v15_eq, v20_eq]
  simp only [Ideal.hostUnary_exp_def, Ideal.subf_def]

/-- The summed index of a row's normaliser: key coordinate `s` inserted into `(b, t)`. -/
theorem sum_idx (b : Fin 4) (t s : Fin 2048) : idx_main_v23 (ix2 b t) s = ix3 b t s :=
  funext fun a => by match a with | ⟨0, _⟩ => rfl | ⟨1, _⟩ => rfl | ⟨2, _⟩ => rfl

/-- A row's normaliser: the sum, from zero, of the row's exponentials. -/
theorem v23_eq (x : S4x2048x1024.Idx → EReal) (Wq : S1024x1024.Idx → EReal) (bq : S1024.Idx → EReal)
    (Wk : S1024x1024.Idx → EReal) (bk : S1024.Idx → EReal) (b : Fin 4) (t : Fin 2048) :
    val_main_v23 (F := Ideal) x Wq bq Wk bk (ix2 b t) = Cert.Spec.rowSum (Cert.Spec.score (Cert.Spec.linOf (Cert.Spec.coords x) Wq bq) (Cert.Spec.linOf (Cert.Spec.coords x) Wk bk)) b t := by
  rw [val_main_v23_apply, val_main_cst_2_apply]
  simp only [Ideal.ofBits_def, Ideal.ofBits_zero_f32, zero_add, sum_idx, v22_eq]
  rfl

/-- The two broadcasts of the normaliser read it at the row `(b, t)`. -/
theorem row_idx' (b : Fin 4) (t s : Fin 2048) : idx_main_v24 (idx_main_v25 (ix3 b t s)) = ix2 b t :=
  funext fun a => by match a with | ⟨0, _⟩ => rfl | ⟨1, _⟩ => rfl

/-- A softmax weight: the exponential over its row's normaliser. -/
theorem v26_eq (x : S4x2048x1024.Idx → EReal) (Wq : S1024x1024.Idx → EReal) (bq : S1024.Idx → EReal)
    (Wk : S1024x1024.Idx → EReal) (bk : S1024.Idx → EReal) (b : Fin 4) (t s : Fin 2048) :
    val_main_v26 (F := Ideal) x Wq bq Wk bk (ix3 b t s)
      = Ideal.div (Ideal.exp ((Cert.Spec.score (Cert.Spec.linOf (Cert.Spec.coords x) Wq bq) (Cert.Spec.linOf (Cert.Spec.coords x) Wk bk)) b t s - Cert.Spec.rowMax (Cert.Spec.score (Cert.Spec.linOf (Cert.Spec.coords x) Wq bq) (Cert.Spec.linOf (Cert.Spec.coords x) Wk bk)) b t)) (Cert.Spec.rowSum (Cert.Spec.score (Cert.Spec.linOf (Cert.Spec.coords x) Wq bq) (Cert.Spec.linOf (Cert.Spec.coords x) Wk bk)) b t) := by
  rw [val_main_v26_apply, val_main_v25_apply, val_main_v24_apply, row_idx', v22_eq, v23_eq]
  simp only [Ideal.hostDivf_def]

end Cert.ReferenceIdeal.RefValue

end
-- ==== Proof.RefAttend.lean ====
/-
  The reference's attended values, read at an index: the contraction of the softmax weights with the value
  projection over the key axis, `∑ s, weight (b, t, s) · V (b, s, d)`.
-/
import proofs.«171910_j33732673143663_2_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx

/-- The weight's index in the contraction at `(b, t, d)` and key `s`. -/
theorem lidx_attend (b : Fin 4) (t : Fin 2048) (d : Fin 1024) (s : Fin 2048) : lidx_main_v27 (ix3 b t d) s = ix3 b t s :=
  funext fun a => by match a with | ⟨0, _⟩ => rfl | ⟨1, _⟩ => rfl | ⟨2, _⟩ => rfl

/-- The value's index there: key row `s`, feature `d`. -/
theorem ridx_attend (b : Fin 4) (t : Fin 2048) (d : Fin 1024) (s : Fin 2048) : ridx_main_v27 (ix3 b t d) s = ix3 b s d :=
  funext fun a => by match a with | ⟨0, _⟩ => rfl | ⟨1, _⟩ => rfl | ⟨2, _⟩ => rfl

/-- The attended value at `(b, t, d)`. -/
theorem v27_eq (x : S4x2048x1024.Idx → EReal) (Wq : S1024x1024.Idx → EReal) (bq : S1024.Idx → EReal)
    (Wk : S1024x1024.Idx → EReal) (bk : S1024.Idx → EReal)
    (Wv : S1024x1024.Idx → EReal) (bv : S1024.Idx → EReal) (b : Fin 4) (t : Fin 2048) (d : Fin 1024) :
    val_main_v27 (F := Ideal) x Wq bq Wk bk Wv bv (ix3 b t d) = (Cert.Spec.attend (Cert.Spec.score (Cert.Spec.linOf (Cert.Spec.coords x) Wq bq) (Cert.Spec.linOf (Cert.Spec.coords x) Wk bk)) (Cert.Spec.linOf (Cert.Spec.coords x) Wv bv)) b t d := by
  rw [val_main_v27_apply]
  simp only [lidx_attend, ridx_attend, v26_eq, v11_eq]
  rfl

end Cert.ReferenceIdeal.RefValue

end
-- ==== Proof.RefRead.lean ====
/-
  The reference program computes the specification. Its result is the output projection of the attended values:
  at `(b, t, e)` the contraction of the attended values with the output weight over the weight's second axis plus the
  output bias. With the earlier stages read at an index (the three input projections, the scaled scores, the row
  maxima, the softmax weights, the attended values) this is the specification's function, index by index.
-/
import proofs.«171910_j33732673143663_2_alg».proof.Proof.RefAttend

noncomputable section

namespace Cert.ReferenceIdeal.RefValue

open Cert.ReferenceIdeal Cert.ReferenceIdeal.Gen Cert.ReferenceIdeal.Read Idealize.ShloMosaic Idealize.ShloMosaic.ValueIdx

/-- The attended value's index in the output contraction at `(b, t, e)` and contracted coordinate `d`. -/
theorem lidx_out (b : Fin 4) (t : Fin 2048) (e d : Fin 1024) : lidx_main_v28 (ix3 b t e) d = ix3 b t d :=
  funext fun a => by match a with | ⟨0, _⟩ => rfl | ⟨1, _⟩ => rfl | ⟨2, _⟩ => rfl

/-- The output weight's index there: row `e`, column `d`. -/
theorem ridx_out (b : Fin 4) (t : Fin 2048) (e d : Fin 1024) : ridx_main_v28 (ix3 b t e) d = ix2 e d :=
  funext fun a => by match a with | ⟨0, _⟩ => rfl | ⟨1, _⟩ => rfl

/-- The two broadcasts of the output bias read it at the last coordinate. -/
theorem bias_idx_out (b : Fin 4) (t : Fin 2048) (e : Fin 1024) : idx_main_v29 (idx_main_v30 (ix3 b t e)) = ix1 e :=
  funext fun a => by match a with | ⟨0, _⟩ => rfl

/-- The result at `(b, t, e)`. -/
theorem v31_eq (x : S4x2048x1024.Idx → EReal) (Wq : S1024x1024.Idx → EReal) (bq : S1024.Idx → EReal)
    (Wk : S1024x1024.Idx → EReal) (bk : S1024.Idx → EReal)
    (Wv : S1024x1024.Idx → EReal) (bv : S1024.Idx → EReal)
    (Wo : S1024x1024.Idx → EReal) (bo : S1024.Idx → EReal) (b : Fin 4) (t : Fin 2048) (e : Fin 1024) :
    val_main_v31 (F := Ideal) x Wq bq Wk bk Wv bv Wo bo (ix3 b t e)
      = Cert.Spec.outOf x Wq bq Wk bk Wv bv Wo bo b t e := by
  rw [val_main_v31_apply, val_main_v28_apply, val_main_v30_apply, val_main_v29_apply, bias_idx_out]
  simp only [Ideal.addf_def, lidx_out, ridx_out, v27_eq]
  rfl

/-- The reference's result term, index by index, is the specification. -/
theorem ref_eq_spec_apply (x : S4x2048x1024.Idx → EReal) (Wq : S1024x1024.Idx → EReal) (bq : S1024.Idx → EReal)
    (Wk : S1024x1024.Idx → EReal) (bk : S1024.Idx → EReal)
    (Wv : S1024x1024.Idx → EReal) (bv : S1024.Idx → EReal)
    (Wo : S1024x1024.Idx → EReal) (bo : S1024.Idx → EReal) (i : S4x2048x1024.Idx) :
    val_main_v31 (F := Ideal) x Wq bq Wk bk Wv bv Wo bo i = Cert.Spec.out x Wq bq Wk bk Wv bv Wo bo i := by
  obtain ⟨b, t, e, rfl⟩ : ∃ (b : Fin 4) (t : Fin 2048) (e : Fin 1024), i = ix3 b t e := ⟨i 0, i 1, i 2, eq_ix3 i⟩
  exact v31_eq x Wq bq Wk bk Wv bv Wo bo b t e

/-- The reference's result term is the specification, as arrays. -/
theorem ref_eq_spec (x : S4x2048x1024.Idx → EReal) (Wq : S1024x1024.Idx → EReal) (bq : S1024.Idx → EReal)
    (Wk : S1024x1024.Idx → EReal) (bk : S1024.Idx → EReal)
    (Wv : S1024x1024.Idx → EReal) (bv : S1024.Idx → EReal)
    (Wo : S1024x1024.Idx → EReal) (bo : S1024.Idx → EReal) :
    val_main_v31 (F := Ideal) x Wq bq Wk bk Wv bv Wo bo = Cert.Spec.out x Wq bq Wk bk Wv bv Wo bo :=
  funext fun i => ref_eq_spec_apply x Wq bq Wk bk Wv bv Wo bo i

end Cert.ReferenceIdeal.RefValue

end
-- ==== Proof.RefRes.lean ====
/-
  The reference run's result, named as the run names it, is the specification of the arguments' contents at launch.
-/
import proofs.«171910_j33732673143663_2_alg».proof.Proof.RefRead

noncomputable section

namespace Cert.ReferenceIdeal.RefValue

open Cert.ReferenceIdeal Cert.ReferenceIdeal.Gen Cert.ReferenceIdeal.Read Idealize.ShloMosaic Idealize.ShloMosaic.ValueIdx

open Idealize.ShloMosaic.TcCoe Idealize.SL.Sem in
/-- The term the reference's run leaves in its result array is the specification of the nine argument arrays. -/
theorem res_eq_spec (m : (ℓ : Loc nD τ sig) → Buf (Elt Ideal) ℓ) (c : Dev nD) :
    Cert.ReferenceIdeal.Value.res_main_v31 (F := Ideal) m c
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v31_eq (F := Ideal) m c).trans (ref_eq_spec _ _ _ _ _ _ _ _ _)

end Cert.ReferenceIdeal.RefValue

end
-- ==== Proof.RefFinite.lean ====
/-
  From the precondition to finiteness. The precondition is the conjunction, over the nine argument arrays, of
  "every entry's absolute value is below positive infinity", each taken as a reduction by `and` from `1` over all the
  array's axes. If the conjunction is `1` then each reduction is `1`, so each comparison is `1` at every index; and an
  extended real whose absolute value `max a (-a)` is below `⊤` is neither `⊤` nor `⊥`, that is, a real number.
-/
import proofs.«171910_j33732673143663_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx

/-- The pattern of positive infinity denotes `⊤`. -/
theorem ofBits_pos_inf : Ideal.ofBits .f32 0x7F800000#32 = ⊤ := by
  simp [Ideal.ofBits, Ideal.ieee]

/-- An extended real whose absolute value compares below positive infinity is a real. -/
theorem real_of_abs_lt_inf (a : EReal)
    (h : FloatOps.cmpf (F := Ideal) (φ := .f32) .olt (FloatOps.hostAbsf a) (Ideal.ofBits .f32 0x7F800000#32) = 1#1) :
    ∃ r : ℝ, a = (r : EReal) := by
  rw [ofBits_pos_inf] at h
  have hlt : max a (-a) < ⊤ := by
    by_contra hn
    have : FloatOps.cmpf (F := Ideal) (φ := .f32) .olt (FloatOps.hostAbsf a) (⊤ : EReal) = 0#1 := by
      show BitVec.ofBool (decide (max a (-a) < ⊤)) = 0#1
      rw [decide_eq_false hn]; rfl
    rw [this] at h
    exact absurd h (by decide)
  induction a using EReal.rec with
  | bot => exact absurd hlt (by simp)
  | top => exact absurd hlt (by simp)
  | coe r => exact ⟨r, rfl⟩

/-- The scalar shape has one index. -/
instance subsingleton_scalar_idx : Subsingleton Cert.Pre_finite_inputs.S_.Idx := ⟨fun a b => funext fun d => d.elim0⟩

/-- One array's conjunct: if "all entries have absolute value below positive infinity" reduces to `1`, every entry is
    a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant (F := Ideal) Cert.Pre_finite_inputs.S_ .f32 0x7F800000#32)))
          init hr hu ix0 = 1#1) (i : s.Idx) :
    ∃ r : ℝ, x i = (r : EReal) := by
  have hi := Host.reduce_andi_all _ init hr hu ix0 e i
  refine real_of_abs_lt_inf (x i) ?_
  have hbc : broadcastInDim s ![] hb (constant (F := Ideal) Cert.Pre_finite_inputs.S_ .f32 0x7F800000#32) i
      = Ideal.ofBits .f32 0x7F800000#32 :=
    broadcastInDim_apply _ hb _ i ix0 (fun a => a.elim0)
  rw [← hbc]
  exact hi

variable [Cert.Pre_finite_inputs.Facts]

/-- Under the precondition every entry of each of the nine argument arrays is a real. -/
theorem finite_of_pre (x : FVec Ideal Cert.Pre_finite_inputs.S4x2048x1024 .f32)
    (Wq : FVec Ideal Cert.Pre_finite_inputs.S1024x1024 .f32) (bq : FVec Ideal Cert.Pre_finite_inputs.S1024 .f32)
    (Wk : FVec Ideal Cert.Pre_finite_inputs.S1024x1024 .f32) (bk : FVec Ideal Cert.Pre_finite_inputs.S1024 .f32)
    (Wv : FVec Ideal Cert.Pre_finite_inputs.S1024x1024 .f32) (bv : FVec Ideal Cert.Pre_finite_inputs.S1024 .f32)
    (Wo : FVec Ideal Cert.Pre_finite_inputs.S1024x1024 .f32) (bo : FVec Ideal Cert.Pre_finite_inputs.S1024 .f32)
    (h : Cert.Pre_finite_inputs.fn (F := Ideal) x Wq bq Wk bk Wv bv Wo bo = fun _ => 1#1) :
    (∀ i, ∃ r : ℝ, x i = (r : EReal)) ∧ (∀ i, ∃ r : ℝ, Wq i = (r : EReal)) ∧ (∀ i, ∃ r : ℝ, bq i = (r : EReal))
      ∧ (∀ i, ∃ r : ℝ, Wk i = (r : EReal)) ∧ (∀ i, ∃ r : ℝ, bk i = (r : EReal))
      ∧ (∀ i, ∃ r : ℝ, Wv i = (r : EReal)) ∧ (∀ i, ∃ r : ℝ, bv i = (r : EReal))
      ∧ (∀ i, ∃ r : ℝ, Wo i = (r : EReal)) ∧ (∀ i, ∃ r : ℝ, bo i = (r : EReal)) := by
  have h0 := congrFun h ix0
  dsimp only [Cert.Pre_finite_inputs.fn, Cert.Pre_finite_inputs.fn_part1, Cert.Pre_finite_inputs.fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x _ _ _ _ e0, all_real Wq _ _ _ _ e1, all_real bq _ _ _ _ e2, all_real Wk _ _ _ _ e3,
    all_real bk _ _ _ _ e4, all_real Wv _ _ _ _ e5, all_real bv _ _ _ _ e6, all_real Wo _ _ _ _ e7,
    all_real bo _ _ _ _ e8⟩

end Cert.ReferenceIdeal.RefValue

end
-- ==== Proof.KValue0Pay.lean ====
/-
  The projection kernel's stored values, read at an index. Each of its three stores is the product of its block of
  input rows with a whole weight matrix, contracted over the second axis of both (so the weight is applied transposed),
  plus the one-row bias broadcast down the rows; the changes of float format on the way are the identity on the
  extended reals, and the casts to the same shape move nothing. So at row `p` and column `e` a stored value is
  `(∑ d, x (p, d) · w (e, d)) + β (0, e)`.
-/
import proofs.«171910_j33732673143663_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The rounded copy of the input block is the block. -/
theorem pay1_eq (x : Vec Ideal S1024x1024 .f32) : k0_pay1 (F := Ideal) x = x := by
  unfold k0_pay1
  rw [shapeCast_self]
  rfl

/-- The left operand's row is the result's row. -/
theorem lhs_proj_0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left operand's column is the contracted coordinate. -/
theorem lhs_proj_1 (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- The weight's row is the result's column. -/
theorem rhs_proj_0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The weight's column is the contracted coordinate. -/
theorem rhs_proj_1 (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The left operand's index in the contraction at `(p, e)` and contracted coordinate `d`: row `p`, column `d`. -/
theorem lhs_proj (p e d : Fin 1024) :
    dot_S1024x1024_S1024x1024_S1024x1024_1_1_0_0_n_n.lhsIdx (ix2 p e) ((contrEquiv1 dot_S1024x1024_S1024x1024_S1024x1024_1_1_0_0_n_n 1024 rfl rfl).symm d) = ix2 p d := by
  have hk := contrEquiv1_symm_val dot_S1024x1024_S1024x1024_S1024x1024_1_1_0_0_n_n 1024 rfl rfl d
  exact funext fun a => Fin.ext (by
    match a with
    | ⟨0, _⟩ => exact lhs_proj_0 _ _
    | ⟨1, _⟩ => exact (lhs_proj_1 _ _).trans hk)

/-- The weight's index there: row `e`, column `d`. -/
theorem rhs_proj (p e d : Fin 1024) :
    dot_S1024x1024_S1024x1024_S1024x1024_1_1_0_0_n_n.rhsIdx (ix2 p e) ((contrEquiv1 dot_S1024x1024_S1024x1024_S1024x1024_1_1_0_0_n_n 1024 rfl rfl).symm d) = ix2 e d := by
  have hk := contrEquiv1_symm_val dot_S1024x1024_S1024x1024_S1024x1024_1_1_0_0_n_n 1024 rfl rfl d
  exact funext fun a => Fin.ext (by
    match a with
    | ⟨0, _⟩ => exact rhs_proj_0 _ _
    | ⟨1, _⟩ => exact (rhs_proj_1 _ _).trans hk)

/-- The product into a zero accumulator plus the broadcast bias row, at `(p, e)`. -/
theorem proj_apply (x : FVec Ideal S1024x1024 .bf16) (w : FVec Ideal S1024x1024 .bf16) (β : FVec Ideal S1x1024 .f32)
    (p e : Fin 1024) :
    addf (matmul dot_S1024x1024_S1024x1024_S1024x1024_1_1_0_0_n_n none x w (constant S1024x1024 .f32 0x00000000#32))
        (broadcastTo S1024x1024 β broadcasts_S1x1024_S1024x1024) (ix2 p e)
      = (∑ d : Fin 1024, x (ix2 p d) * w (ix2 e d)) + β (ix2 0 e) := by
  show FloatOps.matmul dot_S1024x1024_S1024x1024_S1024x1024_1_1_0_0_n_n none x w (constant S1024x1024 .f32 0x00000000#32) (ix2 p e)
      + broadcastTo S1024x1024 β broadcasts_S1x1024_S1024x1024 (ix2 p e) = _
  rw [Ideal.matmul_constant_zero_apply, broadcastTo_1b_ab_apply,
    ← Equiv.sum_comp (contrEquiv1 dot_S1024x1024_S1024x1024_S1024x1024_1_1_0_0_n_n 1024 rfl rfl).symm]
  refine congrArg (· + β (ix2 0 e)) (Finset.sum_congr rfl fun d _ => ?_)
  rw [lhs_proj, rhs_proj]

/-- The first store's value at `(p, e)`. -/
theorem pay2_apply (x : Vec Ideal S1024x1024 .f32) (w : Vec Ideal S1024x1024 .bf16) (β : Vec Ideal S1x1024 .f32)
    (p e : Fin 1024) :
    k0_pay2 (F := Ideal) x w β (ix2 p e) = (∑ d : Fin 1024, x (ix2 p d) * w (ix2 e d)) + β (ix2 0 e) := by
  unfold k0_pay2
  rw [pay1_eq, shapeCast_self, shapeCast_self]
  exact proj_apply x w β p e

/-- The second store's value at `(p, e)`. -/
theorem pay3_apply (x : Vec Ideal S1024x1024 .f32) (w : Vec Ideal S1024x1024 .bf16) (β : Vec Ideal S1x1024 .f32)
    (p e : Fin 1024) :
    k0_pay3 (F := Ideal) x w β (ix2 p e) = (∑ d : Fin 1024, x (ix2 p d) * w (ix2 e d)) + β (ix2 0 e) := by
  unfold k0_pay3
  rw [pay1_eq, shapeCast_self, shapeCast_self]
  exact proj_apply x w β p e

/-- The third store's value at `(p, e)`. -/
theorem pay4_apply (x : Vec Ideal S1024x1024 .f32) (w : Vec Ideal S1024x1024 .bf16) (β : Vec Ideal S1x1024 .f32)
    (p e : Fin 1024) :
    k0_pay4 (F := Ideal) x w β (ix2 p e) = (∑ d : Fin 1024, x (ix2 p d) * w (ix2 e d)) + β (ix2 0 e) := by
  unfold k0_pay4
  rw [pay1_eq, shapeCast_self, shapeCast_self]
  exact proj_apply x w β p e

end Cert.KernelIdeal.Hand

end
-- ==== Proof.KValue0.lean ====
/-
  From the projection kernel's blocks to its three output arrays. At grid point `t` the kernel stores, for each of the
  three projections, the product of rows `1024·t … 1024·t + 1023` of the flattened input with the whole transposed
  weight plus the bias row, into the same rows of the output; every point writes its block back, and the eight row
  blocks tile the `8192 × 1024` array. So each output array ends as one function of the arrays the region finds:
  at `(r, e)` it is `(∑ d, X (r, d) · W (e, d)) + β (0, e)`.
-/
import proofs.«171910_j33732673143663_2_alg».proof.Proof.KRegion0
import proofs.«171910_j33732673143663_2_alg».proof.Proof.KValue0Pay

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- A projection of the flattened input: at row `r` and column `e`, the contraction of the input's row with the
    weight's row `e`, plus the bias row at `e`. -/
def proj (X : S8192x1024.Idx → EReal) (W : S1024x1024.Idx → EReal) (β : S1x1024.Idx → EReal) : S8192x1024.Idx → EReal :=
  fun i => (∑ d : Fin 1024, X (ix2 (i 0 : Fin 8192) d) * W (ix2 (i 1 : Fin 1024) d)) + β (ix2 (0 : Fin 1) (i 1 : Fin 1024))

/-- The projection at explicit coordinates. -/
theorem proj_ix2 (X : S8192x1024.Idx → EReal) (W : S1024x1024.Idx → EReal) (β : S1x1024.Idx → EReal) (r : Fin 8192) (e : Fin 1024) :
    proj X W β (ix2 r e) = (∑ d : Fin 1024, X (ix2 r d) * W (ix2 e d)) + β (ix2 (0 : Fin 1) e) := rfl

/-- One entry of a projection with the three operands read at given indices. -/
def rowTerm (X : S8192x1024.Idx → EReal) (W : S1024x1024.Idx → EReal) (β : S1x1024.Idx → EReal)
    (ix : Fin 1024 → S8192x1024.Idx) (iw : Fin 1024 → S1024x1024.Idx) (ib : S1x1024.Idx) : EReal :=
  (∑ d : Fin 1024, X (ix d) * W (iw d)) + β ib

/-- The zero offsets, as the constant function. -/
theorem hz : (![0, 0] : Fin 2 → Nat) = fun _ => 0 := funext fun a => by fin_cases a <;> rfl

-- the TensorCore's buffer contents when the region is entered
variable (V : (c : Dev nD) → (b : Ref sig .tc) → Buf (Elt Ideal) ((c : Thread nD τ).loc b))

/-! ## Output window 7 -/

/-- The printed index maps over the eight grid points: the input rows' block moves with the output's, whose row block
    index is the point and whose column block index is zero; the weight's and the bias row's blocks stay at zero. -/
theorem idx_facts_7 : ∀ t : Fin cfg0.N, win0_0.index t (0 : Fin 2) = win0_7.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_7.index t (0 : Fin 2) = t.val ∧ win0_7.index t (1 : Fin 2) = 0 :=
  (by decide +kernel : ∀ t : Fin grid0.N, _)

/-- What point `t` writes back to window 7's array is block `t` of the projection of the arrays the region finds. -/
theorem flushed_7_eq (c : Dev nD) (t : Fin cfg0.N) :
    (dat0 V c).flushed 7 t
      = ((cfg0.win 7).blk t).view.read (Elt Ideal) (proj (V c main_v0) (V c main_v1) (V c main_v6)) := by
  show (cfg0.win 7).cut (grid0.coords t) ((dat0 V c).after 7 t) = _
  rw [after0_7]
  unfold out0_7
  rw [View.canon_unit_zero hz]
  simp only [View.ld_unit_zero (S := S1024x1024) hz, View.ld_unit_zero (S := S1x1024) hz]
  obtain ⟨e0, e1, e2, e3, e4, e5, e6, e7⟩ := idx_facts_7 t
  funext j
  obtain ⟨p, e, rfl⟩ : ∃ (p e : Fin 1024), j = ix2 p e := ⟨j 0, j 1, eq_ix2 j⟩
  refine (pay2_apply (iblk0 V c 0 t) (iblk0 V c 1 t) (iblk0 V c 2 t) p e).trans ?_
  show rowTerm (V c main_v0) (V c main_v1) (V c main_v6) (fun d => ((cfg0.win 0).blk t).view.emb (ix2 p d))
      (fun d => ((cfg0.win 1).blk t).view.emb (ix2 e d)) (((cfg0.win 2).blk t).view.emb (ix2 0 e))
    = proj (V c main_v0) (V c main_v1) (V c main_v6) (((cfg0.win 7).blk t).view.emb (ix2 p e))
  have hp : (p : Nat) < 1024 := p.isLt
  have he : (e : Nat) < 1024 := e.isLt
  have hx : ∀ d : Fin 1024, ((cfg0.win 0).blk t).view.emb (ix2 p d)
      = ix2 (((cfg0.win 7).blk t).view.emb (ix2 p e) 0 : Fin 8192) d := fun d => by
    funext a; apply Fin.ext
    match a with
    | ⟨0, _⟩ => show win0_0.index t (0 : Fin 2) * 1024 + 1 * p.val = win0_7.index t (0 : Fin 2) * 1024 + 1 * p.val; omega
    | ⟨1, _⟩ => show win0_0.index t (1 : Fin 2) * 1024 + 1 * d.val = d.val; omega
  have hw : ∀ d : Fin 1024, ((cfg0.win 1).blk t).view.emb (ix2 e d)
      = ix2 (((cfg0.win 7).blk t).view.emb (ix2 p e) 1 : Fin 1024) d := fun d => by
    funext a; apply Fin.ext
    match a with
    | ⟨0, _⟩ => show win0_1.index t (0 : Fin 2) * 1024 + 1 * e.val = win0_7.index t (1 : Fin 2) * 1024 + 1 * e.val; omega
    | ⟨1, _⟩ => show win0_1.index t (1 : Fin 2) * 1024 + 1 * d.val = d.val; omega
  have hb : ((cfg0.win 2).blk t).view.emb (ix2 0 e)
      = ix2 (0 : Fin 1) (((cfg0.win 7).blk t).view.emb (ix2 p e) 1 : Fin 1024) := by
    funext a; apply Fin.ext
    match a with
    | ⟨0, _⟩ => show win0_2.index t (0 : Fin 2) * 1 + 1 * 0 = 0; omega
    | ⟨1, _⟩ => show win0_2.index t (1 : Fin 2) * 1024 + 1 * e.val = win0_7.index t (1 : Fin 2) * 1024 + 1 * e.val; omega
  rw [funext hx, funext hw, hb]
  rfl

/-- An index of the array is in point `t`'s block iff each coordinate is in the block's range on its axis. -/
theorem mem_blk_7 (t : Fin cfg0.N) (i : S8192x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v9_0).slice (win0_7.rect t)).set ↔ _
  rw [View.set_slice_whole, Rect.mem_set_unit]
  exact Iff.rfl

/-- Every index of the array is in the block of the point its row falls in: row `r` is in block `r / 1024`. -/
theorem cover_7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : grid0.N = 8 := N_0
  let t : Fin cfg0.N := ⟨(i 0).val / 1024, by show (i 0).val / 1024 < grid0.N; omega⟩
  obtain ⟨e0, e1, e2, e3, e4, e5, e6, e7⟩ := idx_facts_7 t
  have e6' : win0_7.index t (0 : Fin 2) = (i 0).val / 1024 := e6
  refine ⟨t, flush0_7 t, ?_⟩
  rw [mem_blk_7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1024 ≤ (i 1).val ∧ (i 1).val < win0_7.index t (1 : Fin 2) * 1024 + 1024; omega

/-- The array window 7 leaves: the projection, index by index, of the arrays the region finds. -/
theorem final0_7 (c : Dev nD) :
    (dat0 V c).arrAt 7 cfg0.N = proj (V c main_v0) (V c main_v1) (V c main_v6) :=
  (dat0 V c).arrAt_eq_of_cover 7 (proj (V c main_v0) (V c main_v1) (V c main_v6)) (fun t _ => flushed_7_eq V c t) (cover_7)

/-! ## Output window 8 -/

/-- The printed index maps over the eight grid points: the input rows' block moves with the output's, whose row block
    index is the point and whose column block index is zero; the weight's and the bias row's blocks stay at zero. -/
theorem idx_facts_8 : ∀ t : Fin cfg0.N, win0_0.index t (0 : Fin 2) = win0_8.index t (0 : Fin 2)
    ∧ win0_0.index t (1 : Fin 2) = 0 ∧ win0_3.index t (0 : Fin 2) = 0 ∧ win0_3.index t (1 : Fin 2) = 0
    ∧ win0_4.index t (0 : Fin 2) = 0 ∧ win0_4.index t (1 : Fin 2) = 0
    ∧ win0_8.index t (0 : Fin 2) = t.val ∧ win0_8.index t (1 : Fin 2) = 0 :=
  (by decide +kernel : ∀ t : Fin grid0.N, _)

/-- What point `t` writes back to window 8's array is block `t` of the projection of the arrays the region finds. -/
theorem flushed_8_eq (c : Dev nD) (t : Fin cfg0.N) :
    (dat0 V c).flushed 8 t
      = ((cfg0.win 8).blk t).view.read (Elt Ideal) (proj (V c main_v0) (V c main_v2) (V c main_v7)) := by
  show (cfg0.win 8).cut (grid0.coords t) ((dat0 V c).after 8 t) = _
  rw [after0_8]
  unfold out0_8
  rw [View.canon_unit_zero hz]
  simp only [View.ld_unit_zero (S := S1024x1024) hz, View.ld_unit_zero (S := S1x1024) hz]
  obtain ⟨e0, e1, e2, e3, e4, e5, e6, e7⟩ := idx_facts_8 t
  funext j
  obtain ⟨p, e, rfl⟩ : ∃ (p e : Fin 1024), j = ix2 p e := ⟨j 0, j 1, eq_ix2 j⟩
  refine (pay3_apply (iblk0 V c 0 t) (iblk0 V c 3 t) (iblk0 V c 4 t) p e).trans ?_
  show rowTerm (V c main_v0) (V c main_v2) (V c main_v7) (fun d => ((cfg0.win 0).blk t).view.emb (ix2 p d))
      (fun d => ((cfg0.win 3).blk t).view.emb (ix2 e d)) (((cfg0.win 4).blk t).view.emb (ix2 0 e))
    = proj (V c main_v0) (V c main_v2) (V c main_v7) (((cfg0.win 8).blk t).view.emb (ix2 p e))
  have hp : (p : Nat) < 1024 := p.isLt
  have he : (e : Nat) < 1024 := e.isLt
  have hx : ∀ d : Fin 1024, ((cfg0.win 0).blk t).view.emb (ix2 p d)
      = ix2 (((cfg0.win 8).blk t).view.emb (ix2 p e) 0 : Fin 8192) d := fun d => by
    funext a; apply Fin.ext
    match a with
    | ⟨0, _⟩ => show win0_0.index t (0 : Fin 2) * 1024 + 1 * p.val = win0_8.index t (0 : Fin 2) * 1024 + 1 * p.val; omega
    | ⟨1, _⟩ => show win0_0.index t (1 : Fin 2) * 1024 + 1 * d.val = d.val; omega
  have hw : ∀ d : Fin 1024, ((cfg0.win 3).blk t).view.emb (ix2 e d)
      = ix2 (((cfg0.win 8).blk t).view.emb (ix2 p e) 1 : Fin 1024) d := fun d => by
    funext a; apply Fin.ext
    match a with
    | ⟨0, _⟩ => show win0_3.index t (0 : Fin 2) * 1024 + 1 * e.val = win0_8.index t (1 : Fin 2) * 1024 + 1 * e.val; omega
    | ⟨1, _⟩ => show win0_3.index t (1 : Fin 2) * 1024 + 1 * d.val = d.val; omega
  have hb : ((cfg0.win 4).blk t).view.emb (ix2 0 e)
      = ix2 (0 : Fin 1) (((cfg0.win 8).blk t).view.emb (ix2 p e) 1 : Fin 1024) := by
    funext a; apply Fin.ext
    match a with
    | ⟨0, _⟩ => show win0_4.index t (0 : Fin 2) * 1 + 1 * 0 = 0; omega
    | ⟨1, _⟩ => show win0_4.index t (1 : Fin 2) * 1024 + 1 * e.val = win0_8.index t (1 : Fin 2) * 1024 + 1 * e.val; omega
  rw [funext hx, funext hw, hb]
  rfl

/-- An index of the array is in point `t`'s block iff each coordinate is in the block's range on its axis. -/
theorem mem_blk_8 (t : Fin cfg0.N) (i : S8192x1024.Idx) :
    i ∈ ((cfg0.win 8).blk t).view.set ↔ ∀ a : Fin 2, win0_8.index t a * S1024x1024.size a ≤ (i a).val
      ∧ (i a).val < win0_8.index t a * S1024x1024.size a + S1024x1024.size a := by
  show i ∈ ((View.whole main_v9_1).slice (win0_8.rect t)).set ↔ _
  rw [View.set_slice_whole, Rect.mem_set_unit]
  exact Iff.rfl

/-- Every index of the array is in the block of the point its row falls in: row `r` is in block `r / 1024`. -/
theorem cover_8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : grid0.N = 8 := N_0
  let t : Fin cfg0.N := ⟨(i 0).val / 1024, by show (i 0).val / 1024 < grid0.N; omega⟩
  obtain ⟨e0, e1, e2, e3, e4, e5, e6, e7⟩ := idx_facts_8 t
  have e6' : win0_8.index t (0 : Fin 2) = (i 0).val / 1024 := e6
  refine ⟨t, flush0_8 t, ?_⟩
  rw [mem_blk_8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 1024 ≤ (i 1).val ∧ (i 1).val < win0_8.index t (1 : Fin 2) * 1024 + 1024; omega

/-- The array window 8 leaves: the projection, index by index, of the arrays the region finds. -/
theorem final0_8 (c : Dev nD) :
    (dat0 V c).arrAt 8 cfg0.N = proj (V c main_v0) (V c main_v2) (V c main_v7) :=
  (dat0 V c).arrAt_eq_of_cover 8 (proj (V c main_v0) (V c main_v2) (V c main_v7)) (fun t _ => flushed_8_eq V c t) (cover_8)

/-! ## Output window 9 -/

/-- The printed index maps over the eight grid points: the input rows' block moves with the output's, whose row block
    index is the point and whose column block index is zero; the weight's and the bias row's blocks stay at zero. -/
theorem idx_facts_9 : ∀ t : Fin cfg0.N, win0_0.index t (0 : Fin 2) = win0_9.index t (0 : Fin 2)
    ∧ win0_0.index t (1 : Fin 2) = 0 ∧ win0_5.index t (0 : Fin 2) = 0 ∧ win0_5.index t (1 : Fin 2) = 0
    ∧ win0_6.index t (0 : Fin 2) = 0 ∧ win0_6.index t (1 : Fin 2) = 0
    ∧ win0_9.index t (0 : Fin 2) = t.val ∧ win0_9.index t (1 : Fin 2) = 0 :=
  (by decide +kernel : ∀ t : Fin grid0.N, _)

/-- What point `t` writes back to window 9's array is block `t` of the projection of the arrays the region finds. -/
theorem flushed_9_eq (c : Dev nD) (t : Fin cfg0.N) :
    (dat0 V c).flushed 9 t
      = ((cfg0.win 9).blk t).view.read (Elt Ideal) (proj (V c main_v0) (V c main_v3) (V c main_v8)) := by
  show (cfg0.win 9).cut (grid0.coords t) ((dat0 V c).after 9 t) = _
  rw [after0_9]
  unfold out0_9
  rw [View.canon_unit_zero hz]
  simp only [View.ld_unit_zero (S := S1024x1024) hz, View.ld_unit_zero (S := S1x1024) hz]
  obtain ⟨e0, e1, e2, e3, e4, e5, e6, e7⟩ := idx_facts_9 t
  funext j
  obtain ⟨p, e, rfl⟩ : ∃ (p e : Fin 1024), j = ix2 p e := ⟨j 0, j 1, eq_ix2 j⟩
  refine (pay4_apply (iblk0 V c 0 t) (iblk0 V c 5 t) (iblk0 V c 6 t) p e).trans ?_
  show rowTerm (V c main_v0) (V c main_v3) (V c main_v8) (fun d => ((cfg0.win 0).blk t).view.emb (ix2 p d))
      (fun d => ((cfg0.win 5).blk t).view.emb (ix2 e d)) (((cfg0.win 6).blk t).view.emb (ix2 0 e))
    = proj (V c main_v0) (V c main_v3) (V c main_v8) (((cfg0.win 9).blk t).view.emb (ix2 p e))
  have hp : (p : Nat) < 1024 := p.isLt
  have he : (e : Nat) < 1024 := e.isLt
  have hx : ∀ d : Fin 1024, ((cfg0.win 0).blk t).view.emb (ix2 p d)
      = ix2 (((cfg0.win 9).blk t).view.emb (ix2 p e) 0 : Fin 8192) d := fun d => by
    funext a; apply Fin.ext
    match a with
    | ⟨0, _⟩ => show win0_0.index t (0 : Fin 2) * 1024 + 1 * p.val = win0_9.index t (0 : Fin 2) * 1024 + 1 * p.val; omega
    | ⟨1, _⟩ => show win0_0.index t (1 : Fin 2) * 1024 + 1 * d.val = d.val; omega
  have hw : ∀ d : Fin 1024, ((cfg0.win 5).blk t).view.emb (ix2 e d)
      = ix2 (((cfg0.win 9).blk t).view.emb (ix2 p e) 1 : Fin 1024) d := fun d => by
    funext a; apply Fin.ext
    match a with
    | ⟨0, _⟩ => show win0_5.index t (0 : Fin 2) * 1024 + 1 * e.val = win0_9.index t (1 : Fin 2) * 1024 + 1 * e.val; omega
    | ⟨1, _⟩ => show win0_5.index t (1 : Fin 2) * 1024 + 1 * d.val = d.val; omega
  have hb : ((cfg0.win 6).blk t).view.emb (ix2 0 e)
      = ix2 (0 : Fin 1) (((cfg0.win 9).blk t).view.emb (ix2 p e) 1 : Fin 1024) := by
    funext a; apply Fin.ext
    match a with
    | ⟨0, _⟩ => show win0_6.index t (0 : Fin 2) * 1 + 1 * 0 = 0; omega
    | ⟨1, _⟩ => show win0_6.index t (1 : Fin 2) * 1024 + 1 * e.val = win0_9.index t (1 : Fin 2) * 1024 + 1 * e.val; omega
  rw [funext hx, funext hw, hb]
  rfl

/-- An index of the array is in point `t`'s block iff each coordinate is in the block's range on its axis. -/
theorem mem_blk_9 (t : Fin cfg0.N) (i : S8192x1024.Idx) :
    i ∈ ((cfg0.win 9).blk t).view.set ↔ ∀ a : Fin 2, win0_9.index t a * S1024x1024.size a ≤ (i a).val
      ∧ (i a).val < win0_9.index t a * S1024x1024.size a + S1024x1024.size a := by
  show i ∈ ((View.whole main_v9_2).slice (win0_9.rect t)).set ↔ _
  rw [View.set_slice_whole, Rect.mem_set_unit]
  exact Iff.rfl

/-- Every index of the array is in the block of the point its row falls in: row `r` is in block `r / 1024`. -/
theorem cover_9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : grid0.N = 8 := N_0
  let t : Fin cfg0.N := ⟨(i 0).val / 1024, by show (i 0).val / 1024 < grid0.N; omega⟩
  obtain ⟨e0, e1, e2, e3, e4, e5, e6, e7⟩ := idx_facts_9 t
  have e6' : win0_9.index t (0 : Fin 2) = (i 0).val / 1024 := e6
  refine ⟨t, flush0_9 t, ?_⟩
  rw [mem_blk_9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 1024 ≤ (i 1).val ∧ (i 1).val < win0_9.index t (1 : Fin 2) * 1024 + 1024; omega

/-- The array window 9 leaves: the projection, index by index, of the arrays the region finds. -/
theorem final0_9 (c : Dev nD) :
    (dat0 V c).arrAt 9 cfg0.N = proj (V c main_v0) (V c main_v3) (V c main_v8) :=
  (dat0 V c).arrAt_eq_of_cover 9 (proj (V c main_v0) (V c main_v3) (V c main_v8)) (fun t _ => flushed_9_eq V c t) (cover_9)

end Cert.KernelIdeal.Hand

end
-- ==== Proof.KHost.lean ====
/-
  The kernel program's two stretches of host operations, read at an index, from any contents `W` of the buffers.
  The first stretch flattens the input `[4, 2048, 1024]` to `[8192, 1024]` in row-major order, so row `2048·b + t` of the
  flat array is row `(b, t)` of the input; it copies the four weights with a change of float format that is the
  identity on the extended reals; and it views each bias `[1024]` as one row `[1, 1024]`. The second stretch views each
  of the three flat projections `[8192, 1024]` as `[4, 2048, 1024]` again. A stretch leaves every buffer it does not
  write as it was.
-/
import proofs.«171910_j33732673143663_2_alg».proof.Proof.Gen.KernelIdeal.Launch
import proofs.«171910_j33732673143663_2_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

/-! ## The three changes of shape, at an index -/

/-- The flattened input at row `2048·b + t` is the input at `(b, t)`. -/
theorem flat_apply (X : S4x2048x1024.Idx → EReal) (h : S4x2048x1024.ShapeCasts S8192x1024)
    (b : Fin 4) (t : Fin 2048) (d : Fin 1024) (r : Fin 8192) (hr : r.val = 2048 * b.val + t.val) :
    shapeCast S8192x1024 X h (ix2 r d) = X (ix3 b t d) := by
  refine shapeCast_apply X h (ix2 r d) (ix3 b t d) ?_
  rw [Shape.rowMajor_val_two, Shape.rowMajor_val_three]
  show (b.val * 2048 + t.val) * 1024 + d.val = r.val * 1024 + d.val
  rw [hr]; ring

/-- A flat array viewed with three axes: at `(b, t, e)` it is the flat array at row `2048·b + t`. -/
theorem unflat_apply (Y : S8192x1024.Idx → EReal) (h : S8192x1024.ShapeCasts S4x2048x1024)
    (b : Fin 4) (t : Fin 2048) (e : Fin 1024) (r : Fin 8192) (hr : r.val = 2048 * b.val + t.val) :
    shapeCast S4x2048x1024 Y h (ix3 b t e) = Y (ix2 r e) := by
  refine shapeCast_apply Y h (ix3 b t e) (ix2 r e) ?_
  rw [Shape.rowMajor_val_two, Shape.rowMajor_val_three]
  show r.val * 1024 + e.val = (b.val * 2048 + t.val) * 1024 + e.val
  rw [hr]; ring

/-- A vector viewed as one row: at `(0, e)` it is the vector at `e`. -/
theorem row_apply (β : S1024.Idx → EReal) (h : S1024.ShapeCasts S1x1024) (e : Fin 1024) :
    shapeCast S1x1024 β h (ix2 (0 : Fin 1) e) = β (ix1 e) := by
  refine shapeCast_apply β h (ix2 (0 : Fin 1) e) (ix1 e) ?_
  rw [Shape.rowMajor_val_two, Shape.rowMajor_val_one]
  show e.val = 0 * 1024 + e.val
  omega

variable (W : Valuation τ sig (Elt Ideal))

/-! ## The first stretch -/

/-- The flat input is the input, its three axes flattened to two. -/
theorem host0_v0 : (StableHlo.after (hostOps0 (F := Ideal)) W (Proc.devRef .tc main_v0) : S8192x1024.Idx → EReal)
    = shapeCast S8192x1024 (W (Proc.devRef .tc main_arg0)) shapeCasts_S4x2048x1024_S8192x1024 := by
  after_results; rfl

/-- The first weight, copied. -/
theorem host0_v1 : (StableHlo.after (hostOps0 (F := Ideal)) W (Proc.devRef .tc main_v1) : S1024x1024.Idx → EReal)
    = W (Proc.devRef .tc main_arg1) := by
  after_results; rfl

/-- The second weight, copied. -/
theorem host0_v2 : (StableHlo.after (hostOps0 (F := Ideal)) W (Proc.devRef .tc main_v2) : S1024x1024.Idx → EReal)
    = W (Proc.devRef .tc main_arg3) := by
  after_results; rfl

/-- The third weight, copied. -/
theorem host0_v3 : (StableHlo.after (hostOps0 (F := Ideal)) W (Proc.devRef .tc main_v3) : S1024x1024.Idx → EReal)
    = W (Proc.devRef .tc main_arg5) := by
  after_results; rfl

/-- The output weight, copied. -/
theorem host0_v4 : (StableHlo.after (hostOps0 (F := Ideal)) W (Proc.devRef .tc main_v4) : S1024x1024.Idx → EReal)
    = W (Proc.devRef .tc main_arg7) := by
  after_results; rfl

/-- The output bias as one row. -/
theorem host0_v5 : (StableHlo.after (hostOps0 (F := Ideal)) W (Proc.devRef .tc main_v5) : S1x1024.Idx → EReal)
    = shapeCast S1x1024 (W (Proc.devRef .tc main_arg8)) shapeCasts_S1024_S1x1024 := by
  after_results; rfl

/-- The first bias as one row. -/
theorem host0_v6 : (StableHlo.after (hostOps0 (F := Ideal)) W (Proc.devRef .tc main_v6) : S1x1024.Idx → EReal)
    = shapeCast S1x1024 (W (Proc.devRef .tc main_arg2)) shapeCasts_S1024_S1x1024 := by
  after_results; rfl

/-- The second bias as one row. -/
theorem host0_v7 : (StableHlo.after (hostOps0 (F := Ideal)) W (Proc.devRef .tc main_v7) : S1x1024.Idx → EReal)
    = shapeCast S1x1024 (W (Proc.devRef .tc main_arg4)) shapeCasts_S1024_S1x1024 := by
  after_results; rfl

/-- The third bias as one row. -/
theorem host0_v8 : (StableHlo.after (hostOps0 (F := Ideal)) W (Proc.devRef .tc main_v8) : S1x1024.Idx → EReal)
    = shapeCast S1x1024 (W (Proc.devRef .tc main_arg6)) shapeCasts_S1024_S1x1024 := by
  after_results; rfl

/-! ## The second stretch -/

/-- The first projection with three axes again. -/
theorem host1_v10 : (StableHlo.after (hostOps1 (F := Ideal)) W (Proc.devRef .tc main_v10) : S4x2048x1024.Idx → EReal)
    = shapeCast S4x2048x1024 (W (Proc.devRef .tc main_v9_0)) shapeCasts_S8192x1024_S4x2048x1024 := by
  after_results; rfl

/-- The second projection with three axes again. -/
theorem host1_v11 : (StableHlo.after (hostOps1 (F := Ideal)) W (Proc.devRef .tc main_v11) : S4x2048x1024.Idx → EReal)
    = shapeCast S4x2048x1024 (W (Proc.devRef .tc main_v9_1)) shapeCasts_S8192x1024_S4x2048x1024 := by
  after_results; rfl

/-- The third projection with three axes again. -/
theorem host1_v12 : (StableHlo.after (hostOps1 (F := Ideal)) W (Proc.devRef .tc main_v12) : S4x2048x1024.Idx → EReal)
    = shapeCast S4x2048x1024 (W (Proc.devRef .tc main_v9_2)) shapeCasts_S8192x1024_S4x2048x1024 := by
  after_results; rfl

/-- The second stretch writes only the three reshaped projections: every other buffer is as it was. -/
theorem host1_of (r : Ref sig .tc) (h : r ∉ hostOps1_W) :
    StableHlo.after (hostOps1 (F := Ideal)) W (Proc.devRef .tc r) = W (Proc.devRef .tc r) :=
  StableHlo.after_of_writes_sub hostOps1 _ hostOps1_writes h

/-- The first stretch writes only its nine results: every other buffer is as it was. -/
theorem host0_of (r : Ref sig .tc) (h : r ∉ hostOps0_W) :
    StableHlo.after (hostOps0 (F := Ideal)) W (Proc.devRef .tc r) = W (Proc.devRef .tc r) :=
  StableHlo.after_of_writes_sub hostOps0 _ hostOps0_writes h

/-- The output weight's copy passes the second stretch. -/
theorem host1_v4 : StableHlo.after (hostOps1 (F := Ideal)) W (Proc.devRef .tc main_v4) = W (Proc.devRef .tc main_v4) :=
  host1_of W main_v4 (by decide)

/-- The output bias row passes the second stretch. -/
theorem host1_v5 : StableHlo.after (hostOps1 (F := Ideal)) W (Proc.devRef .tc main_v5) = W (Proc.devRef .tc main_v5) :=
  host1_of W main_v5 (by decide)

end Cert.KernelIdeal.Hand

end
-- ==== Proof.KProj.lean ====
/-
  The first kernel region computes the three input projections of the specification. The flat input's row
  `2048·b + t` is the input's row `(b, t)`, a bias viewed as one row reads the bias, and a flat projection viewed with
  three axes at `(b, t, e)` is the flat projection at row `2048·b + t`: so what the region leaves, read through the host
  operations around it, is `(∑ d, x (b, t, d) · W (e, d)) + β e`, the specification's linear layer.
-/
import proofs.«171910_j33732673143663_2_alg».proof.Proof.KValue0
import proofs.«171910_j33732673143663_2_alg».proof.Proof.KHost
import proofs.«171910_j33732673143663_2_alg».proof.Proof.Spec

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

/-- A projection of the flattened input with the bias as a row, viewed with three axes, is the linear layer. -/
theorem lin_of_proj (X : S4x2048x1024.Idx → EReal) (Wt : S1024x1024.Idx → EReal) (β : S1024.Idx → EReal)
    (h1 : S4x2048x1024.ShapeCasts S8192x1024) (h2 : S1024.ShapeCasts S1x1024) (h3 : S8192x1024.ShapeCasts S4x2048x1024)
    (b : Fin 4) (t : Fin 2048) (e : Fin 1024) :
    shapeCast S4x2048x1024 (proj (shapeCast S8192x1024 X h1) Wt (shapeCast S1x1024 β h2)) h3 (ix3 b t e)
      = Cert.Spec.linOf (Cert.Spec.coords X) Wt β b t e := by
  have hlt : 2048 * b.val + t.val < 8192 := by have := b.isLt; have := t.isLt; omega
  rw [unflat_apply _ h3 b t e ⟨2048 * b.val + t.val, hlt⟩ rfl, proj_ix2, row_apply]
  simp only [flat_apply X h1 b t _ ⟨2048 * b.val + t.val, hlt⟩ rfl]
  rfl

/-- The queries: what the projection kernel leaves in its output 0, viewed with three axes by the second stretch, is
    the linear layer of the launch input by the launch weight and bias. -/
theorem q_of_region0 (W0 W2 : Valuation τ sig (Elt Ideal))
    (V : (c : Dev nD) → (b : Ref sig .tc) → Buf (Elt Ideal) ((c : Thread nD τ).loc b)) (c : Dev nD)
    (hV : ∀ r : Ref sig .tc, V c r = StableHlo.after (hostOps0 (F := Ideal)) W0 (Proc.devRef .tc r))
    (hA : W2 (Proc.devRef .tc main_v9_0) = (dat0 V c).arrAt 7 cfg0.N) (b : Fin 4) (t : Fin 2048) (e : Fin 1024) :
    (StableHlo.after (hostOps1 (F := Ideal)) W2 (Proc.devRef .tc main_v10) : S4x2048x1024.Idx → EReal) (ix3 b t e)
      = Cert.Spec.linOf (Cert.Spec.coords (W0 (Proc.devRef .tc main_arg0))) (W0 (Proc.devRef .tc main_arg1))
          (W0 (Proc.devRef .tc main_arg2)) b t e := by
  rw [host1_v10, hA, final0_7, hV main_v0, hV main_v1, hV main_v6, host0_v0, host0_v1, host0_v6]
  exact lin_of_proj _ _ _ _ _ _ b t e

/-- The keys: what the projection kernel leaves in its output 1, viewed with three axes by the second stretch, is
    the linear layer of the launch input by the launch weight and bias. -/
theorem k_of_region0 (W0 W2 : Valuation τ sig (Elt Ideal))
    (V : (c : Dev nD) → (b : Ref sig .tc) → Buf (Elt Ideal) ((c : Thread nD τ).loc b)) (c : Dev nD)
    (hV : ∀ r : Ref sig .tc, V c r = StableHlo.after (hostOps0 (F := Ideal)) W0 (Proc.devRef .tc r))
    (hA : W2 (Proc.devRef .tc main_v9_1) = (dat0 V c).arrAt 8 cfg0.N) (b : Fin 4) (t : Fin 2048) (e : Fin 1024) :
    (StableHlo.after (hostOps1 (F := Ideal)) W2 (Proc.devRef .tc main_v11) : S4x2048x1024.Idx → EReal) (ix3 b t e)
      = Cert.Spec.linOf (Cert.Spec.coords (W0 (Proc.devRef .tc main_arg0))) (W0 (Proc.devRef .tc main_arg3))
          (W0 (Proc.devRef .tc main_arg4)) b t e := by
  rw [host1_v11, hA, final0_8, hV main_v0, hV main_v2, hV main_v7, host0_v0, host0_v2, host0_v7]
  exact lin_of_proj _ _ _ _ _ _ b t e

/-- The values: what the projection kernel leaves in its output 2, viewed with three axes by the second stretch, is
    the linear layer of the launch input by the launch weight and bias. -/
theorem v_of_region0 (W0 W2 : Valuation τ sig (Elt Ideal))
    (V : (c : Dev nD) → (b : Ref sig .tc) → Buf (Elt Ideal) ((c : Thread nD τ).loc b)) (c : Dev nD)
    (hV : ∀ r : Ref sig .tc, V c r = StableHlo.after (hostOps0 (F := Ideal)) W0 (Proc.devRef .tc r))
    (hA : W2 (Proc.devRef .tc main_v9_2) = (dat0 V c).arrAt 9 cfg0.N) (b : Fin 4) (t : Fin 2048) (e : Fin 1024) :
    (StableHlo.after (hostOps1 (F := Ideal)) W2 (Proc.devRef .tc main_v12) : S4x2048x1024.Idx → EReal) (ix3 b t e)
      = Cert.Spec.linOf (Cert.Spec.coords (W0 (Proc.devRef .tc main_arg0))) (W0 (Proc.devRef .tc main_arg5))
          (W0 (Proc.devRef .tc main_arg6)) b t e := by
  rw [host1_v12, hA, final0_9, hV main_v0, hV main_v3, hV main_v8, host0_v0, host0_v3, host0_v8]
  exact lin_of_proj _ _ _ _ _ _ b t e

end Cert.KernelIdeal.Hand

end
-- ==== Proof.KBridgeIn.lean ====
/-
  What the attention region finds, in terms of the launch arrays. Its queries, keys and values are what the
  projection region left, viewed with three axes: the three linear layers of the launch input. Its output weight is
  the launch output weight (copied by the first host stretch, no array of the projection region, not written by the
  second stretch), and its output bias row is the launch output bias viewed as one row.
-/
import proofs.«171910_j33732673143663_2_alg».proof.Proof.KRun
import proofs.«171910_j33732673143663_2_alg».proof.Proof.KProj

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The queries the attention region finds are the first linear layer of the launch input. -/
theorem q_in (c : Dev nD) (b : Fin 4) (t : Fin 2048) (e : Fin 1024) :
    (V3 (F := Ideal) m ρ c main_v10 : S4x2048x1024.Idx → EReal) (ix3 b t e)
      = Cert.Spec.linOf (Cert.Spec.coords (m ((c.tc : Thread nD τ).loc main_arg0))) (m ((c.tc : Thread nD τ).loc main_arg1)) (m ((c.tc : Thread nD τ).loc main_arg2)) b t e :=
  q_of_region0 (W0 m ρ c) (W2 m ρ c) (V1 m ρ) c (fun _ => rfl) (W2_arr m ρ c 7) b t e

/-- The keys are the second. -/
theorem k_in (c : Dev nD) (b : Fin 4) (t : Fin 2048) (e : Fin 1024) :
    (V3 (F := Ideal) m ρ c main_v11 : S4x2048x1024.Idx → EReal) (ix3 b t e)
      = Cert.Spec.linOf (Cert.Spec.coords (m ((c.tc : Thread nD τ).loc main_arg0))) (m ((c.tc : Thread nD τ).loc main_arg3)) (m ((c.tc : Thread nD τ).loc main_arg4)) b t e :=
  k_of_region0 (W0 m ρ c) (W2 m ρ c) (V1 m ρ) c (fun _ => rfl) (W2_arr m ρ c 8) b t e

/-- The values are the third. -/
theorem v_in (c : Dev nD) (b : Fin 4) (t : Fin 2048) (e : Fin 1024) :
    (V3 (F := Ideal) m ρ c main_v12 : S4x2048x1024.Idx → EReal) (ix3 b t e)
      = Cert.Spec.linOf (Cert.Spec.coords (m ((c.tc : Thread nD τ).loc main_arg0))) (m ((c.tc : Thread nD τ).loc main_arg5)) (m ((c.tc : Thread nD τ).loc main_arg6)) b t e :=
  v_of_region0 (W0 m ρ c) (W2 m ρ c) (V1 m ρ) c (fun _ => rfl) (W2_arr m ρ c 9) b t e

/-- The output weight the attention region finds is the launch output weight. -/
theorem wo_in (c : Dev nD) : (V3 (F := Ideal) m ρ c main_v4 : S1024x1024.Idx → EReal) = (m ((c.tc : Thread nD τ).loc main_arg7)) := by
  show StableHlo.after (hostOps1 (F := Ideal)) (W2 m ρ c) (Proc.devRef .tc main_v4) = _
  rw [host1_v4, W2_of_ne m ρ c main_v4 (by decide)]
  exact host0_v4 (W0 m ρ c)

/-- The output bias row it finds is the launch output bias. -/
theorem bo_in (c : Dev nD) (e : Fin 1024) :
    (V3 (F := Ideal) m ρ c main_v5 : S1x1024.Idx → EReal) (ix2 (0 : Fin 1) e) = (m ((c.tc : Thread nD τ).loc main_arg8)) (ix1 e) := by
  show (StableHlo.after (hostOps1 (F := Ideal)) (W2 m ρ c) (Proc.devRef .tc main_v5) : S1x1024.Idx → EReal) (ix2 (0 : Fin 1) e) = _
  rw [host1_v5, W2_of_ne m ρ c main_v5 (by decide)]
  show (StableHlo.after (hostOps0 (F := Ideal)) (W0 m ρ c) (Proc.devRef .tc main_v5) : S1x1024.Idx → EReal) (ix2 (0 : Fin 1) e) = _
  rw [host0_v5, row_apply]

end Cert.KernelIdeal.Hand

end
-- ==== Proof.KRegion1Pieces.lean ====
/-
  What each case's run left in the carried buffers and the result's buffer, as the body's arithmetic of the point's
  input blocks and of what the carried buffers held: one fold of the online softmax
  (maximum `m' = max m (row maxima of the tile's scores)`, normaliser `l' = exp (m − m') · l + ∑ exp (s − m')`,
  weighted sum `acc' = exp (m − m') · acc + exp (s − m') · V`), and at a last key tile the projected quotient `acc' / l'`.
-/
import proofs.«171910_j33732673143663_2_alg».proof.Proof.KRegion1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-- One fold's new running maximum. -/
abbrev foldM (x0 : Vec F S4x256x1024 .bf16) (x1 : Vec F S4x128x1024 .bf16) (m : Vec F S4x256x1 .f32) : Vec F S4x256x1 .f32 :=
  k1_pay2 (k1_pay9 x0 x1 m)
/-- One fold's new running normaliser. -/
abbrev foldL (x0 : Vec F S4x256x1024 .bf16) (x1 : Vec F S4x128x1024 .bf16) (m l : Vec F S4x256x1 .f32) : Vec F S4x256x1 .f32 :=
  k1_pay12 x0 x1 m m l
/-- One fold's new running weighted sum. -/
abbrev foldA (x0 : Vec F S4x256x1024 .bf16) (x1 x2 : Vec F S4x128x1024 .bf16) (m : Vec F S4x256x1 .f32) (acc : Vec F S4x256x1024 .f32) : Vec F S4x256x1024 .f32 :=
  k1_pay1 (k1_pay7 x2) (k1_pay10 x0 x1 m m) (k1_pay11 x0 x1 m) acc

theorem sout1_B_0_eq (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : sout1_B_0 c i arg2 harg2 arg3 harg3 arg4 harg4 arg5 harg5 arg6 harg6 arg7 harg7 arg8 harg8 arg9 harg9 arg10 harg10 hc0 hc1 x0 x1 x2 x3 x4 xs0 xs1 xs2 = foldM x0 x1 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_words
  simp only [View.canon_unit_zero (S := S4x256x1) hz3, View.canon_unit_zero (S := S4x256x1024) hz3,
    View.canon_cons_unit_zero (S := S4x256x1) hz3, View.canon_cons_unit_zero (S := S4x256x1024) hz3,
    View.readCov_unit_zero _ (S := S4x256x1) hz3, View.readCov_unit_zero _ (S := S4x256x1024) hz3,
    View.readAt_eq_ld, harg2.read_unread, harg3.read_unread, harg4.read_unread, harg5.read_unread, harg6.read_unread, harg8.read_unread, harg9.read_unread, harg10.read_unread,
    View.ld_unit_zero (S := S4x256x1024) hz3, View.ld_unit_zero (S := S4x128x1024) hz3, View.ld_unit_zero (S := S4x256x1) hz3,
    View.ld_unit_zero (S := S1024x1024) hz2, View.ld_unit_zero (S := S1x1024) hz2]
theorem sout1_B_1_eq (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : sout1_B_1 c i arg2 harg2 arg3 harg3 arg4 harg4 arg5 harg5 arg6 harg6 arg7 harg7 arg8 harg8 arg9 harg9 arg10 harg10 hc0 hc1 x0 x1 x2 x3 x4 xs0 xs1 xs2 = foldL x0 x1 xs0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_words
  simp only [View.canon_unit_zero (S := S4x256x1) hz3, View.canon_unit_zero (S := S4x256x1024) hz3,
    View.canon_cons_unit_zero (S := S4x256x1) hz3, View.canon_cons_unit_zero (S := S4x256x1024) hz3,
    View.readCov_unit_zero _ (S := S4x256x1) hz3, View.readCov_unit_zero _ (S := S4x256x1024) hz3,
    View.readAt_eq_ld, harg2.read_unread, harg3.read_unread, harg4.read_unread, harg5.read_unread, harg6.read_unread, harg8.read_unread, harg9.read_unread, harg10.read_unread,
    View.ld_unit_zero (S := S4x256x1024) hz3, View.ld_unit_zero (S := S4x128x1024) hz3, View.ld_unit_zero (S := S4x256x1) hz3,
    View.ld_unit_zero (S := S1024x1024) hz2, View.ld_unit_zero (S := S1x1024) hz2]
theorem sout1_B_2_eq (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : sout1_B_2 c i arg2 harg2 arg3 harg3 arg4 harg4 arg5 harg5 arg6 harg6 arg7 harg7 arg8 harg8 arg9 harg9 arg10 harg10 hc0 hc1 x0 x1 x2 x3 x4 xs0 xs1 xs2 = foldA x0 x1 x2 xs0 xs2 := by
  unfold sout1_B_2
  rw [View.read_writes_eq_canon _ _ _ (scover1_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_words
  simp only [View.canon_unit_zero (S := S4x256x1) hz3, View.canon_unit_zero (S := S4x256x1024) hz3,
    View.canon_cons_unit_zero (S := S4x256x1) hz3, View.canon_cons_unit_zero (S := S4x256x1024) hz3,
    View.readCov_unit_zero _ (S := S4x256x1) hz3, View.readCov_unit_zero _ (S := S4x256x1024) hz3,
    View.readAt_eq_ld, harg2.read_unread, harg3.read_unread, harg4.read_unread, harg5.read_unread, harg6.read_unread, harg8.read_unread, harg9.read_unread, harg10.read_unread,
    View.ld_unit_zero (S := S4x256x1024) hz3, View.ld_unit_zero (S := S4x128x1024) hz3, View.ld_unit_zero (S := S4x256x1) hz3,
    View.ld_unit_zero (S := S1024x1024) hz2, View.ld_unit_zero (S := S1x1024) hz2]

theorem sout1_C_0_eq (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : sout1_C_0 c i arg2 harg2 arg3 harg3 arg4 harg4 arg5 harg5 arg6 harg6 arg7 harg7 arg8 harg8 arg9 harg9 arg10 harg10 hc0 hc1 x0 x1 x2 x3 x4 xs0 xs1 xs2 = foldM x0 x1 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_words
  simp only [View.canon_unit_zero (S := S4x256x1) hz3, View.canon_unit_zero (S := S4x256x1024) hz3,
    View.canon_cons_unit_zero (S := S4x256x1) hz3, View.canon_cons_unit_zero (S := S4x256x1024) hz3,
    View.readCov_unit_zero _ (S := S4x256x1) hz3, View.readCov_unit_zero _ (S := S4x256x1024) hz3,
    View.readAt_eq_ld, harg2.read_unread, harg3.read_unread, harg4.read_unread, harg5.read_unread, harg6.read_unread, harg8.read_unread, harg9.read_unread, harg10.read_unread,
    View.ld_unit_zero (S := S4x256x1024) hz3, View.ld_unit_zero (S := S4x128x1024) hz3, View.ld_unit_zero (S := S4x256x1) hz3,
    View.ld_unit_zero (S := S1024x1024) hz2, View.ld_unit_zero (S := S1x1024) hz2]
theorem sout1_C_1_eq (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : sout1_C_1 c i arg2 harg2 arg3 harg3 arg4 harg4 arg5 harg5 arg6 harg6 arg7 harg7 arg8 harg8 arg9 harg9 arg10 harg10 hc0 hc1 x0 x1 x2 x3 x4 xs0 xs1 xs2 = foldL x0 x1 xs0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_words
  simp only [View.canon_unit_zero (S := S4x256x1) hz3, View.canon_unit_zero (S := S4x256x1024) hz3,
    View.canon_cons_unit_zero (S := S4x256x1) hz3, View.canon_cons_unit_zero (S := S4x256x1024) hz3,
    View.readCov_unit_zero _ (S := S4x256x1) hz3, View.readCov_unit_zero _ (S := S4x256x1024) hz3,
    View.readAt_eq_ld, harg2.read_unread, harg3.read_unread, harg4.read_unread, harg5.read_unread, harg6.read_unread, harg8.read_unread, harg9.read_unread, harg10.read_unread,
    View.ld_unit_zero (S := S4x256x1024) hz3, View.ld_unit_zero (S := S4x128x1024) hz3, View.ld_unit_zero (S := S4x256x1) hz3,
    View.ld_unit_zero (S := S1024x1024) hz2, View.ld_unit_zero (S := S1x1024) hz2]
theorem sout1_C_2_eq (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : sout1_C_2 c i arg2 harg2 arg3 harg3 arg4 harg4 arg5 harg5 arg6 harg6 arg7 harg7 arg8 harg8 arg9 harg9 arg10 harg10 hc0 hc1 x0 x1 x2 x3 x4 xs0 xs1 xs2 = foldA x0 x1 x2 xs0 xs2 := by
  unfold sout1_C_2
  rw [View.read_writes_eq_canon _ _ _ (scover1_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_words
  simp only [View.canon_unit_zero (S := S4x256x1) hz3, View.canon_unit_zero (S := S4x256x1024) hz3,
    View.canon_cons_unit_zero (S := S4x256x1) hz3, View.canon_cons_unit_zero (S := S4x256x1024) hz3,
    View.readCov_unit_zero _ (S := S4x256x1) hz3, View.readCov_unit_zero _ (S := S4x256x1024) hz3,
    View.readAt_eq_ld, harg2.read_unread, harg3.read_unread, harg4.read_unread, harg5.read_unread, harg6.read_unread, harg8.read_unread, harg9.read_unread, harg10.read_unread,
    View.ld_unit_zero (S := S4x256x1024) hz3, View.ld_unit_zero (S := S4x128x1024) hz3, View.ld_unit_zero (S := S4x256x1) hz3,
    View.ld_unit_zero (S := S1024x1024) hz2, View.ld_unit_zero (S := S1x1024) hz2]

theorem sout1_A_0_eq (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) : sout1_A_0 c i arg2 harg2 arg3 harg3 arg4 harg4 arg5 harg5 arg6 harg6 arg7 harg7 arg8 harg8 arg9 harg9 arg10 harg10 hc0 hc1 x0 x1 x2 x3 x4 = foldM x0 x1 k1_pay4 := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  simp only [View.canon_unit_zero (S := S4x256x1) hz3, View.canon_unit_zero (S := S4x256x1024) hz3,
    View.canon_cons_unit_zero (S := S4x256x1) hz3, View.canon_cons_unit_zero (S := S4x256x1024) hz3,
    View.readCov_unit_zero _ (S := S4x256x1) hz3, View.readCov_unit_zero _ (S := S4x256x1024) hz3,
    View.readAt_eq_ld, harg2.read_unread, harg3.read_unread, harg4.read_unread, harg5.read_unread, harg6.read_unread, harg8.read_unread, harg9.read_unread, harg10.read_unread,
    View.ld_unit_zero (S := S4x256x1024) hz3, View.ld_unit_zero (S := S4x128x1024) hz3, View.ld_unit_zero (S := S4x256x1) hz3,
    View.ld_unit_zero (S := S1024x1024) hz2, View.ld_unit_zero (S := S1x1024) hz2]
theorem sout1_A_1_eq (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) : sout1_A_1 c i arg2 harg2 arg3 harg3 arg4 harg4 arg5 harg5 arg6 harg6 arg7 harg7 arg8 harg8 arg9 harg9 arg10 harg10 hc0 hc1 x0 x1 x2 x3 x4 = foldL x0 x1 k1_pay4 k1_pay5 := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  simp only [View.canon_unit_zero (S := S4x256x1) hz3, View.canon_unit_zero (S := S4x256x1024) hz3,
    View.canon_cons_unit_zero (S := S4x256x1) hz3, View.canon_cons_unit_zero (S := S4x256x1024) hz3,
    View.readCov_unit_zero _ (S := S4x256x1) hz3, View.readCov_unit_zero _ (S := S4x256x1024) hz3,
    View.readAt_eq_ld, harg2.read_unread, harg3.read_unread, harg4.read_unread, harg5.read_unread, harg6.read_unread, harg8.read_unread, harg9.read_unread, harg10.read_unread,
    View.ld_unit_zero (S := S4x256x1024) hz3, View.ld_unit_zero (S := S4x128x1024) hz3, View.ld_unit_zero (S := S4x256x1) hz3,
    View.ld_unit_zero (S := S1024x1024) hz2, View.ld_unit_zero (S := S1x1024) hz2]
theorem sout1_A_2_eq (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : cond1_0 i) (hc1 : ¬cond1_1 i) (x0 : Vec F S4x256x1024 .bf16) (x1 : Vec F S4x128x1024 .bf16) (x2 : Vec F S4x128x1024 .bf16) (x3 : Vec F S1024x1024 .bf16) (x4 : Vec F S1x1024 .f32) : sout1_A_2 c i arg2 harg2 arg3 harg3 arg4 harg4 arg5 harg5 arg6 harg6 arg7 harg7 arg8 harg8 arg9 harg9 arg10 harg10 hc0 hc1 x0 x1 x2 x3 x4 = foldA x0 x1 x2 k1_pay4 k1_pay6 := by
  unfold sout1_A_2
  rw [View.read_writes_eq_canon _ _ _ (scover1_A_2 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  simp only [View.canon_unit_zero (S := S4x256x1) hz3, View.canon_unit_zero (S := S4x256x1024) hz3,
    View.canon_cons_unit_zero (S := S4x256x1) hz3, View.canon_cons_unit_zero (S := S4x256x1024) hz3,
    View.readCov_unit_zero _ (S := S4x256x1) hz3, View.readCov_unit_zero _ (S := S4x256x1024) hz3,
    View.readAt_eq_ld, harg2.read_unread, harg3.read_unread, harg4.read_unread, harg5.read_unread, harg6.read_unread, harg8.read_unread, harg9.read_unread, harg10.read_unread,
    View.ld_unit_zero (S := S4x256x1024) hz3, View.ld_unit_zero (S := S4x128x1024) hz3, View.ld_unit_zero (S := S4x256x1) hz3,
    View.ld_unit_zero (S := S1024x1024) hz2, View.ld_unit_zero (S := S1x1024) hz2]

/-- At a last key tile the result's buffer: the new weighted sum over the new normaliser, projected. -/
theorem out1_C_5_eq (c : Dev nD) (i : grid1.Coords) (arg2 : Memref sig .tc .vmem S4x256x1024 .bf16) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S4x256x1024 .f32) (harg7 : arg7.IsWhole) (arg8 : Memref sig .tc .vmem S4x256x1 .f32) (harg8 : arg8.IsWhole) (arg9 : Memref sig .tc .vmem S4x256x1 .f32) (harg9 : arg9.IsWhole) (arg10 : Memref sig .tc .vmem S4x256x1024 .f32) (harg10 : arg10.IsWhole) (hc0 : ¬cond1_0 i) (hc1 : cond1_1 i) (x0 : Vec F S4x256x1024 .bf16) (x1 : Vec F S4x128x1024 .bf16) (x2 : Vec F S4x128x1024 .bf16) (x3 : Vec F S1024x1024 .bf16) (x4 : Vec F S1x1024 .f32) (xs0 : Vec F S4x256x1 .f32) (xs1 : Vec F S4x256x1 .f32) (xs2 : Vec F S4x256x1024 .f32) : out1_C_5 c i arg2 harg2 arg3 harg3 arg4 harg4 arg5 harg5 arg6 harg6 arg7 harg7 arg8 harg8 arg9 harg9 arg10 harg10 hc0 hc1 x0 x1 x2 x3 x4 xs0 xs1 xs2 = k1_pay3 (foldA x0 x1 x2 xs0 xs2) (foldL x0 x1 xs0 xs1) x3 x4 := by
  unfold out1_C_5
  rw [View.read_writes_eq_canon _ _ _ (cover1_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_words
  simp only [View.canon_unit_zero (S := S4x256x1) hz3, View.canon_unit_zero (S := S4x256x1024) hz3,
    View.canon_cons_unit_zero (S := S4x256x1) hz3, View.canon_cons_unit_zero (S := S4x256x1024) hz3,
    View.readCov_unit_zero _ (S := S4x256x1) hz3, View.readCov_unit_zero _ (S := S4x256x1024) hz3,
    View.readAt_eq_ld, harg2.read_unread, harg3.read_unread, harg4.read_unread, harg5.read_unread, harg6.read_unread, harg8.read_unread, harg9.read_unread, harg10.read_unread,
    View.ld_unit_zero (S := S4x256x1024) hz3, View.ld_unit_zero (S := S4x128x1024) hz3, View.ld_unit_zero (S := S4x256x1) hz3,
    View.ld_unit_zero (S := S1024x1024) hz2, View.ld_unit_zero (S := S1x1024) hz2]

end Cert.KernelIdeal.Hand

end
-- ==== Proof.KRegion1State.lean ====
/-
  The carried buffers after each point, as ONE recurrence: after point `t` they hold one fold of the point's key tile over
  what they held before it — the reset values (−∞, 0, 0) at a first key tile, what the point before left otherwise —, and
  at a last key tile the result's buffer holds the projected quotient of the new weighted sum by the new normaliser.
-/
import proofs.«171910_j33732673143663_2_alg».proof.Proof.KRegion1Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three carried buffers. -/
abbrev Sc1 (F : FTy → Type) [FloatOps F] : Type := Vec F S4x256x1 .f32 × Vec F S4x256x1 .f32 × Vec F S4x256x1024 .f32

/-- What the carried buffers hold when the fold of point `t` starts. -/
def prev1 (c : Dev nD) (t : Fin cfg1.N) : Sc1 F :=
  if t.val % 16 = 0 then (k1_pay4, k1_pay5, k1_pay6)
  else (outsAt1 V c (t.val - 1) (Nat.lt_of_le_of_lt (Nat.sub_le _ _) t.isLt)).2

/-- One fold of the key tile of point `t`. -/
def fold1 (c : Dev nD) (t : Fin cfg1.N) (p : Sc1 F) : Sc1 F :=
  (foldM (iblk1 V c 0 t) (iblk1 V c 1 t) p.1,
   foldL (iblk1 V c 0 t) (iblk1 V c 1 t) p.1 p.2.1,
   foldA (iblk1 V c 0 t) (iblk1 V c 1 t) (iblk1 V c 2 t) p.1 p.2.2)

/-- After point `t` the carried buffers hold the fold of its key tile over what they held before it. -/
theorem state1_eq (c : Dev nD) (t : Fin cfg1.N) : (outsAt1 V c t.val t.isLt).2 = fold1 V c t (prev1 V c t) := by
  unfold prev1 fold1
  by_cases h0 : t.val % 16 = 0
  · have h1 : ¬t.val % 16 = 15 := by omega
    rw [outsAt1_A V c t h0 h1, if_pos h0]
    unfold caseA1
    simp only [sout1_A_0_eq, sout1_A_1_eq, sout1_A_2_eq]
  · rw [if_neg h0]
    by_cases h1 : t.val % 16 = 15
    · rw [outsAt1_C V c t h0 h1]
      unfold caseC1
      simp only [sout1_C_0_eq, sout1_C_1_eq, sout1_C_2_eq]
    · rw [outsAt1_B V c t h0 h1]
      unfold caseB1
      simp only [sout1_B_0_eq, sout1_B_1_eq, sout1_B_2_eq]

/-- At a last key tile the result's buffer holds the projected quotient. -/
theorem out1_eq (c : Dev nD) (t : Fin cfg1.N) (h1 : t.val % 16 = 15) :
    (outsAt1 V c t.val t.isLt).1
      = k1_pay3 (fold1 V c t (prev1 V c t)).2.2 (fold1 V c t (prev1 V c t)).2.1 (iblk1 V c 3 t) (iblk1 V c 4 t) := by
  have h0 : ¬t.val % 16 = 0 := by omega
  unfold prev1 fold1
  rw [if_neg h0, outsAt1_C V c t h0 h1]
  unfold caseC1
  simp only [out1_C_5_eq]

end Cert.KernelIdeal.Hand

end
-- ==== Proof.KRegion1Seq.lean ====
/-
  One query tile of the attention region: the sixteen points `16 · qi + k` (`k` the key tile) fold the key tiles one after
  the other into the carried buffers, starting from the reset values; `st1 qi k` is the carried state after `k` key tiles.
-/
import proofs.«171910_j33732673143663_2_alg».proof.Proof.KRegion1State
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The point of query tile `qi`, key tile `k`. -/
def pt1 (qi : Fin 8) (k : ℕ) (hk : k < 16) : Fin cfg1.N :=
  ⟨16 * qi.val + k, by have : cfg1.N = 128 := N_1; have := qi.isLt; omega⟩

/-- The carried state of query tile `qi` after `k` key tiles. -/
def st1 (c : Dev nD) (qi : Fin 8) : ℕ → Sc1 Ideal
  | 0 => (k1_pay4 (F := Ideal), k1_pay5 (F := Ideal), k1_pay6 (F := Ideal))
  | k + 1 => if hk : k < 16 then fold1 V c (pt1 qi k hk) (st1 c qi k) else st1 c qi k

theorem st1_succ (c : Dev nD) (qi : Fin 8) (k : ℕ) (hk : k < 16) :
    st1 V c qi (k + 1) = fold1 V c (pt1 qi k hk) (st1 V c qi k) := dif_pos hk

/-- The accumulation does not depend on how its position is spelt. -/
theorem outsAt1_congr (c : Dev nD) {n n' : ℕ} (h : n = n') (hn : n < cfg1.N) (hn' : n' < cfg1.N) :
    outsAt1 V c n hn = outsAt1 V c n' hn' := by subst h; rfl

/-- The accumulation at point `16 · qi + k` is the state after `k + 1` key tiles. -/
theorem st1_eq (c : Dev nD) (qi : Fin 8) : ∀ (k : ℕ) (hk : k < 16),
    (outsAt1 V c (pt1 qi k hk).val (pt1 qi k hk).isLt).2 = st1 V c qi (k + 1)
  | 0, hk => by
    rw [state1_eq V c (pt1 qi 0 hk), st1_succ V c qi 0 hk]
    refine congrArg _ ?_
    unfold prev1
    rw [if_pos (by show (16 * qi.val + 0) % 16 = 0; omega)]
    rfl
  | k + 1, hk => by
    rw [state1_eq V c (pt1 qi (k + 1) hk), st1_succ V c qi (k + 1) hk]
    refine congrArg _ ?_
    unfold prev1
    rw [if_neg (by show ¬(16 * qi.val + (k + 1)) % 16 = 0; omega)]
    rw [← st1_eq c qi k (by omega)]
    exact congrArg Prod.snd (outsAt1_congr V c (by show 16 * qi.val + (k + 1) - 1 = 16 * qi.val + k; omega) _ _)

/-- A key's index from its tile and its place in the tile. -/
def e16 : Fin 16 × Fin 128 ≃ Fin 2048 where
  toFun p := ⟨128 * p.1.val + p.2.val, by have := p.1.isLt; have := p.2.isLt; omega⟩
  invFun j := (⟨j.val / 128, by have := j.isLt; omega⟩, ⟨j.val % 128, by omega⟩)
  left_inv p := by
    have h1 := p.1.isLt; have h2 := p.2.isLt
    exact Prod.ext (Fin.ext (by show (128 * p.1.val + p.2.val) / 128 = p.1.val; omega))
      (Fin.ext (by show (128 * p.1.val + p.2.val) % 128 = p.2.val; omega))
  right_inv j := Fin.ext (by show 128 * (j.val / 128) + j.val % 128 = j.val; omega)

theorem e16_val (k : Fin 16) (i : Fin 128) : (e16 (k, i)).val = 128 * k.val + i.val := rfl

end Cert.KernelIdeal.Hand

end
-- ==== Proof.KRegion1Blocks.lean ====
/-
  Which part of its array each window's block is at a point of the attention region: at point `t` (query tile `t / 16`,
  key tile `t % 16`) the query block is rows `256 · (t / 16) …` of the queries, the key and value blocks are rows
  `128 · (t % 16) …` of the keys and values, the projection weight and bias are whole, and the result's block is rows
  `256 · (t / 16) …` of the result.
-/
import proofs.«171910_j33732673143663_2_alg».proof.Proof.KRegion1Frame
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem idx_facts1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 3) = 0 ∧ win1_2.index t (1 : Fin 3) = t.val % 16 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = 0 ∧ win1_5.index t (1 : Fin 3) = t.val / 16 ∧ win1_5.index t (2 : Fin 3) = 0 :=
  (by decide +kernel : ∀ t : Fin grid1.N, _)

/-- The query block: rows `256 · (t / 16) + r` of the queries. -/
theorem iblk1_0_apply (c : Dev nD) (t : Fin cfg1.N) (b : Fin 4) (r : Fin 256) (d : Fin 1024) (T : Fin 2048)
    (hT : T.val = 256 * (t.val / 16) + r.val) :
    iblk1 V c 0 t (ix3 b r d) = V c main_v10 (ix3 b T d) := by
  show V c main_v10 (((cfg1.win 0).blk t).view.emb (ix3 b r d)) = V c main_v10 (ix3 b T d)
  obtain ⟨e0, e1, e2, -⟩ := idx_facts1 t
  refine congrArg _ (funext fun a => Fin.ext ?_)
  match a with
  | ⟨0, _⟩ => show win1_0.index t (0 : Fin 3) * 4 + 1 * b.val = b.val; omega
  | ⟨1, _⟩ => show win1_0.index t (1 : Fin 3) * 256 + 1 * r.val = T.val; omega
  | ⟨2, _⟩ => show win1_0.index t (2 : Fin 3) * 1024 + 1 * d.val = d.val; omega

/-- The key block: rows `128 · (t % 16) + i` of the keys. -/
theorem iblk1_1_apply (c : Dev nD) (t : Fin cfg1.N) (b : Fin 4) (i : Fin 128) (d : Fin 1024) (s : Fin 2048)
    (hs : s.val = 128 * (t.val % 16) + i.val) :
    iblk1 V c 1 t (ix3 b i d) = V c main_v11 (ix3 b s d) := by
  show V c main_v11 (((cfg1.win 1).blk t).view.emb (ix3 b i d)) = V c main_v11 (ix3 b s d)
  obtain ⟨-, -, -, e0, e1, e2, -⟩ := idx_facts1 t
  refine congrArg _ (funext fun a => Fin.ext ?_)
  match a with
  | ⟨0, _⟩ => show win1_1.index t (0 : Fin 3) * 4 + 1 * b.val = b.val; omega
  | ⟨1, _⟩ => show win1_1.index t (1 : Fin 3) * 128 + 1 * i.val = s.val; omega
  | ⟨2, _⟩ => show win1_1.index t (2 : Fin 3) * 1024 + 1 * d.val = d.val; omega

/-- The value block: rows `128 · (t % 16) + i` of the values. -/
theorem iblk1_2_apply (c : Dev nD) (t : Fin cfg1.N) (b : Fin 4) (i : Fin 128) (d : Fin 1024) (s : Fin 2048)
    (hs : s.val = 128 * (t.val % 16) + i.val) :
    iblk1 V c 2 t (ix3 b i d) = V c main_v12 (ix3 b s d) := by
  show V c main_v12 (((cfg1.win 2).blk t).view.emb (ix3 b i d)) = V c main_v12 (ix3 b s d)
  obtain ⟨-, -, -, -, -, -, e0, e1, e2, -⟩ := idx_facts1 t
  refine congrArg _ (funext fun a => Fin.ext ?_)
  match a with
  | ⟨0, _⟩ => show win1_2.index t (0 : Fin 3) * 4 + 1 * b.val = b.val; omega
  | ⟨1, _⟩ => show win1_2.index t (1 : Fin 3) * 128 + 1 * i.val = s.val; omega
  | ⟨2, _⟩ => show win1_2.index t (2 : Fin 3) * 1024 + 1 * d.val = d.val; omega

/-- The projection weight, whole. -/
theorem iblk1_3_apply (c : Dev nD) (t : Fin cfg1.N) (e d : Fin 1024) :
    iblk1 V c 3 t (ix2 e d) = V c main_v4 (ix2 e d) := by
  show V c main_v4 (((cfg1.win 3).blk t).view.emb (ix2 e d)) = V c main_v4 (ix2 e d)
  obtain ⟨-, -, -, -, -, -, -, -, -, e0, e1, -⟩ := idx_facts1 t
  refine congrArg _ (funext fun a => Fin.ext ?_)
  match a with
  | ⟨0, _⟩ => show win1_3.index t (0 : Fin 2) * 1024 + 1 * e.val = e.val; omega
  | ⟨1, _⟩ => show win1_3.index t (1 : Fin 2) * 1024 + 1 * d.val = d.val; omega

/-- The projection bias, whole. -/
theorem iblk1_4_apply (c : Dev nD) (t : Fin cfg1.N) (z : Fin 1) (e : Fin 1024) :
    iblk1 V c 4 t (ix2 z e) = V c main_v5 (ix2 z e) := by
  show V c main_v5 (((cfg1.win 4).blk t).view.emb (ix2 z e)) = V c main_v5 (ix2 z e)
  obtain ⟨-, -, -, -, -, -, -, -, -, -, -, e0, e1, -⟩ := idx_facts1 t
  refine congrArg _ (funext fun a => Fin.ext ?_)
  match a with
  | ⟨0, _⟩ => show win1_4.index t (0 : Fin 2) * 1 + 1 * z.val = z.val; omega
  | ⟨1, _⟩ => show win1_4.index t (1 : Fin 2) * 1024 + 1 * e.val = e.val; omega

end Cert.KernelIdeal.Hand

end
-- ==== Proof.KPayloads.lean ====
/-
  The attention kernel's computed values, read at one index of the extended reals.

  For a block of `128` keys, batch `b`, query row `r`, key `i` and feature `d`:
  * the score is `(∑ d, q (b, r, d) · k (b, i, d)) · c` with `c` the constant `1/32`;
  * the new running maximum is `max (old maximum) (max over the block's keys of the scores)`;
  * the rescaling factor is `exp (old maximum − new maximum)`, a key's weight `exp (score − new maximum)`;
  * the new running normaliser is `factor · old normaliser + ∑ i, weight i`;
  * the new running weighted sum is `factor · old sum + ∑ i, weight i · v (b, i, d)`.
  Each statement reads one operation chain at an index given by its coordinates: a contraction as the
  sum over its one contracted axis, a reduction over the keys as a fold of `max` from `−∞` or as a
  sum, a `[4,256]` statistic viewed `[4,256,1]` or spread over a row as the statistic of that row.
-/
import proofs.«171910_j33732673143663_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx

/-! ### The constants -/

/-- The word `0xFF800000` is `−∞`. -/
theorem const_ninf : Ideal.ofBits .f32 0xFF800000#32 = ⊥ := by
  simp [Ideal.ofBits, Ideal.ieee]

/-- The word `0x3D000000` is `1/32`. -/
theorem const_scale : Ideal.ofBits .f32 0x3D000000#32 = ((1 / 32 : ℝ) : EReal) := by
  simp [Ideal.ofBits, Ideal.ieee]
  rw [← EReal.coe_mul]
  exact congrArg _ (by norm_num)

/-! ### The scores: the product of the queries and the keys over the feature axis, scaled -/

theorem lhs_qk_0 (j : S4x256x128.Idx) (c : dot_S4x256x1024_S4x128x1024_S4x256x128_2_2_1_1_0_0.contr.Idx) :
    (dot_S4x256x1024_S4x128x1024_S4x256x128_2_2_1_1_0_0.lhsIdx j c 0).val = (j 0).val := by
  unfold DotDims.lhsIdx
  rw [dif_pos (show (0 : Fin S4x256x1024.rank) ∈ dot_S4x256x1024_S4x128x1024_S4x256x128_2_2_1_1_0_0.lhsBatch by decide)]
  rfl
theorem lhs_qk_1 (j : S4x256x128.Idx) (c : dot_S4x256x1024_S4x128x1024_S4x256x128_2_2_1_1_0_0.contr.Idx) :
    (dot_S4x256x1024_S4x128x1024_S4x256x128_2_2_1_1_0_0.lhsIdx j c 1).val = (j 1).val := by
  unfold DotDims.lhsIdx
  rw [dif_neg (show ¬(1 : Fin S4x256x1024.rank) ∈ dot_S4x256x1024_S4x128x1024_S4x256x128_2_2_1_1_0_0.lhsBatch by decide),
    dif_pos (show (1 : Fin S4x256x1024.rank) ∈ dot_S4x256x1024_S4x128x1024_S4x256x128_2_2_1_1_0_0.lhsNonContracting by decide)]
  rfl
theorem lhs_qk_2 (j : S4x256x128.Idx) (c : dot_S4x256x1024_S4x128x1024_S4x256x128_2_2_1_1_0_0.contr.Idx) :
    (dot_S4x256x1024_S4x128x1024_S4x256x128_2_2_1_1_0_0.lhsIdx j c 2).val = (c ⟨0, by decide⟩).val :=
  dot_S4x256x1024_S4x128x1024_S4x256x128_2_2_1_1_0_0.lhsIdx_val_of_single rfl j c
theorem rhs_qk_0 (j : S4x256x128.Idx) (c : dot_S4x256x1024_S4x128x1024_S4x256x128_2_2_1_1_0_0.contr.Idx) :
    (dot_S4x256x1024_S4x128x1024_S4x256x128_2_2_1_1_0_0.rhsIdx j c 0).val = (j 0).val := by
  unfold DotDims.rhsIdx
  rw [dif_pos (show (0 : Fin S4x128x1024.rank) ∈ dot_S4x256x1024_S4x128x1024_S4x256x128_2_2_1_1_0_0.rhsBatch by decide)]
  rfl
theorem rhs_qk_1 (j : S4x256x128.Idx) (c : dot_S4x256x1024_S4x128x1024_S4x256x128_2_2_1_1_0_0.contr.Idx) :
    (dot_S4x256x1024_S4x128x1024_S4x256x128_2_2_1_1_0_0.rhsIdx j c 1).val = (j 2).val := by
  unfold DotDims.rhsIdx
  rw [dif_neg (show ¬(1 : Fin S4x128x1024.rank) ∈ dot_S4x256x1024_S4x128x1024_S4x256x128_2_2_1_1_0_0.rhsBatch by decide),
    dif_pos (show (1 : Fin S4x128x1024.rank) ∈ dot_S4x256x1024_S4x128x1024_S4x256x128_2_2_1_1_0_0.rhsNonContracting by decide)]
  rfl
theorem rhs_qk_2 (j : S4x256x128.Idx) (c : dot_S4x256x1024_S4x128x1024_S4x256x128_2_2_1_1_0_0.contr.Idx) :
    (dot_S4x256x1024_S4x128x1024_S4x256x128_2_2_1_1_0_0.rhsIdx j c 2).val = (c ⟨0, by decide⟩).val :=
  dot_S4x256x1024_S4x128x1024_S4x256x128_2_2_1_1_0_0.rhsIdx_val_of_single rfl j c

/-- The contraction of the queries with the keys read at an index: batch `b`, query row `r`, key `i`. -/
theorem matmul_qk_apply (q : FVec Ideal S4x256x1024 .bf16) (k : FVec Ideal S4x128x1024 .bf16)
    (b : Fin 4) (r : Fin 256) (i : Fin 128) :
    matmul dot_S4x256x1024_S4x128x1024_S4x256x128_2_2_1_1_0_0 none q k
        (constant (F := Ideal) S4x256x128 .f32 0x00000000#32) (ix3 b r i)
      = ∑ d : Fin 1024, q (ix3 b r d) * k (ix3 b i d) := by
  simp only [matmul]
  rw [Ideal.matmul_constant_zero_apply,
    ← Equiv.sum_comp (contrEquiv1 dot_S4x256x1024_S4x128x1024_S4x256x128_2_2_1_1_0_0 1024 rfl rfl).symm]
  refine Finset.sum_congr rfl fun d _ => ?_
  have hk := contrEquiv1_symm_val dot_S4x256x1024_S4x128x1024_S4x256x128_2_2_1_1_0_0 1024 rfl rfl d
  have el : dot_S4x256x1024_S4x128x1024_S4x256x128_2_2_1_1_0_0.lhsIdx (ix3 b r i)
      ((contrEquiv1 dot_S4x256x1024_S4x128x1024_S4x256x128_2_2_1_1_0_0 1024 rfl rfl).symm d) = ix3 b r d :=
    funext fun a => Fin.ext (by
      match a with
      | ⟨0, _⟩ => exact lhs_qk_0 _ _
      | ⟨1, _⟩ => exact lhs_qk_1 _ _
      | ⟨2, _⟩ => exact (lhs_qk_2 _ _).trans hk)
  have er : dot_S4x256x1024_S4x128x1024_S4x256x128_2_2_1_1_0_0.rhsIdx (ix3 b r i)
      ((contrEquiv1 dot_S4x256x1024_S4x128x1024_S4x256x128_2_2_1_1_0_0 1024 rfl rfl).symm d) = ix3 b i d :=
    funext fun a => Fin.ext (by
      match a with
      | ⟨0, _⟩ => exact rhs_qk_0 _ _
      | ⟨1, _⟩ => exact rhs_qk_1 _ _
      | ⟨2, _⟩ => exact (rhs_qk_2 _ _).trans hk)
  rw [el, er]

/-- (P8) The scaled score of query row `r` against key `i` of the block, batch `b`. -/
theorem pay8_apply (q : Vec Ideal S4x256x1024 .bf16) (k : Vec Ideal S4x128x1024 .bf16)
    (b : Fin 4) (r : Fin 256) (i : Fin 128) :
    k1_pay8 (F := Ideal) q k (ix3 b r i)
      = (∑ d : Fin 1024, q (ix3 b r d) * k (ix3 b i d)) * Ideal.ofBits .f32 0x3D000000#32 := by
  unfold k1_pay8
  simp only [shapeCast_self]
  rw [mulf_apply, broadcast_apply, matmul_qk_apply]
  rfl

/-! ### The running maximum -/

/-- The maximum over the keys of a block, from `−∞`, read at batch `b`, row `r`. -/
theorem rowmax_apply (src : FVec Ideal S4x256x128 .f32) (hφ : FKind.Formats .f32)
    (hacc : (0xFF800000#32 : BitVec 32) = 0xFF800000#32) (b : Fin 4) (r : Fin 256) :
    multiReduction .maximumf [2] S4x256 src 0xFF800000#32 reduces_S4x256x128_S4x256 hφ hacc (ix2 b r)
      = (Finset.univ : Finset (Fin 128)).fold max ⊥ fun i => src (ix3 b r i) := by
  refine (Ideal.multiReduction_maximumf_single src 0xFF800000#32 reduces_S4x256x128_S4x256 hφ hacc
    (ix2 b r)).trans ?_
  show (Finset.univ : Finset (Fin 128)).fold max (Ideal.ofBits .f32 0xFF800000#32)
    (src ∘ reduces_S4x256x128_S4x256.lift (ix2 b r)) = _
  rw [const_ninf]
  refine congrArg (fun f => Finset.fold max ⊥ f Finset.univ) (funext fun i => ?_)
  show src _ = src _
  refine congrArg src (funext fun a => Fin.ext ?_)
  match a with
  | ⟨0, _⟩ => rfl
  | ⟨1, _⟩ => rfl
  | ⟨2, _⟩ => rfl

/-- A row statistic `[4,256]` viewed `[4,256,1]` reads the same row. -/
theorem cast_col_apply (x : FVec Ideal S4x256 .f32) (b : Fin 4) (r : Fin 256) (z : Fin 1) :
    shapeCast S4x256x1 x shapeCasts_S4x256_S4x256x1 (ix3 b r z) = x (ix2 b r) := by
  refine shapeCast_apply x shapeCasts_S4x256_S4x256x1 (ix3 b r z) (ix2 b r) ?_
  rw [Shape.rowMajor_val_two, Shape.rowMajor_val_three]
  show b.val * 256 + r.val = (b.val * 256 + r.val) * 1 + z.val
  omega

/-- (P9) The new running maximum: the old one against the block's maximum score. -/
theorem pay9_apply (q : Vec Ideal S4x256x1024 .bf16) (k : Vec Ideal S4x128x1024 .bf16)
    (m : Vec Ideal S4x256x1 .f32) (b : Fin 4) (r : Fin 256) :
    k1_pay9 (F := Ideal) q k m (ix3 b r 0)
      = max (m (ix3 b r 0))
          ((Finset.univ : Finset (Fin 128)).fold max ⊥ fun i => k1_pay8 (F := Ideal) q k (ix3 b r i)) := by
  unfold k1_pay9
  rw [maximumf_apply, cast_col_apply, rowmax_apply]

/-! ### The rescaling factor, the weights, the running normaliser -/

/-- (P10) The factor that rescales the old state: `exp (old maximum − new maximum)`. -/
theorem pay10_apply (q : Vec Ideal S4x256x1024 .bf16) (k : Vec Ideal S4x128x1024 .bf16)
    (m m' : Vec Ideal S4x256x1 .f32) (b : Fin 4) (r : Fin 256) :
    k1_pay10 (F := Ideal) q k m m' (ix3 b r 0)
      = Ideal.exp (m' (ix3 b r 0) - k1_pay9 (F := Ideal) q k m (ix3 b r 0)) := rfl

/-- A row statistic `[4,256,1]` spread over the `128` keys of a block reads its row. -/
theorem bcast_col128_apply (x : FVec Ideal S4x256x1 .f32) (b : Fin 4) (r : Fin 256) (i : Fin 128) :
    broadcastTo S4x256x128 x broadcasts_S4x256x1_S4x256x128 (ix3 b r i) = x (ix3 b r 0) := by
  refine broadcastTo_apply x broadcasts_S4x256x1_S4x256x128 (ix3 b r i) (ix3 b r 0) fun a => ?_
  match a with
  | ⟨0, _⟩ => show b.val = if (4 : Nat) = 1 then 0 else b.val; rw [if_neg (by decide)]
  | ⟨1, _⟩ => show r.val = if (256 : Nat) = 1 then 0 else r.val; rw [if_neg (by decide)]
  | ⟨2, _⟩ => show 0 = if (1 : Nat) = 1 then 0 else i.val; rw [if_pos rfl]

/-- (P11) The unnormalised weight of key `i`: `exp (score − new maximum)`. -/
theorem pay11_apply (q : Vec Ideal S4x256x1024 .bf16) (k : Vec Ideal S4x128x1024 .bf16)
    (m : Vec Ideal S4x256x1 .f32) (b : Fin 4) (r : Fin 256) (i : Fin 128) :
    k1_pay11 (F := Ideal) q k m (ix3 b r i)
      = Ideal.exp (k1_pay8 (F := Ideal) q k (ix3 b r i) - k1_pay9 (F := Ideal) q k m (ix3 b r 0)) := by
  unfold k1_pay11
  show Ideal.exp (k1_pay8 (F := Ideal) q k (ix3 b r i)
    - broadcastTo S4x256x128 (k1_pay9 (F := Ideal) q k m) broadcasts_S4x256x1_S4x256x128 (ix3 b r i)) = _
  rw [bcast_col128_apply]

/-- The sum over the keys of a block, read at batch `b`, row `r`. -/
theorem rowsum_apply (src : FVec Ideal S4x256x128 .f32) (hφ : FKind.Formats .f32)
    (hacc : (0x00000000#32 : BitVec 32) = 0x00000000#32) (b : Fin 4) (r : Fin 256) :
    multiReduction .add [2] S4x256 src 0x00000000#32 reduces_S4x256x128_S4x256 hφ hacc (ix2 b r)
      = ∑ i : Fin 128, src (ix3 b r i) := by
  refine (Ideal.multiReduction_add_single src 0x00000000#32 reduces_S4x256x128_S4x256 hφ hacc
    (ix2 b r)).trans ?_
  show ∑ i : Fin 128, src (reduces_S4x256x128_S4x256.lift (ix2 b r) i) = _
  refine Finset.sum_congr rfl fun i _ => congrArg src (funext fun a => Fin.ext ?_)
  match a with
  | ⟨0, _⟩ => rfl
  | ⟨1, _⟩ => rfl
  | ⟨2, _⟩ => rfl

/-- (P12) The new running normaliser: the old one rescaled, plus the block's weights. -/
theorem pay12_apply (q : Vec Ideal S4x256x1024 .bf16) (k : Vec Ideal S4x128x1024 .bf16)
    (m m' l : Vec Ideal S4x256x1 .f32) (b : Fin 4) (r : Fin 256) :
    k1_pay12 (F := Ideal) q k m m' l (ix3 b r 0)
      = k1_pay10 (F := Ideal) q k m m' (ix3 b r 0) * l (ix3 b r 0)
        + ∑ i : Fin 128, k1_pay11 (F := Ideal) q k m (ix3 b r i) := by
  unfold k1_pay12
  simp only [shapeCast_self]
  rw [addf_apply, mulf_apply, cast_col_apply, rowsum_apply]

end Cert.KernelIdeal.PayValue
-- ==== Proof.KPayloadsB.lean ====
/-
  The attention kernel's running weighted sum of the values, its pass-through values and its initial
  state, read at one index of the extended reals.

  For a block of `128` keys, batch `b`, query row `r` and feature `d`, the new running weighted sum is
  `a (b, r) · old sum (b, r, d) + ∑ i, p (b, r, i) · v (b, i, d)`, with `a` the rescaling factor and
  `p` the block's weights: a `[4,256,1]` statistic spread over a row reads that row, and the
  contraction is the sum over its one contracted axis. The initial running maximum is `−∞`, the
  initial normaliser and the initial weighted sum are `0`.
-/
import proofs.«171910_j33732673143663_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx

/-! ### The running weighted sum of the values -/

theorem lhs_pv_0 (j : S4x256x1024.Idx) (c : dot_S4x256x128_S4x128x1024_S4x256x1024_2_1_1_2_0_0.contr.Idx) :
    (dot_S4x256x128_S4x128x1024_S4x256x1024_2_1_1_2_0_0.lhsIdx j c 0).val = (j 0).val := by
  unfold DotDims.lhsIdx
  rw [dif_pos (show (0 : Fin S4x256x128.rank) ∈ dot_S4x256x128_S4x128x1024_S4x256x1024_2_1_1_2_0_0.lhsBatch by decide)]
  rfl
theorem lhs_pv_1 (j : S4x256x1024.Idx) (c : dot_S4x256x128_S4x128x1024_S4x256x1024_2_1_1_2_0_0.contr.Idx) :
    (dot_S4x256x128_S4x128x1024_S4x256x1024_2_1_1_2_0_0.lhsIdx j c 1).val = (j 1).val := by
  unfold DotDims.lhsIdx
  rw [dif_neg (show ¬(1 : Fin S4x256x128.rank) ∈ dot_S4x256x128_S4x128x1024_S4x256x1024_2_1_1_2_0_0.lhsBatch by decide),
    dif_pos (show (1 : Fin S4x256x128.rank) ∈ dot_S4x256x128_S4x128x1024_S4x256x1024_2_1_1_2_0_0.lhsNonContracting by decide)]
  rfl
theorem lhs_pv_2 (j : S4x256x1024.Idx) (c : dot_S4x256x128_S4x128x1024_S4x256x1024_2_1_1_2_0_0.contr.Idx) :
    (dot_S4x256x128_S4x128x1024_S4x256x1024_2_1_1_2_0_0.lhsIdx j c 2).val = (c ⟨0, by decide⟩).val :=
  dot_S4x256x128_S4x128x1024_S4x256x1024_2_1_1_2_0_0.lhsIdx_val_of_single rfl j c
theorem rhs_pv_0 (j : S4x256x1024.Idx) (c : dot_S4x256x128_S4x128x1024_S4x256x1024_2_1_1_2_0_0.contr.Idx) :
    (dot_S4x256x128_S4x128x1024_S4x256x1024_2_1_1_2_0_0.rhsIdx j c 0).val = (j 0).val := by
  unfold DotDims.rhsIdx
  rw [dif_pos (show (0 : Fin S4x128x1024.rank) ∈ dot_S4x256x128_S4x128x1024_S4x256x1024_2_1_1_2_0_0.rhsBatch by decide)]
  rfl
theorem rhs_pv_1 (j : S4x256x1024.Idx) (c : dot_S4x256x128_S4x128x1024_S4x256x1024_2_1_1_2_0_0.contr.Idx) :
    (dot_S4x256x128_S4x128x1024_S4x256x1024_2_1_1_2_0_0.rhsIdx j c 1).val = (c ⟨0, by decide⟩).val :=
  dot_S4x256x128_S4x128x1024_S4x256x1024_2_1_1_2_0_0.rhsIdx_val_of_single rfl j c
theorem rhs_pv_2 (j : S4x256x1024.Idx) (c : dot_S4x256x128_S4x128x1024_S4x256x1024_2_1_1_2_0_0.contr.Idx) :
    (dot_S4x256x128_S4x128x1024_S4x256x1024_2_1_1_2_0_0.rhsIdx j c 2).val = (j 2).val := by
  unfold DotDims.rhsIdx
  rw [dif_neg (show ¬(2 : Fin S4x128x1024.rank) ∈ dot_S4x256x128_S4x128x1024_S4x256x1024_2_1_1_2_0_0.rhsBatch by decide),
    dif_pos (show (2 : Fin S4x128x1024.rank) ∈ dot_S4x256x128_S4x128x1024_S4x256x1024_2_1_1_2_0_0.rhsNonContracting by decide)]
  rfl

/-- The contraction of the weights with the values read at an index: batch `b`, row `r`, feature `d`. -/
theorem matmul_pv_apply (p : FVec Ideal S4x256x128 .bf16) (v : FVec Ideal S4x128x1024 .bf16)
    (b : Fin 4) (r : Fin 256) (d : Fin 1024) :
    matmul dot_S4x256x128_S4x128x1024_S4x256x1024_2_1_1_2_0_0 none p v
        (constant (F := Ideal) S4x256x1024 .f32 0x00000000#32) (ix3 b r d)
      = ∑ i : Fin 128, p (ix3 b r i) * v (ix3 b i d) := by
  simp only [matmul]
  rw [Ideal.matmul_constant_zero_apply,
    ← Equiv.sum_comp (contrEquiv1 dot_S4x256x128_S4x128x1024_S4x256x1024_2_1_1_2_0_0 128 rfl rfl).symm]
  refine Finset.sum_congr rfl fun i _ => ?_
  have hk := contrEquiv1_symm_val dot_S4x256x128_S4x128x1024_S4x256x1024_2_1_1_2_0_0 128 rfl rfl i
  have el : dot_S4x256x128_S4x128x1024_S4x256x1024_2_1_1_2_0_0.lhsIdx (ix3 b r d)
      ((contrEquiv1 dot_S4x256x128_S4x128x1024_S4x256x1024_2_1_1_2_0_0 128 rfl rfl).symm i) = ix3 b r i :=
    funext fun a => Fin.ext (by
      match a with
      | ⟨0, _⟩ => exact lhs_pv_0 _ _
      | ⟨1, _⟩ => exact lhs_pv_1 _ _
      | ⟨2, _⟩ => exact (lhs_pv_2 _ _).trans hk)
  have er : dot_S4x256x128_S4x128x1024_S4x256x1024_2_1_1_2_0_0.rhsIdx (ix3 b r d)
      ((contrEquiv1 dot_S4x256x128_S4x128x1024_S4x256x1024_2_1_1_2_0_0 128 rfl rfl).symm i) = ix3 b i d :=
    funext fun a => Fin.ext (by
      match a with
      | ⟨0, _⟩ => exact rhs_pv_0 _ _
      | ⟨1, _⟩ => exact (rhs_pv_1 _ _).trans hk
      | ⟨2, _⟩ => exact rhs_pv_2 _ _)
  rw [el, er]

/-- A row statistic `[4,256,1]` spread over the `1024` features reads its row. -/
theorem bcast_col1024_apply (x : FVec Ideal S4x256x1 .f32) (b : Fin 4) (r : Fin 256) (d : Fin 1024) :
    broadcastTo S4x256x1024 x broadcasts_S4x256x1_S4x256x1024 (ix3 b r d) = x (ix3 b r 0) := by
  refine broadcastTo_apply x broadcasts_S4x256x1_S4x256x1024 (ix3 b r d) (ix3 b r 0) fun a => ?_
  match a with
  | ⟨0, _⟩ => show b.val = if (4 : Nat) = 1 then 0 else b.val; rw [if_neg (by decide)]
  | ⟨1, _⟩ => show r.val = if (256 : Nat) = 1 then 0 else r.val; rw [if_neg (by decide)]
  | ⟨2, _⟩ => show 0 = if (1 : Nat) = 1 then 0 else d.val; rw [if_pos rfl]

/-- (P1) The new running weighted sum: the old one rescaled by `a`, plus the block's weights `p`
    against the values. -/
theorem pay1_apply (v : Vec Ideal S4x128x1024 .bf16) (a : FVec Ideal S4x256x1 .f32)
    (p : FVec Ideal S4x256x128 .f32) (acc : Vec Ideal S4x256x1024 .f32)
    (b : Fin 4) (r : Fin 256) (d : Fin 1024) :
    k1_pay1 (F := Ideal) (k1_pay7 (F := Ideal) v) a p acc (ix3 b r d)
      = a (ix3 b r 0) * acc (ix3 b r d) + ∑ i : Fin 128, p (ix3 b r i) * v (ix3 b i d) := by
  unfold k1_pay1 k1_pay7
  simp only [shapeCast_self]
  rw [addf_apply, mulf_apply, bcast_col1024_apply, matmul_pv_apply]
  rfl

/-! ### The pass-through and the initial state -/

/-- (P2) The stored running maximum is the computed one. -/
theorem pay2_eq (x : FVec Ideal S4x256x1 .f32) : k1_pay2 (F := Ideal) x = x := by
  unfold k1_pay2
  exact shapeCast_self _ _

/-- The values pass through their shape cast unchanged. -/
theorem pay7_eq (v : Vec Ideal S4x128x1024 .bf16) : k1_pay7 (F := Ideal) v = v := by
  unfold k1_pay7
  exact shapeCast_self _ _

/-- The initial running maximum is `−∞`, -/
theorem pay4_apply (j : S4x256x1.Idx) : k1_pay4 (F := Ideal) j = ⊥ := by
  unfold k1_pay4
  simp only [shapeCast_self]
  show Ideal.ofBits .f32 0xFF800000#32 = ⊥
  simp [Ideal.ofBits, Ideal.ieee]

/-- the initial running normaliser is `0`, -/
theorem pay5_apply (j : S4x256x1.Idx) : k1_pay5 (F := Ideal) j = 0 := by
  unfold k1_pay5
  simp only [shapeCast_self]
  exact Ideal.ofBits_zero_f32

/-- and the initial running weighted sum is `0`. -/
theorem pay6_apply (j : S4x256x1024.Idx) : k1_pay6 (F := Ideal) j = 0 := by
  unfold k1_pay6
  simp only [shapeCast_self]
  exact Ideal.ofBits_zero_f32

end Cert.KernelIdeal.PayValue
-- ==== Proof.LibOnlineSoftmax.lean ====
/-
  The online softmax agrees with the one-pass stable softmax, on the extended reals.

  A row of real scores `s j` and real values `v j` is cut into `n` blocks of `b` keys. The one-pass
  form computes, with `m` the maximum of the scores, the weighted mean
  `∑ j, (exp (s j − m) / ∑ j', exp (s j' − m)) · v j`. The online form walks the blocks and keeps a
  running maximum `M`, a running normaliser `L` and a running weighted sum `A`:
  `M' = max M (the block's maximum)`, `L' = exp (M − M') · L + ∑ i, exp (s i − M')`,
  `A' = exp (M − M') · A + ∑ i, exp (s i − M') · v i`, from `M = −∞`, `L = 0`, `A = 0`, and answers `A / L`.

  The mathematics: a softmax does not depend on the shift. For real `c, c'`,
  `exp (c − c') · exp (x − c) = exp (x − c')`, so after `k ≥ 1` blocks the state is
  `M = c` (a real), `L = ∑ exp (x − c)` and `A = ∑ exp (x − c) · y` over the keys seen so far; the
  first block starts from `L = A = 0`, where the factor `exp (−∞ − M')` multiplies zero. At the end
  `A / L` is the weighted mean with shift `c`, the one-pass form is the weighted mean with shift `m`,
  and both are `(∑ exp (s j) · v j) / ∑ exp (s j)`. That the shifts are the maxima is never used:
  only that they are real numbers, which holds because every block and the row are nonempty.
-/
import Mathlib
import Idealize.ShloMosaic.PureOps.Ideal

noncomputable section

namespace Cert.Lib.OnlineSoftmax

open Idealize.ShloMosaic

/-! ### Real arithmetic -/

/-- Changing the shift from `c` to `c'` rescales a sum of shifted exponentials by `exp (c − c')`. -/
theorem exp_shift_sum {ι : Type*} (t : Finset ι) (x : ι → ℝ) (c c' : ℝ) :
    Real.exp (c - c') * ∑ i ∈ t, Real.exp (x i - c) = ∑ i ∈ t, Real.exp (x i - c') := by
  rw [Finset.mul_sum]
  refine Finset.sum_congr rfl fun i _ => ?_
  rw [← Real.exp_add]
  congr 1
  ring

/-- The same for a weighted sum of shifted exponentials. -/
theorem exp_shift_wsum {ι : Type*} (t : Finset ι) (x y : ι → ℝ) (c c' : ℝ) :
    Real.exp (c - c') * ∑ i ∈ t, Real.exp (x i - c) * y i
      = ∑ i ∈ t, Real.exp (x i - c') * y i := by
  rw [Finset.mul_sum]
  refine Finset.sum_congr rfl fun i _ => ?_
  rw [← mul_assoc, ← Real.exp_add]
  congr 2
  ring

/-- The two-level forms: a sum over the first `k` blocks of the sums over a block. -/
theorem exp_shift_sum₂ {b : ℕ} (k : ℕ) (x : ℕ → Fin b → ℝ) (c c' : ℝ) :
    Real.exp (c - c') * ∑ j ∈ Finset.range k, ∑ i, Real.exp (x j i - c)
      = ∑ j ∈ Finset.range k, ∑ i, Real.exp (x j i - c') := by
  rw [Finset.mul_sum]
  exact Finset.sum_congr rfl fun j _ => exp_shift_sum _ _ _ _

theorem exp_shift_wsum₂ {b : ℕ} (k : ℕ) (x y : ℕ → Fin b → ℝ) (c c' : ℝ) :
    Real.exp (c - c') * ∑ j ∈ Finset.range k, ∑ i, Real.exp (x j i - c) * y j i
      = ∑ j ∈ Finset.range k, ∑ i, Real.exp (x j i - c') * y j i := by
  rw [Finset.mul_sum]
  exact Finset.sum_congr rfl fun j _ => exp_shift_wsum _ _ _ _ _

/-- A softmax-weighted mean does not depend on the shift: the quotient form at shift `c` is the
    sum of normalised weights at shift `d`. -/
theorem softmax_shift {J : Type*} [Fintype J] (s v : J → ℝ) (c d : ℝ) :
    (∑ j, Real.exp (s j - c) * v j) / (∑ j, Real.exp (s j - c))
      = ∑ j, Real.exp (s j - d) / (∑ j', Real.exp (s j' - d)) * v j := by
  rw [← exp_shift_sum Finset.univ s d c, ← exp_shift_wsum Finset.univ s v d c,
    mul_div_mul_left _ _ (Real.exp_pos _).ne', Finset.sum_div]
  refine Finset.sum_congr rfl fun j _ => ?_
  ring

/-- A sum over `n` blocks of `b` keys is the sum over the row, through the bijection `e`. -/
theorem sum_blocks {n b : ℕ} {J : Type*} [Fintype J] (e : Fin n × Fin b ≃ J) (g : J → ℝ)
    (f : ℕ → Fin b → ℝ) (hf : ∀ k (hk : k < n) i, f k i = g (e (⟨k, hk⟩, i))) :
    ∑ k ∈ Finset.range n, ∑ i, f k i = ∑ j, g j := by
  rw [Finset.sum_range, ← Equiv.sum_comp e g, Fintype.sum_prod_type]
  exact Finset.sum_congr rfl fun k _ => Finset.sum_congr rfl fun i _ => hf k.val k.isLt i

/-! ### Extended reals -/

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum of two reals, coerced. -/
theorem coe_max (a c : ℝ) : max (a : EReal) (c : EReal) = ((max a c : ℝ) : EReal) :=
  (EReal.coe_strictMono.monotone.map_max).symm

/-- The maximum of a nonempty finite family of reals, folded from `−∞`, is a real. -/
theorem fold_max_coe {ι : Type*} (t : Finset ι) (ht : t.Nonempty) (f : ι → ℝ) :
    ∃ c : ℝ, t.fold max ⊥ (fun i => (f i : EReal)) = (c : EReal) := by
  classical
  induction ht using Finset.Nonempty.cons_induction with
  | singleton a => exact ⟨f a, by simp⟩
  | cons a t ha ht ih =>
    obtain ⟨c, hc⟩ := ih
    exact ⟨max (f a) c, by rw [Finset.fold_cons, hc, coe_max]⟩

/-- A sum of exponentials of real scores shifted by a real, on the extended reals. -/
theorem sum_exp_coe {ι : Type*} (t : Finset ι) (x : ι → ℝ) (c : ℝ) :
    ∑ i ∈ t, Ideal.exp (((x i : ℝ) : EReal) - (c : EReal))
      = ((∑ i ∈ t, Real.exp (x i - c) : ℝ) : EReal) := by
  rw [coe_sum]
  exact Finset.sum_congr rfl fun i _ => by rw [← EReal.coe_sub, Ideal.exp_coe]

/-- The weighted form. -/
theorem wsum_exp_coe {ι : Type*} (t : Finset ι) (x y : ι → ℝ) (c : ℝ) :
    ∑ i ∈ t, Ideal.exp (((x i : ℝ) : EReal) - (c : EReal)) * ((y i : ℝ) : EReal)
      = ((∑ i ∈ t, Real.exp (x i - c) * y i : ℝ) : EReal) := by
  rw [coe_sum]
  exact Finset.sum_congr rfl fun i _ => by rw [← EReal.coe_sub, Ideal.exp_coe, ← EReal.coe_mul]

/-- A quotient of reals with a nonzero denominator, on the extended reals. -/
theorem div_coe_coe (a z : ℝ) (hz : z ≠ 0) :
    Ideal.div (a : EReal) (z : EReal) = ((a / z : ℝ) : EReal) := by
  rw [Ideal.div_coe hz, ← EReal.coe_mul, mul_one_div]

/-! ### The recurrence -/

/-- The first block: from `M = −∞`, `L = 0`, `A = 0` the state after one block is a real maximum
    `c` with the block's sums at shift `c`. The factor `exp (−∞ − c)` multiplies zero. -/
theorem first_block {b : ℕ} (hb : 0 < b) (x y : Fin b → ℝ) (M0 M1 L0 L1 A0 A1 : EReal)
    (hM0 : M0 = ⊥) (hL0 : L0 = 0) (hA0 : A0 = 0)
    (hM : M1 = max M0 (Finset.univ.fold max ⊥ fun i => ((x i : ℝ) : EReal)))
    (hL : L1 = Ideal.exp (M0 - M1) * L0 + ∑ i, Ideal.exp (((x i : ℝ) : EReal) - M1))
    (hA : A1 = Ideal.exp (M0 - M1) * A0
      + ∑ i, Ideal.exp (((x i : ℝ) : EReal) - M1) * ((y i : ℝ) : EReal)) :
    ∃ c : ℝ, M1 = (c : EReal) ∧ L1 = ((∑ i, Real.exp (x i - c) : ℝ) : EReal)
      ∧ A1 = ((∑ i, Real.exp (x i - c) * y i : ℝ) : EReal) := by
  haveI : Nonempty (Fin b) := ⟨⟨0, hb⟩⟩
  obtain ⟨c, hc⟩ := fold_max_coe Finset.univ Finset.univ_nonempty x
  have hM1 : M1 = (c : EReal) := by rw [hM, hM0, hc, max_eq_right bot_le]
  refine ⟨c, hM1, ?_, ?_⟩
  · rw [hL, hL0, mul_zero, zero_add, hM1, sum_exp_coe]
  · rw [hA, hA0, mul_zero, zero_add, hM1, wsum_exp_coe]

/-- A later block: from a real maximum `c` with the sums `S`, `T` at shift `c`, the next state is a
    real maximum `c'` with `exp (c − c') · S` plus the block's sum at shift `c'`, and the same for `T`. -/
theorem next_block {b : ℕ} (hb : 0 < b) (x y : Fin b → ℝ) (c S T : ℝ) (M0 M1 L0 L1 A0 A1 : EReal)
    (hM0 : M0 = (c : EReal)) (hL0 : L0 = (S : EReal)) (hA0 : A0 = (T : EReal))
    (hM : M1 = max M0 (Finset.univ.fold max ⊥ fun i => ((x i : ℝ) : EReal)))
    (hL : L1 = Ideal.exp (M0 - M1) * L0 + ∑ i, Ideal.exp (((x i : ℝ) : EReal) - M1))
    (hA : A1 = Ideal.exp (M0 - M1) * A0
      + ∑ i, Ideal.exp (((x i : ℝ) : EReal) - M1) * ((y i : ℝ) : EReal)) :
    ∃ c' : ℝ, M1 = (c' : EReal)
      ∧ L1 = ((Real.exp (c - c') * S + ∑ i, Real.exp (x i - c') : ℝ) : EReal)
      ∧ A1 = ((Real.exp (c - c') * T + ∑ i, Real.exp (x i - c') * y i : ℝ) : EReal) := by
  haveI : Nonempty (Fin b) := ⟨⟨0, hb⟩⟩
  obtain ⟨m, hm⟩ := fold_max_coe Finset.univ Finset.univ_nonempty x
  have hM1 : M1 = ((max c m : ℝ) : EReal) := by rw [hM, hM0, hm, coe_max]
  refine ⟨max c m, hM1, ?_, ?_⟩
  · rw [hL, hL0, hM0, hM1, sum_exp_coe, ← EReal.coe_sub, Ideal.exp_coe, ← EReal.coe_mul,
      ← EReal.coe_add]
  · rw [hA, hA0, hM0, hM1, wsum_exp_coe, ← EReal.coe_sub, Ideal.exp_coe, ← EReal.coe_mul,
      ← EReal.coe_add]

/-- The invariant of the recurrence over blocks `x k`, `y k` (`k < n`): after `k ≥ 1` blocks the running
    maximum is a real `c`, and the running normaliser and weighted sum are the sums over the first
    `k` blocks at shift `c`. -/
theorem invariant {n b : ℕ} (hb : 0 < b) (x y : ℕ → Fin b → ℝ) (M L A : ℕ → EReal)
    (hM0 : M 0 = ⊥) (hL0 : L 0 = 0) (hA0 : A 0 = 0)
    (hM : ∀ k, k < n →
      M (k + 1) = max (M k) (Finset.univ.fold max ⊥ fun i => ((x k i : ℝ) : EReal)))
    (hL : ∀ k, k < n → L (k + 1) = Ideal.exp (M k - M (k + 1)) * L k
      + ∑ i, Ideal.exp (((x k i : ℝ) : EReal) - M (k + 1)))
    (hA : ∀ k, k < n → A (k + 1) = Ideal.exp (M k - M (k + 1)) * A k
      + ∑ i, Ideal.exp (((x k i : ℝ) : EReal) - M (k + 1)) * ((y k i : ℝ) : EReal))
    (k : ℕ) (hk1 : 1 ≤ k) (hkn : k ≤ n) :
    ∃ c : ℝ, M k = (c : EReal)
      ∧ L k = ((∑ j ∈ Finset.range k, ∑ i, Real.exp (x j i - c) : ℝ) : EReal)
      ∧ A k = ((∑ j ∈ Finset.range k, ∑ i, Real.exp (x j i - c) * y j i : ℝ) : EReal) := by
  induction k, hk1 using Nat.le_induction with
  | base =>
    obtain ⟨c, h1, h2, h3⟩ := first_block hb (x 0) (y 0) (M 0) (M 1) (L 0) (L 1) (A 0) (A 1)
      hM0 hL0 hA0 (hM 0 hkn) (hL 0 hkn) (hA 0 hkn)
    exact ⟨c, h1, by rw [h2, Finset.sum_range_one], by rw [h3, Finset.sum_range_one]⟩
  | succ k hk1 ih =>
    obtain ⟨c, h1, h2, h3⟩ := ih (Nat.le_of_succ_le hkn)
    obtain ⟨c', g1, g2, g3⟩ := next_block hb (x k) (y k) c _ _ (M k) (M (k + 1)) (L k) (L (k + 1))
      (A k) (A (k + 1)) h1 h2 h3 (hM k hkn) (hL k hkn) (hA k hkn)
    refine ⟨c', g1, ?_, ?_⟩
    · rw [g2, exp_shift_sum₂, Finset.sum_range_succ]
    · rw [g3, exp_shift_wsum₂, Finset.sum_range_succ]

/-! ### The theorem -/

/-- **The online softmax is the stable softmax.** A row of real scores `s` and real values `v`,
    indexed by `J`, is cut by the bijection `e` into `n ≥ 1` blocks of `b ≥ 1` keys. Let `M, L, A` follow
    the online recurrence over the blocks from `M 0 = −∞`, `L 0 = 0`, `A 0 = 0`: the running maximum
    `M (k+1) = max (M k) (max of block k)`, the running normaliser
    `L (k+1) = exp (M k − M (k+1)) · L k + ∑ i, exp (s i − M (k+1))` and the running weighted sum
    `A (k+1) = exp (M k − M (k+1)) · A k + ∑ i, exp (s i − M (k+1)) · v i`. Then `A n / L n` is the
    softmax-weighted mean `∑ j, (exp (s j − m) / ∑ j', exp (s j' − m)) · v j` with `m` the row's
    maximum, all on the extended reals. -/
theorem online_softmax {n b : ℕ} (hn : 0 < n) (hb : 0 < b) {J : Type*} [Fintype J]
    (e : Fin n × Fin b ≃ J) (s v : J → ℝ) (M L A : ℕ → EReal)
    (hM0 : M 0 = ⊥) (hL0 : L 0 = 0) (hA0 : A 0 = 0)
    (hM : ∀ k (hk : k < n), M (k + 1) = max (M k)
      ((Finset.univ : Finset (Fin b)).fold max ⊥ fun i => ((s (e (⟨k, hk⟩, i)) : ℝ) : EReal)))
    (hL : ∀ k (hk : k < n), L (k + 1) = Ideal.exp (M k - M (k + 1)) * L k
      + ∑ i : Fin b, Ideal.exp (((s (e (⟨k, hk⟩, i)) : ℝ) : EReal) - M (k + 1)))
    (hA : ∀ k (hk : k < n), A (k + 1) = Ideal.exp (M k - M (k + 1)) * A k
      + ∑ i : Fin b, Ideal.exp (((s (e (⟨k, hk⟩, i)) : ℝ) : EReal) - M (k + 1))
          * ((v (e (⟨k, hk⟩, i)) : ℝ) : EReal)) :
    Ideal.div (A n) (L n)
      = ∑ j : J, Ideal.div
          (Ideal.exp (((s j : ℝ) : EReal)
            - (Finset.univ : Finset J).fold max ⊥ fun j => ((s j : ℝ) : EReal)))
          (∑ j' : J, Ideal.exp (((s j' : ℝ) : EReal)
            - (Finset.univ : Finset J).fold max ⊥ fun j => ((s j : ℝ) : EReal)))
          * ((v j : ℝ) : EReal) := by
  haveI : Nonempty J := ⟨e (⟨0, hn⟩, ⟨0, hb⟩)⟩
  -- the blocks as total functions of the block number
  let x : ℕ → Fin b → ℝ := fun k i => if hk : k < n then s (e (⟨k, hk⟩, i)) else 0
  let y : ℕ → Fin b → ℝ := fun k i => if hk : k < n then v (e (⟨k, hk⟩, i)) else 0
  have hx : ∀ k (hk : k < n) i, x k i = s (e (⟨k, hk⟩, i)) := fun k hk i => dif_pos hk
  have hy : ∀ k (hk : k < n) i, y k i = v (e (⟨k, hk⟩, i)) := fun k hk i => dif_pos hk
  -- the state after the last block
  obtain ⟨c, -, hLn, hAn⟩ := invariant hb x y M L A hM0 hL0 hA0
    (fun k hk => by rw [hM k hk]; simp only [hx k hk])
    (fun k hk => by rw [hL k hk]; simp only [hx k hk])
    (fun k hk => by rw [hA k hk]; simp only [hx k hk, hy k hk]) n hn le_rfl
  rw [sum_blocks e (fun j => Real.exp (s j - c)) _ fun k hk i => by rw [hx k hk i]] at hLn
  rw [sum_blocks e (fun j => Real.exp (s j - c) * v j) _
    fun k hk i => by rw [hx k hk i, hy k hk i]] at hAn
  -- the row's maximum is a real
  obtain ⟨d, hd⟩ := fold_max_coe Finset.univ Finset.univ_nonempty s
  have hpos : ∀ t : ℝ, (∑ j, Real.exp (s j - t)) ≠ 0 := fun t =>
    (Finset.sum_pos (fun j _ => Real.exp_pos _) Finset.univ_nonempty).ne'
  rw [hLn, hAn, div_coe_coe _ _ (hpos c), hd, sum_exp_coe, softmax_shift s v c d, coe_sum]
  refine Finset.sum_congr rfl fun j _ => ?_
  rw [← EReal.coe_sub, Ideal.exp_coe, div_coe_coe _ _ (hpos d), ← EReal.coe_mul]

end Cert.Lib.OnlineSoftmax
-- ==== Proof.KRegion1Row.lean ====
/-
  One row of one query tile. At batch `b`, row `r` of the tile (row `T = 256 · qi + r` of the queries) and feature `d`,
  the three carried numbers follow the online-softmax recurrence over the sixteen key tiles, with the scores
  `s j = (∑ d', Q (b, T, d') · K (b, j, d')) / 32` and the values `V (b, j, d)`; when these are real numbers the final
  quotient is the softmax-weighted sum of the values over all 2048 keys.
-/
import proofs.«171910_j33732673143663_2_alg».proof.Proof.KRegion1Seq
import proofs.«171910_j33732673143663_2_alg».proof.Proof.KRegion1Blocks
import proofs.«171910_j33732673143663_2_alg».proof.Proof.KPayloads
import proofs.«171910_j33732673143663_2_alg».proof.Proof.KPayloadsB
import proofs.«171910_j33732673143663_2_alg».proof.Proof.LibOnlineSoftmax

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.PayValue Idealize.ShloMosaic.ValueIdx Cert.Lib.OnlineSoftmax

/-- One fold, read at a row: the new maximum, normaliser and weighted sum from the old ones, the tile's 128 scores `s`
    of the row and the tile's 128 values `v` of the feature. -/
theorem fold_row (x0 : Vec Ideal S4x256x1024 .bf16) (x1 x2 : Vec Ideal S4x128x1024 .bf16) (p : Sc1 Ideal)
    (b : Fin 4) (r : Fin 256) (d : Fin 1024) (s v : Fin 128 → EReal)
    (hs : ∀ i, k1_pay8 (F := Ideal) x0 x1 (ix3 b r i) = s i) (hv : ∀ i, x2 (ix3 b i d) = v i) :
    foldM x0 x1 p.1 (ix3 b r 0) = max (p.1 (ix3 b r 0)) ((Finset.univ : Finset (Fin 128)).fold max ⊥ s)
    ∧ foldL x0 x1 p.1 p.2.1 (ix3 b r 0)
        = Ideal.exp (p.1 (ix3 b r 0) - max (p.1 (ix3 b r 0)) ((Finset.univ : Finset (Fin 128)).fold max ⊥ s)) * p.2.1 (ix3 b r 0)
          + ∑ i : Fin 128, Ideal.exp (s i - max (p.1 (ix3 b r 0)) ((Finset.univ : Finset (Fin 128)).fold max ⊥ s))
    ∧ foldA x0 x1 x2 p.1 p.2.2 (ix3 b r d)
        = Ideal.exp (p.1 (ix3 b r 0) - max (p.1 (ix3 b r 0)) ((Finset.univ : Finset (Fin 128)).fold max ⊥ s)) * p.2.2 (ix3 b r d)
          + ∑ i : Fin 128, Ideal.exp (s i - max (p.1 (ix3 b r 0)) ((Finset.univ : Finset (Fin 128)).fold max ⊥ s)) * v i := by
  have h9 : k1_pay9 (F := Ideal) x0 x1 p.1 (ix3 b r 0)
      = max (p.1 (ix3 b r 0)) ((Finset.univ : Finset (Fin 128)).fold max ⊥ s) := by
    rw [pay9_apply, show (fun i => k1_pay8 (F := Ideal) x0 x1 (ix3 b r i)) = s from funext hs]
  refine ⟨?_, ?_, ?_⟩
  · show k1_pay2 (F := Ideal) (k1_pay9 (F := Ideal) x0 x1 p.1) (ix3 b r 0) = _
    rw [pay2_eq, h9]
  · show k1_pay12 (F := Ideal) x0 x1 p.1 p.1 p.2.1 (ix3 b r 0) = _
    rw [pay12_apply, pay10_apply, h9]
    refine congrArg (_ + ·) (Finset.sum_congr rfl fun i _ => ?_)
    rw [pay11_apply, hs, h9]
  · show k1_pay1 (F := Ideal) (k1_pay7 (F := Ideal) x2) (k1_pay10 (F := Ideal) x0 x1 p.1 p.1) (k1_pay11 (F := Ideal) x0 x1 p.1) p.2.2 (ix3 b r d) = _
    rw [pay1_apply, pay10_apply, h9]
    refine congrArg (_ + ·) (Finset.sum_congr rfl fun i _ => ?_)
    rw [pay11_apply, hs, h9, hv]

variable (V : (c : Dev nD) → (b : Ref sig .tc) → Buf (Elt Ideal) ((c : Thread nD τ).loc b))

/-- The queries, keys and values the region finds, by coordinates. -/
def Qc (c : Dev nD) : Fin 4 → Fin 2048 → Fin 1024 → EReal := fun b t d => V c main_v10 (ix3 b t d)
def Kc (c : Dev nD) : Fin 4 → Fin 2048 → Fin 1024 → EReal := fun b t d => V c main_v11 (ix3 b t d)
def Vc (c : Dev nD) : Fin 4 → Fin 2048 → Fin 1024 → EReal := fun b t d => V c main_v12 (ix3 b t d)

/-- The tile's scores of a row are the row's scores against the tile's keys. -/
theorem score_blk (c : Dev nD) (qi : Fin 8) (b : Fin 4) (r : Fin 256) (T : Fin 2048) (hT : T.val = 256 * qi.val + r.val)
    (sR : Fin 2048 → ℝ)
    (hs : ∀ j : Fin 2048, (∑ d' : Fin 1024, Qc V c b T d' * Kc V c b j d') * ((1 / 32 : ℝ) : EReal) = ((sR j : ℝ) : EReal))
    (k : ℕ) (hk : k < 16) (i : Fin 128) :
    k1_pay8 (F := Ideal) (iblk1 V c 0 (pt1 qi k hk)) (iblk1 V c 1 (pt1 qi k hk)) (ix3 b r i) = ((sR (e16 (⟨k, hk⟩, i)) : ℝ) : EReal) := by
  have hq := qi.isLt
  refine (pay8_apply _ _ b r i).trans ?_
  rw [const_scale, ← hs]
  refine congrArg (· * _) (Finset.sum_congr rfl fun d' _ => ?_)
  rw [iblk1_0_apply V c (pt1 qi k hk) b r d' T (by show T.val = 256 * ((16 * qi.val + k) / 16) + r.val; omega),
    iblk1_1_apply V c (pt1 qi k hk) b i d' (e16 (⟨k, hk⟩, i)) (by show 128 * k + i.val = 128 * ((16 * qi.val + k) % 16) + i.val; omega)]
  rfl

/-- THE ROW: after the sixteen key tiles the weighted sum over the normaliser is the softmax-weighted sum of the values. -/
theorem row_attend (c : Dev nD) (qi : Fin 8) (b : Fin 4) (r : Fin 256) (d : Fin 1024) (T : Fin 2048) (hT : T.val = 256 * qi.val + r.val)
    (sR vR : Fin 2048 → ℝ)
    (hs : ∀ j : Fin 2048, (∑ d' : Fin 1024, Qc V c b T d' * Kc V c b j d') * ((1 / 32 : ℝ) : EReal) = ((sR j : ℝ) : EReal))
    (hv : ∀ j : Fin 2048, Vc V c b j d = ((vR j : ℝ) : EReal)) :
    Ideal.div ((st1 V c qi 16).2.2 (ix3 b r d)) ((st1 V c qi 16).2.1 (ix3 b r 0))
      = ∑ j : Fin 2048, Ideal.div (Ideal.exp (((sR j : ℝ) : EReal) - (Finset.univ : Finset (Fin 2048)).fold max ⊥ fun j => ((sR j : ℝ) : EReal)))
          (∑ j' : Fin 2048, Ideal.exp (((sR j' : ℝ) : EReal) - (Finset.univ : Finset (Fin 2048)).fold max ⊥ fun j => ((sR j : ℝ) : EReal)))
          * ((vR j : ℝ) : EReal) := by
  have hq := qi.isLt
  have hfold : ∀ (k : ℕ) (hk : k < 16), _ := fun k hk =>
    fold_row (iblk1 V c 0 (pt1 qi k hk)) (iblk1 V c 1 (pt1 qi k hk)) (iblk1 V c 2 (pt1 qi k hk)) (st1 V c qi k) b r d
      (fun i => ((sR (e16 (⟨k, hk⟩, i)) : ℝ) : EReal)) (fun i => ((vR (e16 (⟨k, hk⟩, i)) : ℝ) : EReal))
      (fun i => score_blk V c qi b r T hT sR hs k hk i)
      (fun i => (iblk1_2_apply V c (pt1 qi k hk) b i d (e16 (⟨k, hk⟩, i))
        (by show 128 * k + i.val = 128 * ((16 * qi.val + k) % 16) + i.val; omega)).trans (hv _))
  have hM : ∀ (k : ℕ) (hk : k < 16), (st1 V c qi (k + 1)).1 (ix3 b r 0)
      = max ((st1 V c qi k).1 (ix3 b r 0)) ((Finset.univ : Finset (Fin 128)).fold max ⊥ fun i => ((sR (e16 (⟨k, hk⟩, i)) : ℝ) : EReal)) :=
    fun k hk => by rw [st1_succ V c qi k hk]; exact (hfold k hk).1
  refine online_softmax (n := 16) (b := 128) (by norm_num) (by norm_num) e16 sR vR
    (fun k => (st1 V c qi k).1 (ix3 b r 0)) (fun k => (st1 V c qi k).2.1 (ix3 b r 0)) (fun k => (st1 V c qi k).2.2 (ix3 b r d))
    (pay4_apply (ix3 b r 0)) (pay5_apply (ix3 b r 0)) (pay6_apply (ix3 b r d)) ?_ ?_ ?_
  · intro k hk
    exact hM k hk
  · intro k hk
    show (st1 V c qi (k + 1)).2.1 (ix3 b r 0) = _
    rw [hM k hk, st1_succ V c qi k hk]
    exact (hfold k hk).2.1
  · intro k hk
    show (st1 V c qi (k + 1)).2.2 (ix3 b r d) = _
    rw [hM k hk, st1_succ V c qi k hk]
    exact (hfold k hk).2.2

end Cert.KernelIdeal.Hand

end
-- ==== Proof.KPayloadsC.lean ====
/-
  The projections of the attention kernels, read at one index of the extended reals.

  A projection of a row `p` of `x` by a square weight `w` (applied transposed) and a bias is
  `(∑ d, x (p, d) · w (e, d)) + bias e`. The output projection is taken of the running weighted sum
  divided by the running normaliser, row by row: the `[4,256,1024]` array is viewed `[1024,1024]`,
  row `(b, r)` at row `256·b + r` (both views have the same row-major position), projected, and viewed
  back; the `[1,1024]` bias is viewed `[1,1,1024]` and spread over every row.
-/
import proofs.«171910_j33732673143663_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx

/-! ### A projection: rows against the rows of a square weight, plus a bias -/

theorem lhs_xw_0 (j : S1024x1024.Idx) (c : dot_S1024x1024_S1024x1024_S1024x1024_1_1_0_0_n_n.contr.Idx) :
    (dot_S1024x1024_S1024x1024_S1024x1024_1_1_0_0_n_n.lhsIdx j c 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_xw_1 (j : S1024x1024.Idx) (c : dot_S1024x1024_S1024x1024_S1024x1024_1_1_0_0_n_n.contr.Idx) :
    (dot_S1024x1024_S1024x1024_S1024x1024_1_1_0_0_n_n.lhsIdx j c 1).val = (c ⟨0, by decide⟩).val :=
  dot_S1024x1024_S1024x1024_S1024x1024_1_1_0_0_n_n.lhsIdx_val_of_single rfl j c
theorem rhs_xw_0 (j : S1024x1024.Idx) (c : dot_S1024x1024_S1024x1024_S1024x1024_1_1_0_0_n_n.contr.Idx) :
    (dot_S1024x1024_S1024x1024_S1024x1024_1_1_0_0_n_n.rhsIdx j c 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_xw_1 (j : S1024x1024.Idx) (c : dot_S1024x1024_S1024x1024_S1024x1024_1_1_0_0_n_n.contr.Idx) :
    (dot_S1024x1024_S1024x1024_S1024x1024_1_1_0_0_n_n.rhsIdx j c 1).val = (c ⟨0, by decide⟩).val :=
  dot_S1024x1024_S1024x1024_S1024x1024_1_1_0_0_n_n.rhsIdx_val_of_single rfl j c

/-- The contraction of a row `p` of `x` with a row `e` of `w`, read at an index. -/
theorem matmul_xw_apply (x w : FVec Ideal S1024x1024 .bf16) (p e : Fin 1024) :
    matmul dot_S1024x1024_S1024x1024_S1024x1024_1_1_0_0_n_n none x w
        (constant (F := Ideal) S1024x1024 .f32 0x00000000#32) (ix2 p e)
      = ∑ d : Fin 1024, x (ix2 p d) * w (ix2 e d) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun d _ => ?_
  have hk := contrEquiv1_symm_val dot_S1024x1024_S1024x1024_S1024x1024_1_1_0_0_n_n 1024 rfl rfl d
  have el : dot_S1024x1024_S1024x1024_S1024x1024_1_1_0_0_n_n.lhsIdx (ix2 p e)
      ((contrEquiv1 dot_S1024x1024_S1024x1024_S1024x1024_1_1_0_0_n_n 1024 rfl rfl).symm d) = ix2 p d :=
    funext fun a => Fin.ext (by
      match a with
      | ⟨0, _⟩ => exact lhs_xw_0 _ _
      | ⟨1, _⟩ => exact (lhs_xw_1 _ _).trans hk)
  have er : dot_S1024x1024_S1024x1024_S1024x1024_1_1_0_0_n_n.rhsIdx (ix2 p e)
      ((contrEquiv1 dot_S1024x1024_S1024x1024_S1024x1024_1_1_0_0_n_n 1024 rfl rfl).symm d) = ix2 e d :=
    funext fun a => Fin.ext (by
      match a with
      | ⟨0, _⟩ => exact rhs_xw_0 _ _
      | ⟨1, _⟩ => exact (rhs_xw_1 _ _).trans hk)
  rw [el, er]

/-- (Q) A projection read at row `p`, output feature `e`: the row against row `e` of the weight,
    plus the bias at `e`. -/
theorem k0_pay2_apply (x : Vec Ideal S1024x1024 .f32) (w : Vec Ideal S1024x1024 .bf16)
    (bias : Vec Ideal S1x1024 .f32) (p e : Fin 1024) :
    k0_pay2 (F := Ideal) x w bias (ix2 p e)
      = (∑ d : Fin 1024, x (ix2 p d) * w (ix2 e d)) + bias (ix2 0 e) := by
  unfold k0_pay2 k0_pay1
  simp only [shapeCast_self]
  rw [truncf_apply, addf_apply, matmul_xw_apply, broadcastTo_1b_ab_apply]
  rfl

theorem k0_pay3_apply (x : Vec Ideal S1024x1024 .f32) (w : Vec Ideal S1024x1024 .bf16)
    (bias : Vec Ideal S1x1024 .f32) (p e : Fin 1024) :
    k0_pay3 (F := Ideal) x w bias (ix2 p e)
      = (∑ d : Fin 1024, x (ix2 p d) * w (ix2 e d)) + bias (ix2 0 e) := by
  unfold k0_pay3 k0_pay1
  simp only [shapeCast_self]
  rw [truncf_apply, addf_apply, matmul_xw_apply, broadcastTo_1b_ab_apply]
  rfl

theorem k0_pay4_apply (x : Vec Ideal S1024x1024 .f32) (w : Vec Ideal S1024x1024 .bf16)
    (bias : Vec Ideal S1x1024 .f32) (p e : Fin 1024) :
    k0_pay4 (F := Ideal) x w bias (ix2 p e)
      = (∑ d : Fin 1024, x (ix2 p d) * w (ix2 e d)) + bias (ix2 0 e) := by
  unfold k0_pay4 k0_pay1
  simp only [shapeCast_self]
  rw [truncf_apply, addf_apply, matmul_xw_apply, broadcastTo_1b_ab_apply]
  rfl

/-! ### The output projection of the normalised weighted sum -/

/-- A row statistic `[4,256,1]` spread over the `1024` features reads its row. -/
theorem bcast_col_feat_apply (x : FVec Ideal S4x256x1 .f32) (b : Fin 4) (r : Fin 256) (d : Fin 1024) :
    broadcastTo S4x256x1024 x broadcasts_S4x256x1_S4x256x1024 (ix3 b r d) = x (ix3 b r 0) := by
  refine broadcastTo_apply x broadcasts_S4x256x1_S4x256x1024 (ix3 b r d) (ix3 b r 0) fun a => ?_
  match a with
  | ⟨0, _⟩ => show b.val = if (4 : Nat) = 1 then 0 else b.val; rw [if_neg (by decide)]
  | ⟨1, _⟩ => show r.val = if (256 : Nat) = 1 then 0 else r.val; rw [if_neg (by decide)]
  | ⟨2, _⟩ => show 0 = if (1 : Nat) = 1 then 0 else d.val; rw [if_pos rfl]

/-- The row `(b, r)` of a `[4,256,1024]` array is row `256·b + r` of its `[1024,1024]` view. -/
def rowOf (b : Fin 4) (r : Fin 256) : Fin 1024 := ⟨b.val * 256 + r.val, by omega⟩

/-- A `[4,256,1024]` array viewed `[1024,1024]`, read at row `256·b + r`. -/
theorem flatten_apply {φ : FTy} (x : FVec Ideal S4x256x1024 φ) (b : Fin 4) (r : Fin 256) (d : Fin 1024) :
    shapeCast S1024x1024 x shapeCasts_S4x256x1024_S1024x1024 (ix2 (rowOf b r) d) = x (ix3 b r d) := by
  refine shapeCast_apply x shapeCasts_S4x256x1024_S1024x1024 (ix2 (rowOf b r) d) (ix3 b r d) ?_
  rw [Shape.rowMajor_val_two, Shape.rowMajor_val_three]
  show (b.val * 256 + r.val) * 1024 + d.val = (b.val * 256 + r.val) * 1024 + d.val
  rfl

/-- A `[1024,1024]` array viewed `[4,256,1024]`, read at `(b, r, e)`. -/
theorem unflatten_apply {φ : FTy} (x : FVec Ideal S1024x1024 φ) (b : Fin 4) (r : Fin 256) (e : Fin 1024) :
    shapeCast S4x256x1024 x shapeCasts_S1024x1024_S4x256x1024 (ix3 b r e) = x (ix2 (rowOf b r) e) := by
  refine shapeCast_apply x shapeCasts_S1024x1024_S4x256x1024 (ix3 b r e) (ix2 (rowOf b r) e) ?_
  rw [Shape.rowMajor_val_two, Shape.rowMajor_val_three]
  show (b.val * 256 + r.val) * 1024 + e.val = (b.val * 256 + r.val) * 1024 + e.val
  rfl

/-- The bias `[1,1024]` viewed `[1,1,1024]` and spread over every row reads its entry `e`. -/
theorem bias_apply (x : FVec Ideal S1x1024 .f32) (b : Fin 4) (r : Fin 256) (e : Fin 1024) :
    broadcastTo S4x256x1024 (shapeCast S1x1x1024 x shapeCasts_S1x1024_S1x1x1024)
        broadcasts_S1x1x1024_S4x256x1024 (ix3 b r e) = x (ix2 0 e) := by
  refine (broadcastTo_apply _ broadcasts_S1x1x1024_S4x256x1024 (ix3 b r e)
    (ix3 (0 : Fin 1) (0 : Fin 1) e) fun a => ?_).trans ?_
  · match a with
    | ⟨0, _⟩ => show 0 = if (1 : Nat) = 1 then 0 else b.val; rw [if_pos rfl]
    | ⟨1, _⟩ => show 0 = if (1 : Nat) = 1 then 0 else r.val; rw [if_pos rfl]
    | ⟨2, _⟩ => show e.val = if (1024 : Nat) = 1 then 0 else e.val; rw [if_neg (by decide)]
  · refine shapeCast_apply x shapeCasts_S1x1024_S1x1x1024 (ix3 (0 : Fin 1) (0 : Fin 1) e) (ix2 0 e) ?_
    rw [Shape.rowMajor_val_two, Shape.rowMajor_val_three]
    show 0 * 1024 + e.val = (0 * 1 + 0) * 1024 + e.val
    omega

/-- (P3) The result at batch `b`, row `r`, output feature `e`: the weighted sum divided by the
    normaliser, against row `e` of the output weight, plus the output bias. -/
theorem pay3_apply (acc : Vec Ideal S4x256x1024 .f32) (l : Vec Ideal S4x256x1 .f32)
    (wo : Vec Ideal S1024x1024 .bf16) (bo : Vec Ideal S1x1024 .f32)
    (b : Fin 4) (r : Fin 256) (e : Fin 1024) :
    k1_pay3 (F := Ideal) acc l wo bo (ix3 b r e)
      = (∑ d : Fin 1024, Ideal.div (acc (ix3 b r d)) (l (ix3 b r 0)) * wo (ix2 e d))
        + bo (ix2 0 e) := by
  unfold k1_pay3
  simp only [shapeCast_self]
  rw [addf_apply, unflatten_apply, matmul_xw_apply, bias_apply]
  refine congrArg (· + bo (ix2 0 e)) (Finset.sum_congr rfl fun d _ => ?_)
  rw [flatten_apply, truncf_apply, divf_apply, bcast_col_feat_apply]

end Cert.KernelIdeal.PayValue
-- ==== Proof.KRegion1Final.lean ====
/-
  From the attention kernel's result blocks to its array. The result's block of query tile `qi` is stored, and written
  back, at the tile's last key tile: at `(b, r, e)` it is `(∑ d, (acc / l) (b, r, d) · Wo (e, d)) + bo e` of the carried state
  after all sixteen key tiles, that is — when the scores and the values are real numbers — the output projection of the
  softmax attention of row `256 · qi + r`. The eight row blocks tile the `4 × 2048 × 1024` array.
-/
import proofs.«171910_j33732673143663_2_alg».proof.Proof.KRegion1Row
import proofs.«171910_j33732673143663_2_alg».proof.Proof.KPayloadsC
import proofs.«171910_j33732673143663_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.PayValue Idealize.ShloMosaic.ValueIdx
open Idealize.ShloMosaic.Pipeline (Dat)

variable (V : (c : Dev nD) → (b : Ref sig .tc) → Buf (Elt Ideal) ((c : Thread nD τ).loc b))

/-- The output projection of the softmax attention of the arrays the region finds. -/
def G5 (c : Dev nD) : S4x2048x1024.Idx → EReal := fun i =>
  (∑ d : Fin 1024, Cert.Spec.attend (Cert.Spec.score (Qc V c) (Kc V c)) (Vc V c) (i 0) (i 1) d * (V c main_v4 (ix2 (i 2 : Fin 1024) d) : EReal))
    + (V c main_v5 (ix2 (0 : Fin 1) (i 2 : Fin 1024)) : EReal)

theorem G5_ix3 (c : Dev nD) (b : Fin 4) (T : Fin 2048) (e : Fin 1024) :
    G5 V c (ix3 b T e)
      = (∑ d : Fin 1024, Cert.Spec.attend (Cert.Spec.score (Qc V c) (Kc V c)) (Vc V c) b T d * (V c main_v4 (ix2 e d) : EReal))
        + (V c main_v5 (ix2 (0 : Fin 1) e) : EReal) := rfl

/-- One row of the attention from the carried state after the sixteen key tiles. -/
theorem attend_row (c : Dev nD)
    (hS : ∀ b t s, ∃ x : ℝ, Cert.Spec.score (Qc V c) (Kc V c) b t s = ((x : ℝ) : EReal))
    (hV : ∀ b s d, ∃ x : ℝ, Vc V c b s d = ((x : ℝ) : EReal))
    (qi : Fin 8) (b : Fin 4) (r : Fin 256) (d : Fin 1024) (T : Fin 2048) (hT : T.val = 256 * qi.val + r.val) :
    Ideal.div ((st1 V c qi 16).2.2 (ix3 b r d)) ((st1 V c qi 16).2.1 (ix3 b r 0))
      = Cert.Spec.attend (Cert.Spec.score (Qc V c) (Kc V c)) (Vc V c) b T d := by
  choose sR hsR using fun j => hS b T j
  choose vR hvR using fun j => hV b j d
  rw [row_attend V c qi b r d T hT sR vR (fun j => hsR j) (fun j => hvR j)]
  unfold Cert.Spec.attend Cert.Spec.rowSum Cert.Spec.rowMax
  simp only [hsR, hvR]

/-- The printed index map of the result's window. -/
theorem idx_facts5 : ∀ t : Fin cfg1.N,
    win1_5.index t (0 : Fin 3) = 0 ∧ win1_5.index t (1 : Fin 3) = t.val / 16 ∧ win1_5.index t (2 : Fin 3) = 0 :=
  (by decide +kernel : ∀ t : Fin grid1.N, _)

/-- At the last key tile of query tile `qi` the carried buffers hold the state after all sixteen key tiles. -/
theorem state_last (c : Dev nD) (qi : Fin 8) (t : Fin cfg1.N) (ht : t.val = 16 * qi.val + 15) :
    (outsAt1 V c t.val t.isLt).2 = st1 V c qi 16 := by
  obtain rfl : t = pt1 qi 15 (by norm_num) := Fin.ext ht
  exact st1_eq V c qi 15 (by norm_num)

/-- What a last key tile's point writes back is its row block of the projected attention. -/
theorem flushed5_eq (c : Dev nD)
    (hS : ∀ b t s, ∃ x : ℝ, Cert.Spec.score (Qc V c) (Kc V c) b t s = ((x : ℝ) : EReal))
    (hV : ∀ b s d, ∃ x : ℝ, Vc V c b s d = ((x : ℝ) : EReal))
    (t : Fin cfg1.N) (ht : (cfg1.win 5).flush t = true) :
    (dat1 V c).flushed 5 t = ((cfg1.win 5).blk t).view.read (Elt Ideal) (G5 V c) := by
  have h15 : t.val % 16 = 15 := (flush1_5 t).mp ht
  have hN : cfg1.N = 128 := N_1
  have htN : t.val < 128 := lt_of_lt_of_eq t.isLt hN
  have hq : t.val / 16 < 8 := by omega
  have htq : t.val = 16 * (⟨t.val / 16, hq⟩ : Fin 8).val + 15 := by show t.val = 16 * (t.val / 16) + 15; omega
  show (cfg1.win 5).cut (grid1.coords t) ((dat1 V c).after 5 t) = _
  rw [after1_5, out1_eq V c t h15, ← state1_eq V c t, state_last V c ⟨t.val / 16, hq⟩ t htq]
  obtain ⟨e0, e1, e2⟩ := idx_facts5 t
  funext j
  obtain ⟨b, r, e, rfl⟩ : ∃ (b : Fin 4) (r : Fin 256) (e : Fin 1024), j = ix3 b r e := ⟨j 0, j 1, j 2, eq_ix3 j⟩
  refine (pay3_apply _ _ _ _ b r e).trans ?_
  have hr := r.isLt
  show _ = G5 V c (((cfg1.win 5).blk t).view.emb (ix3 b r e))
  have hemb : ((cfg1.win 5).blk t).view.emb (ix3 b r e)
      = ix3 b (⟨256 * (t.val / 16) + r.val, by omega⟩ : Fin 2048) e := by
    funext a; apply Fin.ext
    match a with
    | ⟨0, _⟩ => show win1_5.index t (0 : Fin 3) * 4 + 1 * b.val = b.val; omega
    | ⟨1, _⟩ => show win1_5.index t (1 : Fin 3) * 256 + 1 * r.val = 256 * (t.val / 16) + r.val; omega
    | ⟨2, _⟩ => show win1_5.index t (2 : Fin 3) * 1024 + 1 * e.val = e.val; omega
  rw [hemb, G5_ix3]
  refine congrArg₂ (· + ·) (Finset.sum_congr rfl fun d _ => ?_) (iblk1_4_apply V c t 0 e)
  rw [iblk1_3_apply V c t e d, attend_row V c hS hV ⟨t.val / 16, hq⟩ b r d ⟨256 * (t.val / 16) + r.val, by omega⟩ rfl]

/-- An index of the array is in point `t`'s block iff each coordinate is in the block's range on its axis. -/
theorem mem_blk5 (t : Fin cfg1.N) (i : S4x2048x1024.Idx) :
    i ∈ ((cfg1.win 5).blk t).view.set ↔ ∀ a : Fin 3, win1_5.index t a * S4x256x1024.size a ≤ (i a).val
      ∧ (i a).val < win1_5.index t a * S4x256x1024.size a + S4x256x1024.size a := by
  show i ∈ ((View.whole main_v13).slice (win1_5.rect t)).set ↔ _
  rw [View.set_slice_whole, Rect.mem_set_unit]
  exact Iff.rfl

/-- Every index of the array is in the block of the last key tile's point of its query tile: row `T` is in tile `T / 256`. -/
theorem cover5 (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  have hN : grid1.N = 128 := N_1
  let t : Fin cfg1.N := ⟨16 * ((i 1).val / 256) + 15, by show 16 * ((i 1).val / 256) + 15 < grid1.N; omega⟩
  obtain ⟨e0, e1, e2⟩ := idx_facts5 t
  have e1' : win1_5.index t (1 : Fin 3) = (16 * ((i 1).val / 256) + 15) / 16 := e1
  refine ⟨t, (flush1_5 t).mpr (by show (16 * ((i 1).val / 256) + 15) % 16 = 15; omega), ?_⟩
  rw [mem_blk5]
  intro a
  match a with
  | ⟨0, _⟩ => show win1_5.index t (0 : Fin 3) * 4 ≤ (i 0).val ∧ (i 0).val < win1_5.index t (0 : Fin 3) * 4 + 4; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- THE ARRAY THE ATTENTION REGION LEAVES: the projected softmax attention of the arrays it finds. -/
theorem final1 (c : Dev nD)
    (hS : ∀ b t s, ∃ x : ℝ, Cert.Spec.score (Qc V c) (Kc V c) b t s = ((x : ℝ) : EReal))
    (hV : ∀ b s d, ∃ x : ℝ, Vc V c b s d = ((x : ℝ) : EReal)) :
    (dat1 V c).arrAt 5 cfg1.N = G5 V c :=
  (dat1 V c).arrAt_eq_of_cover 5 (G5 V c) (fun t ht => flushed5_eq V c hS hV t ht) cover5

end Cert.KernelIdeal.Hand

end
-- ==== Proof.SpecReal.lean ====
/-
  Real-valuedness through the specification.

  Call an extended real REAL when it is the coercion of a real number. Sums, products and finite
  sums of real extended reals are real (the coercion commutes with them), so an array read by
  coordinates from real entries is real, a linear layer of real data is real, and the scaled scores
  of real queries and keys are real. By choice the real scores and the real values are then
  functions into the real numbers whose coercions are the extended-real ones.
-/
import Mathlib
import proofs.«171910_j33732673143663_2_alg».proof.Proof.Spec

noncomputable section

namespace Cert.Spec

open Idealize.ShloMosaic Idealize.ShloMosaic.ValueIdx

/-- The coercion of a finite sum of reals is the sum of the coercions. -/
theorem ereal_coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- (a) An array of real entries, read by coordinates, has real entries. -/
theorem coords_real (x : T3.Idx → EReal) (hx : ∀ i, ∃ r : ℝ, x i = (r : EReal)) :
    ∀ b t d, ∃ r : ℝ, coords x b t d = (r : EReal) :=
  fun b t d => hx (ix3 b t d)

/-- (b) A linear layer of a real input by a real weight and a real bias is real. -/
theorem linOf_real (x : Arr3) (W : T2.Idx → EReal) (β : T1.Idx → EReal)
    (hx : ∀ b t d, ∃ r : ℝ, x b t d = (r : EReal)) (hW : ∀ i, ∃ r : ℝ, W i = (r : EReal))
    (hβ : ∀ i, ∃ r : ℝ, β i = (r : EReal)) :
    ∀ b t e, ∃ r : ℝ, linOf x W β b t e = (r : EReal) := by
  choose xr hxr using hx
  choose Wr hWr using hW
  choose βr hβr using hβ
  intro b t e
  refine ⟨(∑ d : Fin 1024, xr b t d * Wr (ix2 e d)) + βr (ix1 e), ?_⟩
  show (∑ d : Fin 1024, x b t d * W (ix2 e d)) + β (ix1 e) = _
  rw [EReal.coe_add, ereal_coe_sum, hβr]
  refine congrArg (· + (βr (ix1 e) : EReal)) (Finset.sum_congr rfl fun d _ => ?_)
  rw [hxr, hWr, EReal.coe_mul]

/-- (c) The scaled scores of real queries and real keys are real. -/
theorem score_real (Q K : Arr3) (hQ : ∀ b t d, ∃ r : ℝ, Q b t d = (r : EReal))
    (hK : ∀ b t d, ∃ r : ℝ, K b t d = (r : EReal)) :
    ∀ b t s, ∃ r : ℝ, score Q K b t s = (r : EReal) := by
  choose Qr hQr using hQ
  choose Kr hKr using hK
  intro b t s
  refine ⟨(∑ d : Fin 1024, Qr b t d * Kr b s d) * (1 / 32 : ℝ), ?_⟩
  show (∑ d : Fin 1024, Q b t d * K b s d) * ((1 / 32 : ℝ) : EReal) = _
  rw [EReal.coe_mul, ereal_coe_sum]
  refine congrArg (· * ((1 / 32 : ℝ) : EReal)) (Finset.sum_congr rfl fun d _ => ?_)
  rw [hQr, hKr, EReal.coe_mul]

/-- (d) The real scores, as a function into the real numbers, -/
def scoreR (Q K : Arr3) (hQ : ∀ b t d, ∃ r : ℝ, Q b t d = (r : EReal))
    (hK : ∀ b t d, ∃ r : ℝ, K b t d = (r : EReal)) : Fin 4 → Fin 2048 → Fin 2048 → ℝ :=
  fun b t s => Classical.choose (score_real Q K hQ hK b t s)

/-- whose coercions are the scores; -/
theorem scoreR_spec (Q K : Arr3) (hQ : ∀ b t d, ∃ r : ℝ, Q b t d = (r : EReal))
    (hK : ∀ b t d, ∃ r : ℝ, K b t d = (r : EReal)) (b : Fin 4) (t s : Fin 2048) :
    score Q K b t s = ((scoreR Q K hQ hK b t s : ℝ) : EReal) :=
  Classical.choose_spec (score_real Q K hQ hK b t s)

/-- and the entries of an array of real entries, as a function into the real numbers, -/
def valR (V : Arr3) (hV : ∀ b s d, ∃ r : ℝ, V b s d = (r : EReal)) : Fin 4 → Fin 2048 → Fin 1024 → ℝ :=
  fun b s d => Classical.choose (hV b s d)

/-- whose coercions are the entries. -/
theorem valR_spec (V : Arr3) (hV : ∀ b s d, ∃ r : ℝ, V b s d = (r : EReal))
    (b : Fin 4) (s : Fin 2048) (d : Fin 1024) :
    V b s d = ((valR V hV b s d : ℝ) : EReal) :=
  Classical.choose_spec (hV b s d)

end Cert.Spec

end
-- ==== Proof.KBridge.lean ====
/-
  The kernel program computes the specification. At the return, the result array holds what the attention region's
  write-backs leave: the output projection of the softmax attention of the queries, keys and values the region finds.
  Those are the three linear layers of the launch input, and the output weight and bias row it finds are the launch
  ones. Under the precondition every launch entry is a real number, so the linear layers and the scaled scores are
  real, which is what the attention region's closed form asks; the two sides are then the same sum, index by index.
-/
import proofs.«171910_j33732673143663_2_alg».proof.Proof.KBridgeIn
import proofs.«171910_j33732673143663_2_alg».proof.Proof.KRegion1Final
import proofs.«171910_j33732673143663_2_alg».proof.Proof.SpecReal
import proofs.«171910_j33732673143663_2_alg».proof.Proof.RefFinite
import proofs.«171910_j33732673143663_2_alg».proof.Defs

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The queries the attention region finds, by coordinates, are the first linear layer of the launch input. -/
theorem Qc_eq (c : Dev nD) :
    Qc (V3 (F := Ideal) m ρ) c = Cert.Spec.linOf (Cert.Spec.coords (m ((c.tc : Thread nD τ).loc main_arg0))) (m ((c.tc : Thread nD τ).loc main_arg1)) (m ((c.tc : Thread nD τ).loc main_arg2)) :=
  funext fun b => funext fun t => funext fun d => q_in m ρ c b t d

/-- The keys, the second. -/
theorem Kc_eq (c : Dev nD) :
    Kc (V3 (F := Ideal) m ρ) c = Cert.Spec.linOf (Cert.Spec.coords (m ((c.tc : Thread nD τ).loc main_arg0))) (m ((c.tc : Thread nD τ).loc main_arg3)) (m ((c.tc : Thread nD τ).loc main_arg4)) :=
  funext fun b => funext fun t => funext fun d => k_in m ρ c b t d

/-- The values, the third. -/
theorem Vc_eq (c : Dev nD) :
    Vc (V3 (F := Ideal) m ρ) c = Cert.Spec.linOf (Cert.Spec.coords (m ((c.tc : Thread nD τ).loc main_arg0))) (m ((c.tc : Thread nD τ).loc main_arg5)) (m ((c.tc : Thread nD τ).loc main_arg6)) :=
  funext fun b => funext fun t => funext fun d => v_in m ρ c b t d

variable [Cert.Pre_finite_inputs.Facts]

/-- Under the precondition the result array at the return is the specification of the launch arrays. -/
theorem result_eq_spec (hpre : Cert.Pre_KernelIdeal m) (c : Dev nD) :
    W4 (F := Ideal) m ρ c (Proc.devRef .tc main_v13)
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := by
  obtain ⟨hx, hWq, hbq, hWk, hbk, hWv, hbv, hWo, hbo⟩ :=
    Cert.ReferenceIdeal.RefValue.finite_of_pre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (hpre c)
  have hX := Cert.Spec.coords_real (m ((c.tc : Thread nD τ).loc main_arg0)) hx
  have hQ := Cert.Spec.linOf_real _ (m ((c.tc : Thread nD τ).loc main_arg1)) (m ((c.tc : Thread nD τ).loc main_arg2)) hX hWq hbq
  have hK := Cert.Spec.linOf_real _ (m ((c.tc : Thread nD τ).loc main_arg3)) (m ((c.tc : Thread nD τ).loc main_arg4)) hX hWk hbk
  have hV := Cert.Spec.linOf_real _ (m ((c.tc : Thread nD τ).loc main_arg5)) (m ((c.tc : Thread nD τ).loc main_arg6)) hX hWv hbv
  have hS := Cert.Spec.score_real _ _ hQ hK
  rw [W4_out, final1 (V3 (F := Ideal) m ρ) c (by rw [Qc_eq, Kc_eq]; exact hS) (by rw [Vc_eq]; exact hV)]
  funext i
  obtain ⟨b, t, e, rfl⟩ : ∃ (b : Fin 4) (t : Fin 2048) (e : Fin 1024), i = ix3 b t e := ⟨i 0, i 1, i 2, eq_ix3 i⟩
  rw [G5_ix3, Qc_eq, Kc_eq, Vc_eq, bo_in, wo_in]
  rfl

end Cert.KernelIdeal.Hand

end
-- ==== Proof.lean ====
/- The proof of the unit's claim.

   The kernel computes a single-head attention layer over x : [4, 2048, 1024] in two launches. The first is a fused
   projection: a block of 1024 rows of x, rounded to bf16, is multiplied by each of the three weight matrices (rounded
   to bf16 beforehand), the bias row is added, and the block of Q, of K and of V is stored in bf16. The second walks,
   for each tile of 256 queries, over the 16 tiles of 128 keys, carrying from key tile to key tile a running row
   maximum, a running normaliser and a running weighted sum of the values (the online form of the softmax: at each
   tile the old normaliser and sum are scaled by the exponential of "old maximum less new maximum" before the tile's
   terms are added); at the last key tile it divides the sum by the normaliser and applies the output projection. The
   reference computes the same layer in one pass with the stable softmax: scores, row maximum, exponentials of the
   differences, their row sum, the quotient, the product with the values, the output projection.

   Over the extended reals, where rounding to bf16 is the identity, and on finite inputs (the precondition), both
   results are the one function Cert.Spec.out of the nine argument arrays (Proof/Spec.lean); the scale 1/32 of the
   scores is exact on both sides because the width 1024 is 32².

   The five claims: the three programs run and leave their arguments as launched (the kernel's two readings from the
   run of its four segments, Proof/KRun.lean and its word-level twin; the reference's from its run); the idealization
   rewrote no operation, so nothing is to be preserved; and at the ideal instance, from memories that agree on the
   arguments, the kernel's result array and the reference's both end at Cert.Spec.out of those arguments. -/
import proofs.«171910_j33732673143663_2_alg».proof.Defs
import proofs.«171910_j33732673143663_2_alg».proof.Proof.Gen.Kernel
import proofs.«171910_j33732673143663_2_alg».proof.Proof.Gen.KernelIdeal
import proofs.«171910_j33732673143663_2_alg».proof.Proof.Gen.ReferenceIdeal
import proofs.«171910_j33732673143663_2_alg».proof.Proof.Gen.ReferenceIdeal.Run
import proofs.«171910_j33732673143663_2_alg».proof.Proof.Gen.ReferenceIdeal.Read
import proofs.«171910_j33732673143663_2_alg».proof.Proof.Gen.Pre_finite_inputs
import proofs.«171910_j33732673143663_2_alg».proof.Proof.Gen.Kernel.Skeleton
import proofs.«171910_j33732673143663_2_alg».proof.Proof.Gen.Kernel.Launch
import proofs.«171910_j33732673143663_2_alg».proof.Proof.Gen.Kernel.Regions
import proofs.«171910_j33732673143663_2_alg».proof.Proof.Gen.Kernel.Points
import proofs.«171910_j33732673143663_2_alg».proof.Proof.Gen.KernelIdeal.Skeleton
import proofs.«171910_j33732673143663_2_alg».proof.Proof.Gen.KernelIdeal.Launch
import proofs.«171910_j33732673143663_2_alg».proof.Proof.Gen.KernelIdeal.Regions
import proofs.«171910_j33732673143663_2_alg».proof.Proof.Gen.KernelIdeal.Points
import proofs.«171910_j33732673143663_2_alg».proof.Proof.KRun
import proofs.«171910_j33732673143663_2_alg».proof.Proof.KRunBits
import proofs.«171910_j33732673143663_2_alg».proof.Proof.RefRes
import proofs.«171910_j33732673143663_2_alg».proof.Proof.RefFinite
import proofs.«171910_j33732673143663_2_alg».proof.Proof.KBridge
import Idealize.ShloMosaic.Adequacy
import Idealize.ShloMosaic.Init

noncomputable section

namespace Cert.Proof

open Idealize.ShloMosaic Idealize.ShloMosaic.TcCoe Idealize.SL.Sem

/-- The word-level kernel program runs and returns its nine arguments as launched. -/
theorem frame_k : Cert.frame_Kernel := fun m ρ _ => Cert.Kernel.Hand.frame_all (F := Bits) m ρ

/-- So does its reading over the extended reals. -/
theorem frame_ki : Cert.frame_KernelIdeal := fun m ρ _ => Cert.KernelIdeal.Hand.frame_all (F := Ideal) m ρ

/-- The reference is host operations only: its run states the result and the arguments; the arguments' half is its frame. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals: no operation was rewritten. -/
theorem preserves : Cert.preserves_Kernel_KernelIdeal := trivial

/-- Over the extended reals, from memories that agree on the nine arguments (finite, by the precondition), the kernel's
    result array and the reference's end equal: each ends at Cert.Spec.out of the arguments — the kernel's by its run
    read at the result's buffer, the reference's by its run's composed term —, and the arguments are the same arrays. -/
theorem algebraic : Cert.algebraic_KernelIdeal_ReferenceIdeal := by
  intro m ρ m' ρ' hpre hagree
  refine ⟨fun c => (Cert.Spec.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) :
      Buf (Elt Ideal) ((c.tc : Thread Cert.KernelIdeal.nD Cert.KernelIdeal.τ).loc Cert.KernelIdeal.main_v13)), ?_, ?_⟩
  · refine (θ_run Cert.KernelIdeal.defs _ _).mono (fun r h c => ⟨
      (h c _ (Cert.KernelIdeal.Hand.mem_uc Cert.KernelIdeal.main_v13 (by decide))).trans (Cert.KernelIdeal.Hand.result_eq_spec m ρ hpre c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c)⟩)
      (Cert.KernelIdeal.Hand.run_all (F := Ideal) m ρ)
  · refine (θ_run Cert.ReferenceIdeal.defs _ _).mono (fun r h c => ⟨(h c).1.trans
      ((Cert.ReferenceIdeal.RefValue.res_eq_spec m' c).trans ?_), (h c).2⟩)
      (Cert.ReferenceIdeal.Value.run (F := Ideal) m' ρ')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
